-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S8192 : S_.BroadcastsInDim S8192 (![] : Fin 0 → Fin S8192.rank)
  reducesTo_S8192_S_d0 : S8192.ReducesTo [0] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S8192 .f32) (main_arg5 : FVec F S256x64 .f32) (main_arg6 : FVec F S8192 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x512 .f32) (main_arg1 : FVec F S8192x8192 .f32) (main_arg2 : FVec F S8192x8192 .f32) (main_arg3 : FVec F S512x256 .f32) (main_arg4 : FVec F S8192 .f32) (main_arg5 : FVec F S256x64 .f32) (main_arg6 : FVec F S8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S8192x256 : Shape := ⟨2, ![8192, 256]⟩
abbrev S8192x1 : Shape := ⟨2, ![8192, 1]⟩
abbrev S8192x64 : Shape := ⟨2, ![8192, 64]⟩
abbrev S1024x512 : Shape := ⟨2, ![1024, 512]⟩
abbrev S1024x256 : Shape := ⟨2, ![1024, 256]⟩
abbrev S1024x2048 : Shape := ⟨2, ![1024, 2048]⟩
abbrev S1024x1 : Shape := ⟨2, ![1024, 1]⟩
abbrev S2048x256 : Shape := ⟨2, ![2048, 256]⟩
abbrev S1024x64 : Shape := ⟨2, ![1024, 64]⟩
abbrev S2048x64 : Shape := ⟨2, ![2048, 64]⟩
abbrev S1024 : Shape := ⟨1, ![1024]⟩

abbrev nBuf : Space → Nat
  | .hbm => 15
  | .vmem => 34
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S8192, .f32⟩
  | .hbm, ⟨5, _⟩ => ⟨S256x64, .f32⟩
  | .hbm, ⟨6, _⟩ => ⟨S8192, .f32⟩
  | .hbm, ⟨7, _⟩ => ⟨S8192x256, .bf16⟩
  | .hbm, ⟨8, _⟩ => ⟨S8192x1, .f32⟩
  | .hbm, ⟨9, _⟩ => ⟨S8192x256, .bf16⟩
  | .hbm, ⟨10, _⟩ => ⟨S256x64, .bf16⟩
  | .hbm, ⟨11, _⟩ => ⟨S8192x64, .bf16⟩
  | .hbm, ⟨12, _⟩ => ⟨S8192x1, .f32⟩
  | .hbm, ⟨13, _⟩ => ⟨S8192x64, .bf16⟩
  | .hbm, ⟨14, _⟩ => ⟨S8192x64, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .bf16⟩
  | .local _ .vmem, ⟨4, _⟩ => ⟨S1024x256, .bf16⟩
  | .local _ .vmem, ⟨5, _⟩ => ⟨S1024x2048, .f32⟩
  | .local _ .vmem, ⟨6, _⟩ => ⟨S1024x2048, .f32⟩
  | .local _ .vmem, ⟨7, _⟩ => ⟨S8192x256, .bf16⟩
  | .local _ .vmem, ⟨8, _⟩ => ⟨S1024x1, .f32⟩
  | .local _ .vmem, ⟨9, _⟩ => ⟨S1024x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x2048, .f32⟩
  | .local _ .vmem, ⟨14, _⟩ => ⟨S1024x2048, .f32⟩
  | .local _ .vmem, ⟨15, _⟩ => ⟨S8192x256, .bf16⟩
  | .local _ .vmem, ⟨16, _⟩ => ⟨S256x64, .bf16⟩
  | .local _ .vmem, ⟨17, _⟩ => ⟨S1024x64, .bf16⟩
  | .local _ .vmem, ⟨18, _⟩ => ⟨S1024x64, .bf16⟩
  | .local _ .vmem, ⟨19, _⟩ => ⟨S1024x256, .f32⟩
  | .local _ .vmem, ⟨20, _⟩ => ⟨S1024x2048, .f32⟩
  | .local _ .vmem, ⟨21, _⟩ => ⟨S1024x2048, .f32⟩
  | .local _ .vmem, ⟨22, _⟩ => ⟨S8192x64, .bf16⟩
  | .local _ .vmem, ⟨23, _⟩ => ⟨S1024x1, .f32⟩
  | .local _ .vmem, ⟨24, _⟩ => ⟨S1024x1, .f32⟩
  | .local _ .vmem, ⟨25, _⟩ => ⟨S1024x64, .bf16⟩
  | .local _ .vmem, ⟨26, _⟩ => ⟨S1024x64, .bf16⟩
  | .local _ .vmem, ⟨27, _⟩ => ⟨S1024x64, .f32⟩
  | .local _ .vmem, ⟨28, _⟩ => ⟨S1024x2048, .f32⟩
  | .local _ .vmem, ⟨29, _⟩ => ⟨S1024x2048, .f32⟩
  | .local _ .vmem, ⟨30, _⟩ => ⟨S8192x64, .bf16⟩
  | .local _ .vmem, ⟨31, _⟩ => ⟨S1024x64, .f32⟩
  | .local _ .vmem, ⟨32, _⟩ => ⟨S1024x64, .f32⟩
  | .local _ .vmem, ⟨33, _⟩ => ⟨S1024x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_mult1 (i : grid2.Coords) : BitVec 32 :=
  let arg1 : BitVec 32 := BitVec.ofNat 32 (i 1).val
  let c2048_i32 : BitVec 32 := 2048#32
  let v5 : BitVec 32 := Scalar.muli arg1 c2048_i32
  v5
def k2_off1 (i : grid2.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 4], ![false, false]⟩

def k3_mult1 (i : grid3.Coords) : BitVec 32 :=
  let arg1 : BitVec 32 := BitVec.ofNat 32 (i 1).val
  let c2048_i32 : BitVec 32 := 2048#32
  let v5 : BitVec 32 := Scalar.muli arg1 c2048_i32
  v5
def k3_off1 (i : grid3.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k3_cond2 (i : grid3.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![8, 4], ![false, false]⟩

def k4_mult1 (i : grid4.Coords) : BitVec 32 :=
  let arg1 : BitVec 32 := BitVec.ofNat 32 (i 1).val
  let c2048_i32 : BitVec 32 := 2048#32
  let v5 : BitVec 32 := Scalar.muli arg1 c2048_i32
  v5
def k4_off1 (i : grid4.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  shapeCasts_S8192_S8192x1 : S8192.ShapeCasts S8192x1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  h_S2048x256 : 0 < S2048x256.numel
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  shapeCasts_S1024x64_S1024x64 : S1024x64.ShapeCasts S1024x64
  h_S2048x64 : 0 < S2048x64.numel
  shapeCasts_S2048x64_S2048x64 : S2048x64.ShapeCasts S2048x64
  broadcasts_S1024x1_S1024x64 : S1024x1.Broadcasts S1024x64
  reduces_S1024x64_S1024 : S1024x64.Reduces [1] S1024
  shapeCasts_S1024_S1024x1 : S1024.ShapeCasts S1024x1
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x64_S1024x64_1_0_0_1_n_n_wf : DotDims.WF S1024x256 S256x64 S1024x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .bf16 = 32 ∨ (Rect.block (s := S8192x256) S1024x256.size (cc1_transform_3 i) (hinb1_3 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S2048x256.size a ≤ S8192x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x256.size a ≤ S8192x256.size a
  hwx2_1 : ∀ i : grid2.Coords, EltTy.bits .bf16 = 32 ∨ (Rect.block (s := S8192x256) S8192x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .bf16 = 32 ∨ (Rect.block (s := S256x64) S256x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x64.size a ≤ S8192x64.size a
  hwx2_3 : ∀ i : grid2.Coords, EltTy.bits .bf16 = 32 ∨ (Rect.block (s := S8192x64) S1024x64.size (cc2_transform_3 i) (hinb2_3 i)).WholeWords (EltTy.packing .bf16)
  hrank3 : 0 < grid3.rank
  k3_mult1_dvd : ∀ i : grid3.Coords, 128 ∣ (k3_mult1 i).toNat
  k3_off1_inb : ∀ i : grid3.Coords, ∀ a, (k3_off1 i) a + S2048x64.size a ≤ S8192x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .bf16 = 32 ∨ (Rect.block (s := S8192x64) S8192x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S8192x64.size a
  hwx3_3 : ∀ i : grid3.Coords, EltTy.bits .bf16 = 32 ∨ (Rect.block (s := S8192x64) S1024x64.size (cc3_transform_3 i) (hinb3_3 i)).WholeWords (EltTy.packing .bf16)
  hrank4 : 0 < grid4.rank
  k4_mult1_dvd : ∀ i : grid4.Coords, 128 ∣ (k4_mult1 i).toNat
  k4_off1_inb : ∀ i : grid4.Coords, ∀ a, (k4_off1 i) a + S2048x64.size a ≤ S8192x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x2048.size a ≤ S8192x8192.size a
  hwx4_0 : ∀ i : grid4.Coords, EltTy.bits .f32 = 32 ∨ (Rect.block (s := S8192x8192) S1024x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .bf16 = 32 ∨ (Rect.block (s := S8192x64) S8192x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S8192x64.size a
  hwx4_2 : ∀ i : grid4.Coords, EltTy.bits .f32 = 32 ∨ (Rect.block (s := S8192x64) S1024x64.size (cc4_transform_2 i) (hinb4_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S8192x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v4) S1024x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_arg2) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v4) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v5) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v6) S1024x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg1) S1024x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v6) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1024x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S8192 : Shape := ⟨1, ![8192]⟩
abbrev S256x64 : Shape := ⟨2, ![256, 64]⟩
abbrev S8192x256 : Shape := ⟨2, ![8192, 256]⟩
abbrev S8192x1 : Shape := ⟨2, ![8192, 1]⟩
abbrev S_ : Shape := ⟨0, ![]⟩
abbrev S8192x64 : Shape := ⟨2, ![8192, 64]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x256, .f32⟩
  | .hbm, ⟨4, _⟩ => ⟨S8192, .f32⟩
  | .hbm, ⟨5, _⟩ => ⟨S256x64, .f32⟩
  | .hbm, ⟨6, _⟩ => ⟨S8192, .f32⟩
  | .hbm, ⟨7, _⟩ => ⟨S8192x256, .f32⟩
  | .hbm, ⟨8, _⟩ => ⟨S8192x256, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192x256, .f32⟩
  | .hbm, ⟨15, _⟩ => ⟨S8192x256, .f32⟩
  | .hbm, ⟨16, _⟩ => ⟨S8192x64, .f32⟩
  | .hbm, ⟨17, _⟩ => ⟨S8192x64, .f32⟩
  | .hbm, ⟨18, _⟩ => ⟨S8192x1, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S8192x64, .f32⟩
  | .hbm, ⟨36, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v13 : Ref sig .tc := ⟨.hbm, 36, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S8192x1_S8192x64_0_1 : S8192x1.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.K.Base.lean ====
/-
  What every hand module of this program shares: the resource algebra the launch is run at, the shape of a
  TensorCore valuation, and what rides beside the unscoped buffers from one segment of @main to the next (the
  core owes no other core anything, at every boundary).
-/
import proofs.«173608_j68341519613982_2_alg».proof.Proof.Gen.Kernel.Launch
import proofs.«173608_j68341519613982_2_alg».proof.Proof.Gen.Kernel.Points
import proofs.«173608_j68341519613982_2_alg».proof.Proof.Gen.Kernel.Skeleton
import Idealize.ShloMosaic.Lib.Pipeline.RegionsLoop
import Idealize.ShloMosaic.Lib.Pipeline.Frame
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource model every region of this program is run at: no index, names and levels natural numbers, the
    pipeline library's own algebra. -/
abbrev MM (F : FTy → Type) [FloatOps F] : Type := MT nD τ sig Unit (Elt F) ℕ (UR sig nD τ) ℕ

/-- The TensorCore's buffer contents on every core: what a region is entered from. -/
abbrev TcVal (F : FTy → Type) [FloatOps F] : Type := (c : Dev nD) → (b : Ref sig .tc) → Buf (Elt F) ((c : Thread nD τ).loc b)

/-- No prefetched table anywhere. -/
abbrev adm : (p : Fin 5) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every segment: the core's tallies, at nothing owed. -/
abbrev R (c : Dev nD) : sProp (MM F) := iprop(∃ W, owes (c : Thread nD τ) (0 : CellTallies nD τ sig Unit) W)

end Cert.Kernel.Hand

end
-- ==== Proof.K.R0.lean ====
/-
  The first region: one row block of x (1024 rows of 512) times the whole of w1 (512 by 256), at each of the
  eight grid points. The body loads the row block and the matrix, multiplies, and stores the product over the
  whole output block; nothing is carried from one point to the next. So the proof data names, after every point,
  each input's staging buffer at its block and the output's at the product of the two blocks, and the body's triple
  is one run of the executor.
-/
import proofs.«173608_j68341519613982_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : TcVal F)

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rx0 : Rect S1024x512 := Rect.unit (s := S1024x512) ![0, 0] S1024x512.size inb_S1024x512_S1024x512_0_0
abbrev rw0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- What the output's staging buffer holds after the body: its one store, of the product of the two loaded blocks. -/
def prod0 (x : Vec F S1024x512 .f32) (w : Vec F S512x256 .f32) : Vec F S1024x256 .bf16 :=
  View.canon [⟨ro0, k0_pay1 (View.ld x rx0) (View.ld w rw0)⟩]

/-- The one store covers the output block. -/
theorem cover_prod0 (p : Vec F S1024x256 .bf16) (y : S1024x256.Idx) :
    ∃ pc ∈ ([⟨ro0, p⟩] : List (View.Piece (Elt F) S1024x256 .bf16)), y ∈ pc.1.set :=
  View.cover_of_tiled [⟨ro0, p⟩] S1024x256.size (by rfl) y

set_option maxHeartbeats 1000000 in
/-- The body on whole staging memrefs, the inputs' at contents read as `x` and `w`, the output's at anything: it runs
    to its return with the inputs' as they were and the output's at the product. -/
theorem run0 (c : Dev nD) (E : Set ℕ) (i : grid0.Coords)
    (a1 : Memref sig .tc .vmem S1024x512 .f32) (h1 : a1.IsWhole) (a2 : Memref sig .tc .vmem S512x256 .f32) (h2 : a2.IsWhole)
    (a3 : Memref sig .tc .vmem S1024x256 .bf16) (h3 : a3.IsWhole)
    (x : Vec F S1024x512 .f32) (w : Vec F S512x256 .f32) (K : PUnit → sProp (MM F)) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod0 x w)) -∗ K ⟨⟩))
      ⊢ wp frame (wpE (defs₀ (F := F)) Variants.none c none) E (cc0__small_matmul_kernel i a1 h1 a2 h2 a3 h3) K := by
  simp only [cc0__small_matmul_kernel_eq_skeleton]; unfold cc0__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_prod0 _)

/-- The proof data of the first region on core `c`: the arrays as the region finds them; after the body at point
    `t` each input's buffer at its block and the output's at the product of the two; between points only the scoped
    buffers no window stages, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

/-- The row block's buffer holds the block at every point (it is fetched at every point). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

/-- The matrix's buffer holds the whole matrix at every point, though it is fetched only at the first: its index never
    moves and the body leaves it in place. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

/-- What the body is called with at point `t`, the windows one by one, -/
def bodyPre0 (c : Dev nD) (t : Fin cfg0.N) : sProp (MM F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp (MM F) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and the tallies pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Entering the region, the invariant is the scoped rest as the launch hands it over, -/
theorem hin0 (c : Dev nD) : (Pipeline.scopedRest (Ix := Unit) (Name := ℕ) (U := UR sig nD τ) (Lvl := ℕ) (Val := Elt F) spec0 c : sProp (MM F)) ⊢ (dat0 V c).Φ 0 := .rfl
/-- and leaving it, it gives the same back. -/
theorem hout0 (c : Dev nD) : (dat0 V c).Φ (Fin.last cfg0.N) ⊢ (Pipeline.scopedRest (Ix := Unit) (Name := ℕ) (U := UR sig nD τ) (Lvl := ℕ) (Val := Elt F) spec0 c : sProp (MM F)) := .rfl

end Cert.Kernel.Hand

end
-- ==== Proof.K.R1Run.lean ====
/-
  Region 1 of the program: the K-blocked product of a 1024-row block of the square matrix with the resident
  8192 x 256 operand, accumulated over four steps of 2048 columns into a 1024 x 256 single-precision scratch, and at
  the last step scaled row by row by a 1024 x 1 column and rounded into the output block.

  The kernel body has two conditionals on the step k = t mod 4: the scratch is zeroed when k = 0, and the output
  block is stored when k = 3. So a point of the grid is in one of three cases, A (k = 0), B (k = 1, 2), C (k = 3);
  no point meets both conditions. This module states the two conditions in closed form, where the output window is
  idle, and the body's triple in each case as a subtype whose witness (the pieces each buffer ends with) the symbolic
  executor finds.
-/
import proofs.«173608_j68341519613982_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions, in closed form -/

/-- The first conditional's condition (the step is 0), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points whose step is 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the step is the last, 3). -/
abbrev cond1_1 (i : grid1.Coords) : Prop := k1_cond2 i = 1#1
/-- It holds exactly at the points whose step is 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three operands are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a point of case A the output block is not stored into, nor written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at a point of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a point of case C it is stored. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated (the choice does not matter: what
    covering stores leave reads the same through any view of the shape). -/
abbrev VO1_3 : View sig .tc .vmem S1024x256 .bf16 := (Memref.whole cc1_stg3_0 : Memref sig .tc .vmem S1024x256 .bf16).view
/-- Each window's current staging memref at point `t`, and that it is a whole buffer. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S1024x256 .f32 := Memref.whole cc1_scratch0
abbrev VS1_0 : View sig .tc .vmem S1024x256 .f32 := scM1_0.view

/-! ## The body in each case -/

set_option maxHeartbeats 1000000 in
/-- CASE A (step 0). From the three operand blocks `x0`, `x1`, `x2` in their staging memrefs, the output's memref at
    contents `xi3` it does not touch, and the accumulator at anything, the body runs to its return with the operands
    and the output's memref as they were and the accumulator with the pieces `LS0` written: the zero fill, then the
    first partial product added to it. The output gets no piece. -/
noncomputable def run1_A (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : cond1_0 i) (hc1 : ¬cond1_1 i)
    (x0 : Vec F S1024x2048 .f32) (x1 : Vec F S8192x256 .bf16) (x2 : Vec F S1024x1 .f32) :
    Σ' (L3 : List (View.Piece (Elt F) S1024x256 .bf16)), { LS0 : List (View.Piece (Elt F) S1024x256 .f32) //
      ∀ (xi3 : Vec F S1024x256 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (steps 1 and 2). The same with the accumulator arriving at the contents `xs0` the point before left: one
    piece, this step's partial product added to `xs0`. -/
noncomputable def run1_B (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : ¬cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (xi3 : Vec F S1024x256 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (step 3). The accumulator arrives at `xs0`, the output's memref at anything; the accumulator gets the last
    partial product added, and the output one piece: the accumulator scaled row by row by the column `x2` and
    rounded. -/
noncomputable def run1_C (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (E : Set ℕ) (K : PUnit → sProp (MM F)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1.lean ====
/-
  Region 1, the frame: what the accumulator and the output block hold point by point, the region's proof data over an
  arbitrary entry valuation `V`, and the body obligation.

  The invariant carries the accumulator. Before the first point it is the region's whole scoped rest (the accumulator
  among the scoped buffers, at anything); after point n the accumulator is held whole at the contents the recursion
  `outsAt1` names for n, beside the scoped buffers other than it. The three operands' staging buffers hold their
  blocks at every point, fetched there or not (an operand not fetched at a point has the block index it had at the
  point before); the output block is idle except at the last step of each row block, where it is stored and written
  back.
-/
import proofs.«173608_j68341519613982_2_alg».proof.Proof.K.R1Run
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves -/

/-- Case A stores nothing into the output block: a placeholder that nothing consults, since at these points the block
    is neither written back nor read by the next point. -/
def out1_A_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) : Vec F S1024x256 .bf16 :=
  VO1_3.read (Elt F) (VO1_3.writes (Elt F) VO1_3.junk (run1_A c i arg2 harg2 arg3 harg3 arg4 harg4 arg5 harg5 arg6 harg6 hc0 hc1 x0 x1 x2).1)

/-- Case A's stores into the accumulator cover it (each is a store of the whole 1024 x 256 block). -/
theorem scover1_A_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) (y : S1024x256.Idx) :
    ∃ pc ∈ (run1_A c i arg2 harg2 arg3 harg3 arg4 harg4 arg5 harg5 arg6 harg6 hc0 hc1 x0 x1 x2).2.1, y ∈ pc.1.set :=
  View.cover_of_tiledL (run1_A c i arg2 harg2 arg3 harg3 arg4 harg4 arg5 harg5 arg6 harg6 hc0 hc1 x0 x1 x2).2.1 S1024x256.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) : Vec F S1024x256 .f32 :=
  VS1_0.read (Elt F) (VS1_0.writes (Elt F) VS1_0.junk (run1_A c i arg2 harg2 arg3 harg3 arg4 harg4 arg5 harg5 arg6 harg6 hc0 hc1 x0 x1 x2).2.1)

/-- Case B stores nothing into the output block: a placeholder that nothing consults, since at these points the block
    is neither written back nor read by the next point. -/
def out1_B_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (run1_B c i arg2 harg2 arg3 harg3 arg4 harg4 arg5 harg5 arg6 harg6 hc0 hc1 x0 x1 x2 xs0).1)

/-- Case B's stores into the accumulator cover it (each is a store of the whole 1024 x 256 block). -/
theorem scover1_B_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) (y : S1024x256.Idx) :
    ∃ pc ∈ (run1_B c i arg2 harg2 arg3 harg3 arg4 harg4 arg5 harg5 arg6 harg6 hc0 hc1 x0 x1 x2 xs0).2.1, y ∈ pc.1.set :=
  View.cover_of_tiledL (run1_B c i arg2 harg2 arg3 harg3 arg4 harg4 arg5 harg5 arg6 harg6 hc0 hc1 x0 x1 x2 xs0).2.1 S1024x256.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) : Vec F S1024x256 .f32 :=
  VS1_0.read (Elt F) (VS1_0.writes (Elt F) VS1_0.junk (run1_B c i arg2 harg2 arg3 harg3 arg4 harg4 arg5 harg5 arg6 harg6 hc0 hc1 x0 x1 x2 xs0).2.1)

/-- Case C's one store into the output block covers it. -/
theorem cover1_C_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) (y : S1024x256.Idx) :
    ∃ pc ∈ (run1_C c i arg2 harg2 arg3 harg3 arg4 harg4 arg5 harg5 arg6 harg6 hc0 hc1 x0 x1 x2 xs0).1, y ∈ pc.1.set :=
  View.cover_of_tiledL (run1_C c i arg2 harg2 arg3 harg3 arg4 harg4 arg5 harg5 arg6 harg6 hc0 hc1 x0 x1 x2 xs0).1 S1024x256.size (by sl_kernel_rfl) y

/-- What case C leaves in the output block: its piece read back. -/
def out1_C_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (run1_C c i arg2 harg2 arg3 harg3 arg4 harg4 arg5 harg5 arg6 harg6 hc0 hc1 x0 x1 x2 xs0).1)

/-- Case C's stores into the accumulator cover it (each is a store of the whole 1024 x 256 block). -/
theorem scover1_C_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) (y : S1024x256.Idx) :
    ∃ pc ∈ (run1_C c i arg2 harg2 arg3 harg3 arg4 harg4 arg5 harg5 arg6 harg6 hc0 hc1 x0 x1 x2 xs0).2.1, y ∈ pc.1.set :=
  View.cover_of_tiledL (run1_C c i arg2 harg2 arg3 harg3 arg4 harg4 arg5 harg5 arg6 harg6 hc0 hc1 x0 x1 x2 xs0).2.1 S1024x256.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) : Vec F S1024x256 .f32 :=
  VS1_0.read (Elt F) (VS1_0.writes (Elt F) VS1_0.junk (run1_C c i arg2 harg2 arg3 harg3 arg4 harg4 arg5 harg5 arg6 harg6 hc0 hc1 x0 x1 x2 xs0).2.1)

/-! ## The operands' blocks -/

variable (V : TcVal F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's current staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- THE ACCUMULATION. What the output's staging buffer and the accumulator hold after the body at position `n`: the case
    the closed forms select at `n`, run at the point's memrefs and operand blocks, the accumulator arriving (cases B and
    C) at what this leaves at `n - 1`. No point meets both conditions. -/
def outsAt1 (c : Dev nD) : (n : ℕ) → n < cfg1.N → Vec F S1024x256 .bf16 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped rest with the accumulator taken out of it, as a memref owned at some contents. -/
theorem PhiR1_eq (c : Dev nD) :
    (Pipeline.scopedRest (Ix := Unit) (Name := ℕ) (U := UR sig nD τ) (Lvl := ℕ) (Val := Elt F) spec1 c : sProp (MM F))
      = iprop(iprop((∃ d, owns (c : Thread nD τ) scM1_0 fullShare d)) ∗ Pipeline.scopedRestBut (Ix := Unit) (Name := ℕ) (U := UR sig nD τ) (Lvl := ℕ) (Val := Elt F) spec1 c [cc1_scratch0]) := by
  rw [scopedRest1_split]; simp only [scM1_0, owns_whole]; try rfl

/-- The invariant before position `n`: before the first point the whole scoped rest; afterwards the accumulator at
    what the point before left in it, beside the other scoped buffers. -/
def PhiS1 (c : Dev nD) : (n : ℕ) → n ≤ cfg1.N → sProp (MM F)
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0])

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

/-- The proof data of region 1 on core `c`, entered from `V`: the arrays at `V`; after the body at point `t` each
    operand's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp (MM F) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The operands' memrefs hold their blocks; the closed forms say which case the point is in; the
    invariant hands the body the accumulator at what the point before left (at anything at the first point, and at a
    point of case A, which overwrites it whole before reading it) and takes it back at this point's contents, the stores
    covering it; the output's memref is handed back untouched in cases A and B, and at its covering piece in case C;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiR1_eq]
        iintro ⟨⟨HS0, HR⟩, Ho, ⟨%d0, H0⟩, ⟨%d1, H1⟩, ⟨%d2, H2⟩, ⟨%d3, H3⟩⟩
        iapply ((run1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HR⟩, Ho, ⟨%d0, H0⟩, ⟨%d1, H1⟩, ⟨%d2, H2⟩, ⟨%d3, H3⟩⟩
        iapply ((run1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      · iintro ⟨⟨HS0, HR⟩, Ho, ⟨%d0, H0⟩, ⟨%d1, H1⟩, ⟨%d2, H2⟩, ⟨%d3, H3⟩⟩
        iapply ((run1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      · iintro ⟨⟨HS0, HR⟩, Ho, ⟨%d0, H0⟩, ⟨%d1, H1⟩, ⟨%d2, H2⟩, ⟨%d3, H3⟩⟩
        iapply ((run1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's ends -/

/-- What the launch hands the region, its scoped rest, is the invariant before the first point. -/
theorem hin1 (c : Dev nD) : (Pipeline.scopedRest (Ix := Unit) (Name := ℕ) (U := UR sig nD τ) (Lvl := ℕ) (Val := Elt F) spec1 c : sProp (MM F)) ⊢ (dat1 V c).Φ 0 := by
  rw [show (dat1 V c).Φ 0 = PhiS1 V c 0 (Nat.zero_le _) from rfl, PhiS1_zero V c 0 _ rfl]

/-- After any point but the first the invariant gives the scoped rest back: the accumulator's named contents are
    forgotten. -/
theorem Phi_out1 (c : Dev nD) (t : Fin (cfg1.N + 1)) (ht : t.val ≠ 0) :
    (dat1 V c).Φ t ⊢ (Pipeline.scopedRest (Ix := Unit) (Name := ℕ) (U := UR sig nD τ) (Lvl := ℕ) (Val := Elt F) spec1 c : sProp (MM F)) := by
  rw [show (dat1 V c).Φ t = PhiS1 V c t.val (Nat.le_of_lt_succ t.isLt) from rfl, PhiS1_pos V c _ _ ht, PhiR1_eq]
  iintro ⟨HS0, HR⟩
  isplitl [HS0]
  · iexists _; iexact HS0
  iexact HR

/-- The same after the last point. -/
theorem hout1 (c : Dev nD) : (dat1 V c).Φ (Fin.last cfg1.N) ⊢ (Pipeline.scopedRest (Ix := Unit) (Name := ℕ) (U := UR sig nD τ) (Lvl := ℕ) (Val := Elt F) spec1 c : sProp (MM F)) :=
  Phi_out1 V c _ (by rw [Fin.val_last]; have : cfg1.N = 32 := N_1; omega)

end Cert.Kernel.Hand

end
-- ==== Proof.K.R2Run.lean ====
import proofs.«173608_j68341519613982_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 2: the body's run, case by case

The body of the third call accumulates one block product per grid point into a scratch accumulator: at reduction
step 0 it first zeroes the accumulator, at every step it adds the product of the current block of the left matrix
with the matching rows of the resident right matrix, and at the last step (3) it applies the rectifier, multiplies by
the resident projection matrix and stores the row block of the result. Three control cases, decided by the point's
reduction coordinate: A (step 0), B (steps 1 and 2), C (step 3). -/

/-- The first branch of the body (zero the accumulator) is taken exactly when the reduction coordinate is 0:
    the branch condition as the skeleton computes it from the grid coordinates. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The last branch (finish the row block and store it) is taken exactly at the last reduction step. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Before the last reduction step nothing is stored into the output block, -/
theorem idleAt2_3 : ∀ t : Fin cfg2.N, ¬ t.val % 4 = 3 → cfg2.idle 3 (grid2.coords t) = true :=
  (by decide +kernel : ∀ t : Fin grid2.N, ¬ t.val % 4 = 3 → cfg2.idle 3 (grid2.coords t) = true)
/-- and it is not written back; -/
theorem noFlush2_3 (t : Fin cfg2.N) (h : ¬ t.val % 4 = 3) : (cfg2.win 3).flush t = false := by
  rw [← Bool.not_eq_true]; exact fun hf => h ((flush2_3 t).mp hf)
/-- at the last step it is stored. -/
theorem liveAt2_3 : ∀ t : Fin cfg2.N, t.val % 4 = 3 → cfg2.idle 3 (grid2.coords t) = false :=
  (by decide +kernel : ∀ t : Fin grid2.N, t.val % 4 = 3 → cfg2.idle 3 (grid2.coords t) = false)

/-! ## The runs

Each run is a pair: the list of pieces the body's stores leave in a buffer (last store first), found by running the
body symbolically, and the proof that from whole operands at the stated contents the body runs to a state holding
the inputs as they were and the stored buffers with those pieces written. -/

set_option maxHeartbeats 4000000 in
/-- Case A (reduction step 0): the accumulator, at anything, is zeroed and then receives the first block product; the
    output block is left as found. -/
noncomputable def kernelRun2_A (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : cond2_0 i) (hc1 : ¬cond2_1 i)
    (x0 : Vec F S1024x2048 .f32) (x1 : Vec F S8192x256 .bf16) (x2 : Vec F S256x64 .bf16) :
    { LS0 : List (View.Piece (Elt F) S1024x256 .f32) //
      ∀ (xi3 : Vec F S1024x64 .bf16) (E : Set ℕ) (K : PUnit → sProp (MM F)),
        iprop(owns (c : Thread nD τ) arg2 fullShare x0 ∗ owns (c : Thread nD τ) arg3 fullShare x1
            ∗ owns (c : Thread nD τ) arg4 fullShare x2 ∗ owns (c : Thread nD τ) arg5 fullShare xi3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case B (reduction steps 1 and 2): the accumulator, at what the point before left, receives one more block
    product; the output block is left as found. -/
noncomputable def kernelRun2_B (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : ¬cond2_1 i)
    (x0 : Vec F S1024x2048 .f32) (x1 : Vec F S8192x256 .bf16) (x2 : Vec F S256x64 .bf16) (xs0 : Vec F S1024x256 .f32) :
    { LS0 : List (View.Piece (Elt F) S1024x256 .f32) //
      ∀ (xi3 : Vec F S1024x64 .bf16) (E : Set ℕ) (K : PUnit → sProp (MM F)),
        iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare xs0
            ∗ (iprop(owns (c : Thread nD τ) arg2 fullShare x0 ∗ owns (c : Thread nD τ) arg3 fullShare x1
                ∗ owns (c : Thread nD τ) arg4 fullShare x2 ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case C (the last reduction step): the accumulator receives the last block product, and the output block, at
    anything, is stored whole from the finished accumulator and the projection matrix. -/
noncomputable def kernelRun2_C (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : cond2_1 i)
    (x0 : Vec F S1024x2048 .f32) (x1 : Vec F S8192x256 .bf16) (x2 : Vec F S256x64 .bf16) (xs0 : Vec F S1024x256 .f32) :
    Σ' (L3 : List (View.Piece (Elt F) S1024x64 .bf16)), { LS0 : List (View.Piece (Elt F) S1024x256 .f32) //
      ∀ (E : Set ℕ) (K : PUnit → sProp (MM F)),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs0
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R2.lean ====
import proofs.«173608_j68341519613982_2_alg».proof.Proof.K.R2Run
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 2: the frame of the third call, at any entry contents

The region is entered with the TensorCore's buffers at `V`. Its three input windows (the left matrix's block, the
resident right matrix, the resident projection matrix) hold their blocks of `V`'s arrays at every point, fetched
there or not. Its scratch accumulator is carried from point to point: after point `n` it holds a value named by
recursion on `n` (`outsAt2`). The output window is stored at the last reduction step of each row block only. -/

variable (V : TcVal F)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The operands at a point -/

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .bf16 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2 : Memref sig .tc .vmem S1024x256 .f32 := Memref.whole cc2_scratch0
/-- The views through which the accumulator's and the output block's contents are stated (which staging buffer
    of the output is chosen does not matter: the stores cover the block). -/
abbrev VS2 : View sig .tc .vmem S1024x256 .f32 := scM2.view
abbrev VO2 : View sig .tc .vmem S1024x64 .bf16 := (Memref.whole cc2_stg3_0 : Memref sig .tc .vmem S1024x64 .bf16).view

/-! ## What each case leaves -/

/-- The run of case A at point `t`, on the point's operands and blocks. -/
abbrev runA2 (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) scM2 (Memref.isWhole_whole _) ((hcond2_0 t).mpr h0) (fun h => by have := (hcond2_1 t).mp h; omega) (iblk2 V c 0 t) (iblk2 V c 1 t) (iblk2 V c 2 t)
abbrev runB2 (c : Dev nD) (t : Fin cfg2.N) (h0 : ¬ t.val % 4 = 0) (h1 : ¬ t.val % 4 = 3) (xs : Vec F S1024x256 .f32) :=
  kernelRun2_B (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs
abbrev runC2 (c : Dev nD) (t : Fin cfg2.N) (h0 : ¬ t.val % 4 = 0) (h1 : t.val % 4 = 3) (xs : Vec F S1024x256 .f32) :=
  kernelRun2_C (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs

/-- Each case's stores into the accumulator cover it (whole-buffer stores), -/
theorem scover2_A (c : Dev nD) (t : Fin cfg2.N) (h0 : t.val % 4 = 0) (y : S1024x256.Idx) :
    ∃ pc ∈ (runA2 V c t h0).1, y ∈ pc.1.set :=
  View.cover_of_tiledL (runA2 V c t h0).1 S1024x256.size (by sl_kernel_rfl) y
theorem scover2_B (c : Dev nD) (t : Fin cfg2.N) (h0 : ¬ t.val % 4 = 0) (h1 : ¬ t.val % 4 = 3) (xs : Vec F S1024x256 .f32) (y : S1024x256.Idx) :
    ∃ pc ∈ (runB2 V c t h0 h1 xs).1, y ∈ pc.1.set :=
  View.cover_of_tiledL (runB2 V c t h0 h1 xs).1 S1024x256.size (by sl_kernel_rfl) y
theorem scover2_C (c : Dev nD) (t : Fin cfg2.N) (h0 : ¬ t.val % 4 = 0) (h1 : t.val % 4 = 3) (xs : Vec F S1024x256 .f32) (y : S1024x256.Idx) :
    ∃ pc ∈ (runC2 V c t h0 h1 xs).2.1, y ∈ pc.1.set :=
  View.cover_of_tiledL (runC2 V c t h0 h1 xs).2.1 S1024x256.size (by sl_kernel_rfl) y
/-- and the last case's store into the output block covers it. -/
theorem cover2_C (c : Dev nD) (t : Fin cfg2.N) (h0 : ¬ t.val % 4 = 0) (h1 : t.val % 4 = 3) (xs : Vec F S1024x256 .f32) (y : S1024x64.Idx) :
    ∃ pc ∈ (runC2 V c t h0 h1 xs).1, y ∈ pc.1.set :=
  View.cover_of_tiledL (runC2 V c t h0 h1 xs).1 S1024x64.size (by sl_kernel_rfl) y

/-- What a case leaves in the accumulator: its pieces read back. -/
def accA2 (c : Dev nD) (t : Fin cfg2.N) (h0 : t.val % 4 = 0) : Vec F S1024x256 .f32 :=
  VS2.read (Elt F) (VS2.writes (Elt F) VS2.junk (runA2 V c t h0).1)
def accB2 (c : Dev nD) (t : Fin cfg2.N) (h0 : ¬ t.val % 4 = 0) (h1 : ¬ t.val % 4 = 3) (xs : Vec F S1024x256 .f32) : Vec F S1024x256 .f32 :=
  VS2.read (Elt F) (VS2.writes (Elt F) VS2.junk (runB2 V c t h0 h1 xs).1)
def accC2 (c : Dev nD) (t : Fin cfg2.N) (h0 : ¬ t.val % 4 = 0) (h1 : t.val % 4 = 3) (xs : Vec F S1024x256 .f32) : Vec F S1024x256 .f32 :=
  VS2.read (Elt F) (VS2.writes (Elt F) VS2.junk (runC2 V c t h0 h1 xs).2.1)
/-- What the last case leaves in the output block. -/
def outC2 (c : Dev nD) (t : Fin cfg2.N) (h0 : ¬ t.val % 4 = 0) (h1 : t.val % 4 = 3) (xs : Vec F S1024x256 .f32) : Vec F S1024x64 .bf16 :=
  VO2.read (Elt F) (VO2.writes (Elt F) VO2.junk (runC2 V c t h0 h1 xs).1)
/-- Where the output block is not stored nothing consults what is recorded for it. -/
def idleOut2 : Vec F S1024x64 .bf16 := VO2.read (Elt F) (VO2.junk (Val := Elt F))

/-! ## The accumulation, point by point -/

/-- One point: what the output block and the accumulator hold after the body at `t`, the accumulator having held
    `prev` before it (unread at reduction step 0, where it is zeroed first). -/
def step2 (c : Dev nD) (t : Fin cfg2.N) (prev : Vec F S1024x256 .f32) : Vec F S1024x64 .bf16 × Vec F S1024x256 .f32 :=
  if h0 : t.val % 4 = 0 then (idleOut2, accA2 V c t h0)
  else if h1 : t.val % 4 = 3 then (outC2 V c t h0 h1 prev, accC2 V c t h0 h1 prev)
  else (idleOut2, accB2 V c t h0 h1 prev)

/-- After the body at position `n`: the recursion through the points. -/
def outsAt2 (c : Dev nD) : (n : ℕ) → n < cfg2.N → Vec F S1024x64 .bf16 × Vec F S1024x256 .f32
  | 0, hn => step2 V c ⟨0, hn⟩ (VS2.read (Elt F) (VS2.junk (Val := Elt F)))
  | n + 1, hn => step2 V c ⟨n + 1, hn⟩ (outsAt2 c n (Nat.lt_of_succ_lt hn)).2

theorem outsAt2_A (c : Dev nD) (t : Fin cfg2.N) (h0 : t.val % 4 = 0) :
    outsAt2 V c t.val t.isLt = (idleOut2, accA2 V c t h0) := by
  obtain ⟨n, hn⟩ := t
  cases n with
  | zero =>
    have e : outsAt2 V c 0 hn = step2 V c ⟨0, hn⟩ (VS2.read (Elt F) (VS2.junk (Val := Elt F))) := rfl
    exact e.trans ((dif_pos h0).trans rfl)
  | succ n => exact (dif_pos h0).trans rfl

theorem outsAt2_B (c : Dev nD) (t : Fin cfg2.N) (h0 : ¬ t.val % 4 = 0) (h1 : ¬ t.val % 4 = 3) :
    outsAt2 V c t.val t.isLt
      = (idleOut2, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬ t.val % 4 = 0) (h1 : t.val % 4 = 3) :
    outsAt2 V c t.val t.isLt
      = (outC2 V c t h0 h1 (outsAt2 V c (t.val - 1) (Nat.lt_of_le_of_lt (Nat.sub_le _ _) t.isLt)).2,
         accC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the first point the region's whole scoped rest; afterwards the accumulator held whole
    at what the point before left in it, beside the rest of the scoped buffers, unopened. -/
def PhiS2 (c : Dev nD) : (n : ℕ) → n ≤ cfg2.N → sProp (MM F)
  | 0, _ => Pipeline.scopedRest (Ix := Unit) (Name := ℕ) (U := UR sig nD τ) (Lvl := ℕ) (Val := Elt F) spec2 c
  | n + 1, hn => iprop(owns (c : Thread nD τ) scM2 fullShare ((outsAt2 V c n hn).2)
      ∗ Pipeline.scopedRestBut (Ix := Unit) (Name := ℕ) (U := UR sig nD τ) (Lvl := ℕ) (Val := Elt F) spec2 c [cc2_scratch0])

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl

theorem PhiS2_succ (c : Dev nD) (n : ℕ) (hn : n < cfg2.N) :
    PhiS2 V c (n + 1) hn = iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) := rfl

theorem PhiS2_pos (c : Dev nD) (n : ℕ) (h : n ≤ cfg2.N) (hz : n ≠ 0) :
    PhiS2 V c n h = iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped rest with the accumulator split out, owned whole at some contents. -/
theorem scopedRest2_scM (c : Dev nD) :
    (Pipeline.scopedRest (Ix := Unit) (Name := ℕ) (U := UR sig nD τ) (Lvl := ℕ) (Val := Elt F) spec2 c : sProp (MM F))
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]; try rfl

/-! ## The proof data -/

/-- The region's proof data on core `c`: the arrays as the region finds them; after the body each input's buffer at
    its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp (MM F) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp (MM F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]

set_option maxHeartbeats 4800000 in
/-- The body at any point. The inputs' buffers hold their blocks; the point's reduction coordinate selects the case;
    the invariant hands the body the accumulator (at anything at the first point, at what the point before left
    afterwards) and takes it back at this point's contents, the stores covering it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 32 := lt_of_lt_of_eq t.isLt (show cfg2.N = 32 from N_2)
  by_cases h0 : t.val % 4 = 0
  · have h1 : ¬ t.val % 4 = 3 := by omega
    rw [Dat.leavesExact_idle (dat2 V c) 3 t (idleAt2_3 t h1) (noFlush2_3 t h1)]
    rw [outsAt2_A V c t h0]
    unfold accA2; (try dsimp only)
    by_cases hz : t.val = 0
    · rw [PhiS2_castSucc V c t, PhiS2_zero V c _ _ hz, scopedRest2_scM]
      iintro ⟨⟨HS0, Hr⟩, Ho, ⟨%d0, H0⟩, ⟨%d1, H1⟩, ⟨%d2, H2⟩, ⟨%d3, H3⟩⟩
      iapply ((runA2 V c t h0).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t h0)
        iexact Hr
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runA2 V c t h0).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t h0)
        iexact Hr
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat2 V c).leavesExact 3 t = owns (c : Thread nD τ) (ms2_3 t) fullShare ((dat2 V c).after 3 t) from by
        unfold Dat.leavesExact; rw [liveAt2_3 t h1], after2_3]
      rw [outsAt2_C V c t h0 h1]
      unfold outC2 accC2; (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runC2 V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover2_C V c t h0 h1 _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C V c t h0 h1 _)
    · rw [Dat.leavesExact_idle (dat2 V c) 3 t (idleAt2_3 t h1) (noFlush2_3 t h1)]
      rw [outsAt2_B V c t h0 h1]
      unfold accB2; (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runB2 V c t h0 h1 _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_B V c t h0 h1 _)
        iexact Hr
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's scoped rest is the invariant before the first point. -/
theorem hin2 (c : Dev nD) :
    (Pipeline.scopedRest (Ix := Unit) (Name := ℕ) (U := UR sig nD τ) (Lvl := ℕ) (Val := Elt F) spec2 c : sProp (MM F))
      ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's named contents are forgotten. -/
theorem hout2 (c : Dev nD) :
    (dat2 V c).Φ (Fin.last cfg2.N)
      ⊢ (Pipeline.scopedRest (Ix := Unit) (Name := ℕ) (U := UR sig nD τ) (Lvl := ℕ) (Val := Elt F) spec2 c : sProp (MM F)) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), scopedRest2_scM]
  iintro ⟨HS0, Hr⟩
  isplitl [HS0]
  · iexists _; iexact HS0
  iexact Hr

end Cert.Kernel.Hand

end
-- ==== Proof.K.R3Run.lean ====
/-
  Region 3 of the program: the K-blocked product of a 1024-row block of the square matrix with the resident
  8192 x 64 operand, accumulated over four steps of 2048 columns into a 1024 x 64 single-precision scratch, and at
  the last step scaled row by row by a 1024 x 1 column and rounded into the output block.

  The kernel body has two conditionals on the step k = t mod 4: the scratch is zeroed when k = 0, and the output
  block is stored when k = 3. So a point of the grid is in one of three cases, A (k = 0), B (k = 1, 2), C (k = 3);
  no point meets both conditions. This module states the two conditions in closed form, where the output window is
  idle, and the body's triple in each case as a subtype whose witness (the pieces each buffer ends with) the symbolic
  executor finds.
-/
import proofs.«173608_j68341519613982_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions, in closed form -/

/-- The first conditional's condition (the step is 0), as the body computes it from the coordinates. -/
abbrev cond3_0 (i : grid3.Coords) : Prop := (Scalar.cmpi .ne (Scalar.extui (Scalar.cmpi .eq (BitVec.ofNat 32 (i 1).val) 0#32)) 0#32) = 1#1
/-- It holds exactly at the points whose step is 0. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (the step is the last, 3). -/
abbrev cond3_1 (i : grid3.Coords) : Prop := k3_cond2 i = 1#1
/-- It holds exactly at the points whose step is 3. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The three operands are read at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a point of case A the output block is not stored into, nor written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- Nor at a point of case B. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At a point of case C it is stored. -/
theorem liveAt3_3_C : ∀ t : Fin cfg3.N, ¬cond3_0 (grid3.coords t) → cond3_1 (grid3.coords t) → cfg3.idle 3 (grid3.coords t) = false := by decide +kernel

/-! ## The memrefs the body is called on -/

/-- One staging buffer of the output window, through which its contents are stated (the choice does not matter: what
    covering stores leave reads the same through any view of the shape). -/
abbrev VO3_3 : View sig .tc .vmem S1024x64 .bf16 := (Memref.whole cc3_stg3_0 : Memref sig .tc .vmem S1024x64 .bf16).view
/-- Each window's current staging memref at point `t`, and that it is a whole buffer. -/
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .bf16 := win3_3.stage (cfg3.slots t 3)
abbrev hs3_3 (t : Fin cfg3.N) : (ms3_3 t).IsWhole := hstage3_3 ((cfg3.slots t 3).cast nbuf3_3)
/-- The accumulator: a whole scoped buffer of the kernel's own, carried from one point to the next. -/
abbrev scM3_0 : Memref sig .tc .vmem S1024x64 .f32 := Memref.whole cc3_scratch0
abbrev VS3_0 : View sig .tc .vmem S1024x64 .f32 := scM3_0.view

/-! ## The body in each case -/

set_option maxHeartbeats 1000000 in
/-- CASE A (step 0). From the three operand blocks `x0`, `x1`, `x2` in their staging memrefs, the output's memref at
    contents `xi3` it does not touch, and the accumulator at anything, the body runs to its return with the operands
    and the output's memref as they were and the accumulator with the pieces `LS0` written: the zero fill, then the
    first partial product added to it. The output gets no piece. -/
noncomputable def run3_A (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : cond3_0 i) (hc1 : ¬cond3_1 i)
    (x0 : Vec F S1024x2048 .f32) (x1 : Vec F S8192x64 .bf16) (x2 : Vec F S1024x1 .f32) :
    Σ' (L3 : List (View.Piece (Elt F) S1024x64 .bf16)), { LS0 : List (View.Piece (Elt F) S1024x64 .f32) //
      ∀ (xi3 : Vec F S1024x64 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (steps 1 and 2). The same with the accumulator arriving at the contents `xs0` the point before left: one
    piece, this step's partial product added to `xs0`. -/
noncomputable def run3_B (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : ¬cond3_0 i) (hc1 : ¬cond3_1 i)
    (x0 : Vec F S1024x2048 .f32) (x1 : Vec F S8192x64 .bf16) (x2 : Vec F S1024x1 .f32) (xs0 : Vec F S1024x64 .f32) :
    Σ' (L3 : List (View.Piece (Elt F) S1024x64 .bf16)), { LS0 : List (View.Piece (Elt F) S1024x64 .f32) //
      ∀ (xi3 : Vec F S1024x64 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (step 3). The accumulator arrives at `xs0`, the output's memref at anything; the accumulator gets the last
    partial product added, and the output one piece: the accumulator scaled row by row by the column `x2` and
    rounded. -/
noncomputable def run3_C (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : ¬cond3_0 i) (hc1 : cond3_1 i)
    (x0 : Vec F S1024x2048 .f32) (x1 : Vec F S8192x64 .bf16) (x2 : Vec F S1024x1 .f32) (xs0 : Vec F S1024x64 .f32) :
    Σ' (L3 : List (View.Piece (Elt F) S1024x64 .bf16)), { LS0 : List (View.Piece (Elt F) S1024x64 .f32) //
      ∀ (E : Set ℕ) (K : PUnit → sProp (MM F)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R3.lean ====
/-
  Region 3, the frame: what the accumulator and the output block hold point by point, the region's proof data over an
  arbitrary entry valuation `V`, and the body obligation.

  The invariant carries the accumulator. Before the first point it is the region's whole scoped rest (the accumulator
  among the scoped buffers, at anything); after point n the accumulator is held whole at the contents the recursion
  `outsAt3` names for n, beside the scoped buffers other than it. The three operands' staging buffers hold their
  blocks at every point, fetched there or not (an operand not fetched at a point has the block index it had at the
  point before); the output block is idle except at the last step of each row block, where it is stored and written
  back.
-/
import proofs.«173608_j68341519613982_2_alg».proof.Proof.K.R3Run
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves -/

/-- Case A stores nothing into the output block: a placeholder that nothing consults, since at these points the block
    is neither written back nor read by the next point. -/
def out3_A_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) : Vec F S1024x64 .bf16 :=
  VO3_3.read (Elt F) (VO3_3.writes (Elt F) VO3_3.junk (run3_A c i arg2 harg2 arg3 harg3 arg4 harg4 arg5 harg5 arg6 harg6 hc0 hc1 x0 x1 x2).1)

/-- Case A's stores into the accumulator cover it (each is a store of the whole 1024 x 64 block). -/
theorem scover3_A_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) (y : S1024x64.Idx) :
    ∃ pc ∈ (run3_A c i arg2 harg2 arg3 harg3 arg4 harg4 arg5 harg5 arg6 harg6 hc0 hc1 x0 x1 x2).2.1, y ∈ pc.1.set :=
  View.cover_of_tiledL (run3_A c i arg2 harg2 arg3 harg3 arg4 harg4 arg5 harg5 arg6 harg6 hc0 hc1 x0 x1 x2).2.1 S1024x64.size (by sl_kernel_rfl) y

/-- What case A leaves in the accumulator: its pieces read back. -/
def sout3_A_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) : Vec F S1024x64 .f32 :=
  VS3_0.read (Elt F) (VS3_0.writes (Elt F) VS3_0.junk (run3_A c i arg2 harg2 arg3 harg3 arg4 harg4 arg5 harg5 arg6 harg6 hc0 hc1 x0 x1 x2).2.1)

/-- Case B stores nothing into the output block: a placeholder that nothing consults, since at these points the block
    is neither written back nor read by the next point. -/
def out3_B_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) : Vec F S1024x64 .bf16 :=
  VO3_3.read (Elt F) (VO3_3.writes (Elt F) VO3_3.junk (run3_B c i arg2 harg2 arg3 harg3 arg4 harg4 arg5 harg5 arg6 harg6 hc0 hc1 x0 x1 x2 xs0).1)

/-- Case B's stores into the accumulator cover it (each is a store of the whole 1024 x 64 block). -/
theorem scover3_B_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) (y : S1024x64.Idx) :
    ∃ pc ∈ (run3_B c i arg2 harg2 arg3 harg3 arg4 harg4 arg5 harg5 arg6 harg6 hc0 hc1 x0 x1 x2 xs0).2.1, y ∈ pc.1.set :=
  View.cover_of_tiledL (run3_B c i arg2 harg2 arg3 harg3 arg4 harg4 arg5 harg5 arg6 harg6 hc0 hc1 x0 x1 x2 xs0).2.1 S1024x64.size (by sl_kernel_rfl) y

/-- What case B leaves in the accumulator: its pieces read back. -/
def sout3_B_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) : Vec F S1024x64 .f32 :=
  VS3_0.read (Elt F) (VS3_0.writes (Elt F) VS3_0.junk (run3_B c i arg2 harg2 arg3 harg3 arg4 harg4 arg5 harg5 arg6 harg6 hc0 hc1 x0 x1 x2 xs0).2.1)

/-- Case C's one store into the output block covers it. -/
theorem cover3_C_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) (y : S1024x64.Idx) :
    ∃ pc ∈ (run3_C c i arg2 harg2 arg3 harg3 arg4 harg4 arg5 harg5 arg6 harg6 hc0 hc1 x0 x1 x2 xs0).1, y ∈ pc.1.set :=
  View.cover_of_tiledL (run3_C c i arg2 harg2 arg3 harg3 arg4 harg4 arg5 harg5 arg6 harg6 hc0 hc1 x0 x1 x2 xs0).1 S1024x64.size (by sl_kernel_rfl) y

/-- What case C leaves in the output block: its piece read back. -/
def out3_C_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) : Vec F S1024x64 .bf16 :=
  VO3_3.read (Elt F) (VO3_3.writes (Elt F) VO3_3.junk (run3_C c i arg2 harg2 arg3 harg3 arg4 harg4 arg5 harg5 arg6 harg6 hc0 hc1 x0 x1 x2 xs0).1)

/-- Case C's stores into the accumulator cover it (each is a store of the whole 1024 x 64 block). -/
theorem scover3_C_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) (y : S1024x64.Idx) :
    ∃ pc ∈ (run3_C c i arg2 harg2 arg3 harg3 arg4 harg4 arg5 harg5 arg6 harg6 hc0 hc1 x0 x1 x2 xs0).2.1, y ∈ pc.1.set :=
  View.cover_of_tiledL (run3_C c i arg2 harg2 arg3 harg3 arg4 harg4 arg5 harg5 arg6 harg6 hc0 hc1 x0 x1 x2 xs0).2.1 S1024x64.size (by sl_kernel_rfl) y

/-- What case C leaves in the accumulator: its pieces read back. -/
def sout3_C_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) : Vec F S1024x64 .f32 :=
  VS3_0.read (Elt F) (VS3_0.writes (Elt F) VS3_0.junk (run3_C c i arg2 harg2 arg3 harg3 arg4 harg4 arg5 harg5 arg6 harg6 hc0 hc1 x0 x1 x2 xs0).2.1)

/-! ## The operands' blocks -/

variable (V : TcVal F)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's current staging buffer holds its block at every point, fetched there or not, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. What the output's staging buffer and the accumulator hold after the body at position `n`: the case
    the closed forms select at `n`, run at the point's memrefs and operand blocks, the accumulator arriving (cases B and
    C) at what this leaves at `n - 1`. No point meets both conditions. -/
def outsAt3 (c : Dev nD) : (n : ℕ) → n < cfg3.N → Vec F S1024x64 .bf16 × Vec F S1024x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: over what the point before left. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped rest with the accumulator taken out of it, as a memref owned at some contents. -/
theorem PhiR3_eq (c : Dev nD) :
    (Pipeline.scopedRest (Ix := Unit) (Name := ℕ) (U := UR sig nD τ) (Lvl := ℕ) (Val := Elt F) spec3 c : sProp (MM F))
      = iprop(iprop((∃ d, owns (c : Thread nD τ) scM3_0 fullShare d)) ∗ Pipeline.scopedRestBut (Ix := Unit) (Name := ℕ) (U := UR sig nD τ) (Lvl := ℕ) (Val := Elt F) spec3 c [cc3_scratch0]) := by
  rw [scopedRest3_split]; simp only [scM3_0, owns_whole]; try rfl

/-- The invariant before position `n`: before the first point the whole scoped rest; afterwards the accumulator at
    what the point before left in it, beside the other scoped buffers. -/
def PhiS3 (c : Dev nD) : (n : ℕ) → n ≤ cfg3.N → sProp (MM F)
  | 0, _ => Pipeline.scopedRest (Ix := Unit) (Name := ℕ) (U := UR sig nD τ) (Lvl := ℕ) (Val := Elt F) spec3 c
  | n + 1, hn => iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0])

theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

/-- The proof data of region 3 on core `c`, entered from `V`: the arrays at `V`; after the body at point `t` each
    operand's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp (MM F) :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp (MM F) :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The operands' memrefs hold their blocks; the closed forms say which case the point is in; the
    invariant hands the body the accumulator at what the point before left (at anything at the first point, and at a
    point of case A, which overwrites it whole before reading it) and takes it back at this point's contents, the stores
    covering it; the output's memref is handed back untouched in cases A and B, and at its covering piece in case C;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiR3_eq]
        iintro ⟨⟨HS0, HR⟩, Ho, ⟨%d0, H0⟩, ⟨%d1, H1⟩, ⟨%d2, H2⟩, ⟨%d3, H3⟩⟩
        iapply ((run3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨HS0, HR⟩, Ho, ⟨%d0, H0⟩, ⟨%d1, H1⟩, ⟨%d2, H2⟩, ⟨%d3, H3⟩⟩
        iapply ((run3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      · iintro ⟨⟨HS0, HR⟩, Ho, ⟨%d0, H0⟩, ⟨%d1, H1⟩, ⟨%d2, H2⟩, ⟨%d3, H3⟩⟩
        iapply ((run3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      · iintro ⟨⟨HS0, HR⟩, Ho, ⟨%d0, H0⟩, ⟨%d1, H1⟩, ⟨%d2, H2⟩, ⟨%d3, H3⟩⟩
        iapply ((run3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's ends -/

/-- What the launch hands the region, its scoped rest, is the invariant before the first point. -/
theorem hin3 (c : Dev nD) : (Pipeline.scopedRest (Ix := Unit) (Name := ℕ) (U := UR sig nD τ) (Lvl := ℕ) (Val := Elt F) spec3 c : sProp (MM F)) ⊢ (dat3 V c).Φ 0 := by
  rw [show (dat3 V c).Φ 0 = PhiS3 V c 0 (Nat.zero_le _) from rfl, PhiS3_zero V c 0 _ rfl]

/-- After any point but the first the invariant gives the scoped rest back: the accumulator's named contents are
    forgotten. -/
theorem Phi_out3 (c : Dev nD) (t : Fin (cfg3.N + 1)) (ht : t.val ≠ 0) :
    (dat3 V c).Φ t ⊢ (Pipeline.scopedRest (Ix := Unit) (Name := ℕ) (U := UR sig nD τ) (Lvl := ℕ) (Val := Elt F) spec3 c : sProp (MM F)) := by
  rw [show (dat3 V c).Φ t = PhiS3 V c t.val (Nat.le_of_lt_succ t.isLt) from rfl, PhiS3_pos V c _ _ ht, PhiR3_eq]
  iintro ⟨HS0, HR⟩
  isplitl [HS0]
  · iexists _; iexact HS0
  iexact HR

/-- The same after the last point. -/
theorem hout3 (c : Dev nD) : (dat3 V c).Φ (Fin.last cfg3.N) ⊢ (Pipeline.scopedRest (Ix := Unit) (Name := ℕ) (U := UR sig nD τ) (Lvl := ℕ) (Val := Elt F) spec3 c : sProp (MM F)) :=
  Phi_out3 V c _ (by rw [Fin.val_last]; have : cfg3.N = 32 := N_3; omega)

end Cert.Kernel.Hand

end
-- ==== Proof.K.R4Run.lean ====
import proofs.«173608_j68341519613982_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 4: the body's run, case by case

The body of the last call accumulates one block product per grid point into a scratch accumulator, exactly as the
third call's does: at reduction step 0 it first zeroes the accumulator, at every step it adds the product of the
current block of the left matrix with the matching rows of the resident right matrix, and at the last step (3) it
stores the row-wise log-softmax of the finished accumulator as the row block of the result. Three control cases,
decided by the point's reduction coordinate: A (step 0), B (steps 1 and 2), C (step 3). -/

/-- The first branch of the body (zero the accumulator) is taken exactly when the reduction coordinate is 0:
    the branch condition as the skeleton computes it from the grid coordinates. -/
abbrev cond4_0 (i : grid4.Coords) : Prop :=
  (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The last branch (finish the row block and store it) is taken exactly at the last reduction step. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the output window is idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Before the last reduction step nothing is stored into the output block, -/
theorem idleAt4_2 : ∀ t : Fin cfg4.N, ¬ t.val % 4 = 3 → cfg4.idle 2 (grid4.coords t) = true :=
  (by decide +kernel : ∀ t : Fin grid4.N, ¬ t.val % 4 = 3 → cfg4.idle 2 (grid4.coords t) = true)
/-- and it is not written back; -/
theorem noFlush4_2 (t : Fin cfg4.N) (h : ¬ t.val % 4 = 3) : (cfg4.win 2).flush t = false := by
  rw [← Bool.not_eq_true]; exact fun hf => h ((flush4_2 t).mp hf)
/-- at the last step it is stored. -/
theorem liveAt4_2 : ∀ t : Fin cfg4.N, t.val % 4 = 3 → cfg4.idle 2 (grid4.coords t) = false :=
  (by decide +kernel : ∀ t : Fin grid4.N, t.val % 4 = 3 → cfg4.idle 2 (grid4.coords t) = false)

/-! ## The runs

Each run is a pair: the list of pieces the body's stores leave in a buffer (last store first), found by running the
body symbolically, and the proof that from whole operands at the stated contents the body runs to a state holding
the inputs as they were and the stored buffers with those pieces written. -/

set_option maxHeartbeats 4000000 in
/-- Case A (reduction step 0): the accumulator, at anything, is zeroed and then receives the first block product; the
    output block is left as found. -/
noncomputable def kernelRun4_A (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : cond4_0 i) (hc1 : ¬cond4_1 i)
    (x0 : Vec F S1024x2048 .f32) (x1 : Vec F S8192x64 .bf16) :
    { LS0 : List (View.Piece (Elt F) S1024x64 .f32) //
      ∀ (xi2 : Vec F S1024x64 .f32) (E : Set ℕ) (K : PUnit → sProp (MM F)),
        iprop(owns (c : Thread nD τ) arg2 fullShare x0 ∗ owns (c : Thread nD τ) arg3 fullShare x1
            ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case B (reduction steps 1 and 2): the accumulator, at what the point before left, receives one more block
    product; the output block is left as found. -/
noncomputable def kernelRun4_B (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : ¬cond4_0 i) (hc1 : ¬cond4_1 i)
    (x0 : Vec F S1024x2048 .f32) (x1 : Vec F S8192x64 .bf16) (xs0 : Vec F S1024x64 .f32) :
    { LS0 : List (View.Piece (Elt F) S1024x64 .f32) //
      ∀ (xi2 : Vec F S1024x64 .f32) (E : Set ℕ) (K : PUnit → sProp (MM F)),
        iprop(owns (c : Thread nD τ) arg2 fullShare x0 ∗ owns (c : Thread nD τ) arg3 fullShare x1
            ∗ owns (c : Thread nD τ) arg4 fullShare xi2
            ∗ owns (c : Thread nD τ) arg5 fullShare xs0
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case C (the last reduction step): the accumulator receives the last block product, and the output block, at
    anything, is stored whole from the finished accumulator. -/
noncomputable def kernelRun4_C (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : ¬cond4_0 i) (hc1 : cond4_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (E : Set ℕ) (K : PUnit → sProp (MM F)),
        iprop(owns (c : Thread nD τ) arg2 fullShare x0 ∗ owns (c : Thread nD τ) arg3 fullShare x1
            ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R4.lean ====
import proofs.«173608_j68341519613982_2_alg».proof.Proof.K.R4Run
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 4: the frame of the last call, at any entry contents

The region is entered with the TensorCore's buffers at `V`. Its two input windows (the left matrix's block, the
resident right matrix) hold their blocks of `V`'s arrays at every point, fetched there or not. Its scratch
accumulator is carried from point to point: after point `n` it holds a value named by recursion on `n`
(`outsAt4`). The output window is stored at the last reduction step of each row block only. -/

variable (V : TcVal F)

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (an unfetched
    window's index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The operands at a point -/

abbrev ms4_0 (t : Fin cfg4.N) : Memref sig .tc .vmem S1024x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x64 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x64 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S1024x64 .f32 := Memref.whole cc4_scratch0
/-- The views through which the accumulator's and the output block's contents are stated (which staging buffer
    of the output is chosen does not matter: the stores cover the block). -/
abbrev VS4 : View sig .tc .vmem S1024x64 .f32 := scM4.view
abbrev VO4 : View sig .tc .vmem S1024x64 .f32 := (Memref.whole cc4_stg2_0 : Memref sig .tc .vmem S1024x64 .f32).view

/-! ## What each case leaves -/

/-- The run of each case at point `t`, on the point's operands and blocks. -/
abbrev runA4 (c : Dev nD) (t : Fin cfg4.N) (h0 : t.val % 4 = 0) :=
  kernelRun4_A (F := F) c (grid4.coords t) (ms4_0 t) (hs4_0 t) (ms4_1 t) (hs4_1 t) (ms4_2 t) (hs4_2 t) scM4 (Memref.isWhole_whole _) ((hcond4_0 t).mpr h0) (fun h => by have := (hcond4_1 t).mp h; omega) (iblk4 V c 0 t) (iblk4 V c 1 t)
abbrev runB4 (c : Dev nD) (t : Fin cfg4.N) (h0 : ¬ t.val % 4 = 0) (h1 : ¬ t.val % 4 = 3) (xs : Vec F S1024x64 .f32) :=
  kernelRun4_B (F := F) c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs
abbrev runC4 (c : Dev nD) (t : Fin cfg4.N) (h0 : ¬ t.val % 4 = 0) (h1 : t.val % 4 = 3) (xs : Vec F S1024x64 .f32) :=
  kernelRun4_C (F := F) c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs

/-- Each case's stores into the accumulator cover it (whole-buffer stores), -/
theorem scover4_A (c : Dev nD) (t : Fin cfg4.N) (h0 : t.val % 4 = 0) (y : S1024x64.Idx) :
    ∃ pc ∈ (runA4 V c t h0).1, y ∈ pc.1.set :=
  View.cover_of_tiledL (runA4 V c t h0).1 S1024x64.size (by sl_kernel_rfl) y
theorem scover4_B (c : Dev nD) (t : Fin cfg4.N) (h0 : ¬ t.val % 4 = 0) (h1 : ¬ t.val % 4 = 3) (xs : Vec F S1024x64 .f32) (y : S1024x64.Idx) :
    ∃ pc ∈ (runB4 V c t h0 h1 xs).1, y ∈ pc.1.set :=
  View.cover_of_tiledL (runB4 V c t h0 h1 xs).1 S1024x64.size (by sl_kernel_rfl) y
theorem scover4_C (c : Dev nD) (t : Fin cfg4.N) (h0 : ¬ t.val % 4 = 0) (h1 : t.val % 4 = 3) (xs : Vec F S1024x64 .f32) (y : S1024x64.Idx) :
    ∃ pc ∈ (runC4 V c t h0 h1 xs).2.1, y ∈ pc.1.set :=
  View.cover_of_tiledL (runC4 V c t h0 h1 xs).2.1 S1024x64.size (by sl_kernel_rfl) y
/-- and the last case's store into the output block covers it. -/
theorem cover4_C (c : Dev nD) (t : Fin cfg4.N) (h0 : ¬ t.val % 4 = 0) (h1 : t.val % 4 = 3) (xs : Vec F S1024x64 .f32) (y : S1024x64.Idx) :
    ∃ pc ∈ (runC4 V c t h0 h1 xs).1, y ∈ pc.1.set :=
  View.cover_of_tiledL (runC4 V c t h0 h1 xs).1 S1024x64.size (by sl_kernel_rfl) y

/-- What a case leaves in the accumulator: its pieces read back. -/
def accA4 (c : Dev nD) (t : Fin cfg4.N) (h0 : t.val % 4 = 0) : Vec F S1024x64 .f32 :=
  VS4.read (Elt F) (VS4.writes (Elt F) VS4.junk (runA4 V c t h0).1)
def accB4 (c : Dev nD) (t : Fin cfg4.N) (h0 : ¬ t.val % 4 = 0) (h1 : ¬ t.val % 4 = 3) (xs : Vec F S1024x64 .f32) : Vec F S1024x64 .f32 :=
  VS4.read (Elt F) (VS4.writes (Elt F) VS4.junk (runB4 V c t h0 h1 xs).1)
def accC4 (c : Dev nD) (t : Fin cfg4.N) (h0 : ¬ t.val % 4 = 0) (h1 : t.val % 4 = 3) (xs : Vec F S1024x64 .f32) : Vec F S1024x64 .f32 :=
  VS4.read (Elt F) (VS4.writes (Elt F) VS4.junk (runC4 V c t h0 h1 xs).2.1)
/-- What the last case leaves in the output block. -/
def outC4 (c : Dev nD) (t : Fin cfg4.N) (h0 : ¬ t.val % 4 = 0) (h1 : t.val % 4 = 3) (xs : Vec F S1024x64 .f32) : Vec F S1024x64 .f32 :=
  VO4.read (Elt F) (VO4.writes (Elt F) VO4.junk (runC4 V c t h0 h1 xs).1)
/-- Where the output block is not stored nothing consults what is recorded for it. -/
def idleOut4 : Vec F S1024x64 .f32 := VO4.read (Elt F) (VO4.junk (Val := Elt F))

/-! ## The accumulation, point by point -/

/-- One point: what the output block and the accumulator hold after the body at `t`, the accumulator having held
    `prev` before it (unread at reduction step 0, where it is zeroed first). -/
def step4 (c : Dev nD) (t : Fin cfg4.N) (prev : Vec F S1024x64 .f32) : Vec F S1024x64 .f32 × Vec F S1024x64 .f32 :=
  if h0 : t.val % 4 = 0 then (idleOut4, accA4 V c t h0)
  else if h1 : t.val % 4 = 3 then (outC4 V c t h0 h1 prev, accC4 V c t h0 h1 prev)
  else (idleOut4, accB4 V c t h0 h1 prev)

/-- After the body at position `n`: the recursion through the points. -/
def outsAt4 (c : Dev nD) : (n : ℕ) → n < cfg4.N → Vec F S1024x64 .f32 × Vec F S1024x64 .f32
  | 0, hn => step4 V c ⟨0, hn⟩ (VS4.read (Elt F) (VS4.junk (Val := Elt F)))
  | n + 1, hn => step4 V c ⟨n + 1, hn⟩ (outsAt4 c n (Nat.lt_of_succ_lt hn)).2

theorem outsAt4_A (c : Dev nD) (t : Fin cfg4.N) (h0 : t.val % 4 = 0) :
    outsAt4 V c t.val t.isLt = (idleOut4, accA4 V c t h0) := by
  obtain ⟨n, hn⟩ := t
  cases n with
  | zero =>
    have e : outsAt4 V c 0 hn = step4 V c ⟨0, hn⟩ (VS4.read (Elt F) (VS4.junk (Val := Elt F))) := rfl
    exact e.trans ((dif_pos h0).trans rfl)
  | succ n => exact (dif_pos h0).trans rfl

theorem outsAt4_B (c : Dev nD) (t : Fin cfg4.N) (h0 : ¬ t.val % 4 = 0) (h1 : ¬ t.val % 4 = 3) :
    outsAt4 V c t.val t.isLt
      = (idleOut4, accB4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬ t.val % 4 = 0) (h1 : t.val % 4 = 3) :
    outsAt4 V c t.val t.isLt
      = (outC4 V c t h0 h1 (outsAt4 V c (t.val - 1) (Nat.lt_of_le_of_lt (Nat.sub_le _ _) t.isLt)).2,
         accC4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the first point the region's whole scoped rest; afterwards the accumulator held whole
    at what the point before left in it, beside the rest of the scoped buffers, unopened. -/
def PhiS4 (c : Dev nD) : (n : ℕ) → n ≤ cfg4.N → sProp (MM F)
  | 0, _ => Pipeline.scopedRest (Ix := Unit) (Name := ℕ) (U := UR sig nD τ) (Lvl := ℕ) (Val := Elt F) spec4 c
  | n + 1, hn => iprop(owns (c : Thread nD τ) scM4 fullShare ((outsAt4 V c n hn).2)
      ∗ Pipeline.scopedRestBut (Ix := Unit) (Name := ℕ) (U := UR sig nD τ) (Lvl := ℕ) (Val := Elt F) spec4 c [cc4_scratch0])

theorem PhiS4_zero (c : Dev nD) (n : ℕ) (h : n ≤ cfg4.N) (hz : n = 0) :
    PhiS4 V c n h = Pipeline.scopedRest (Ix := Unit) (Name := ℕ) (U := UR sig nD τ) (Lvl := ℕ) (Val := Elt F) spec4 c := by
  subst hz; rfl

theorem PhiS4_succ (c : Dev nD) (n : ℕ) (hn : n < cfg4.N) :
    PhiS4 V c (n + 1) hn = iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) := rfl

theorem PhiS4_pos (c : Dev nD) (n : ℕ) (h : n ≤ cfg4.N) (hz : n ≠ 0) :
    PhiS4 V c n h = iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) := by
  cases n with
  | zero => exact absurd rfl hz
  | succ n => rfl

/-- The scoped rest with the accumulator split out, owned whole at some contents. -/
theorem scopedRest4_scM (c : Dev nD) :
    (Pipeline.scopedRest (Ix := Unit) (Name := ℕ) (U := UR sig nD τ) (Lvl := ℕ) (Val := Elt F) spec4 c : sProp (MM F))
      = iprop((∃ d, owns (c : Thread nD τ) scM4 fullShare d)
          ∗ Pipeline.scopedRestBut (Ix := Unit) (Name := ℕ) (U := UR sig nD τ) (Lvl := ℕ) (Val := Elt F) spec4 c [cc4_scratch0]) := by
  rw [scopedRest4_split]; simp only [scM4, owns_whole]; try rfl

/-! ## The proof data -/

/-- The region's proof data on core `c`: the arrays as the region finds them; after the body each input's buffer at
    its block and the output's at `outsAt4`'s first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp (MM F) :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp (MM F) :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

set_option maxHeartbeats 4800000 in
/-- The body at any point. The inputs' buffers hold their blocks; the point's reduction coordinate selects the case;
    the invariant hands the body the accumulator (at anything at the first point, at what the point before left
    afterwards) and takes it back at this point's contents, the stores covering it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 32 := lt_of_lt_of_eq t.isLt (show cfg4.N = 32 from N_4)
  by_cases h0 : t.val % 4 = 0
  · have h1 : ¬ t.val % 4 = 3 := by omega
    rw [Dat.leavesExact_idle (dat4 V c) 2 t (idleAt4_2 t h1) (noFlush4_2 t h1)]
    rw [outsAt4_A V c t h0]
    unfold accA4; (try dsimp only)
    by_cases hz : t.val = 0
    · rw [PhiS4_castSucc V c t, PhiS4_zero V c _ _ hz, scopedRest4_scM]
      iintro ⟨⟨HS0, Hr⟩, Ho, ⟨%d0, H0⟩, ⟨%d1, H1⟩, ⟨%d2, H2⟩⟩
      iapply ((runA4 V c t h0).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_A V c t h0)
        iexact Hr
      isplitl [Ho]; · iexact Ho
      isplitl [H0]; · iexact H0
      isplitl [H1]; · iexact H1
      iexists _; iexact H2
    · rw [PhiS4_castSucc V c t, PhiS4_pos V c _ _ hz]
      iintro ⟨⟨HS0, Hr⟩, Ho, ⟨%d0, H0⟩, ⟨%d1, H1⟩, ⟨%d2, H2⟩⟩
      iapply ((runA4 V c t h0).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_A V c t h0)
        iexact Hr
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat4 V c).leavesExact 2 t = owns (c : Thread nD τ) (ms4_2 t) fullShare ((dat4 V c).after 2 t) from by
        unfold Dat.leavesExact; rw [liveAt4_2 t h1], after4_2]
      rw [outsAt4_C V c t h0 h1]
      unfold outC4 accC4; (try dsimp only)
      rw [PhiS4_castSucc V c t, PhiS4_pos V c _ _ hz]
      iintro ⟨⟨HS0, Hr⟩, Ho, ⟨%d0, H0⟩, ⟨%d1, H1⟩, ⟨%d2, H2⟩⟩
      iapply ((runC4 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover4_C V c t h0 h1 _)
        iexact Hr
      isplitl [Ho]; · iexact Ho
      isplitl [H0]; · iexact H0
      isplitl [H1]; · iexact H1
      unfold owns; iexists _; isplitr
      swap; · iexact H2
      ipureintro; exact View.read_writes_of_cover _ _ _ _ _ (cover4_C V c t h0 h1 _)
    · rw [Dat.leavesExact_idle (dat4 V c) 2 t (idleAt4_2 t h1) (noFlush4_2 t h1)]
      rw [outsAt4_B V c t h0 h1]
      unfold accB4; (try dsimp only)
      rw [PhiS4_castSucc V c t, PhiS4_pos V c _ _ hz]
      iintro ⟨⟨HS0, Hr⟩, Ho, ⟨%d0, H0⟩, ⟨%d1, H1⟩, ⟨%d2, H2⟩⟩
      iapply ((runB4 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_B V c t h0 h1 _)
        iexact Hr
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- The region's scoped rest is the invariant before the first point. -/
theorem hin4 (c : Dev nD) :
    (Pipeline.scopedRest (Ix := Unit) (Name := ℕ) (U := UR sig nD τ) (Lvl := ℕ) (Val := Elt F) spec4 c : sProp (MM F))
      ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the accumulator's named contents are forgotten. -/
theorem hout4 (c : Dev nD) :
    (dat4 V c).Φ (Fin.last cfg4.N)
      ⊢ (Pipeline.scopedRest (Ix := Unit) (Name := ℕ) (U := UR sig nD τ) (Lvl := ℕ) (Val := Elt F) spec4 c : sProp (MM F)) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 32 := N_4; omega), scopedRest4_scM]
  iintro ⟨HS0, Hr⟩
  isplitl [HS0]
  · iexists _; iexact HS0
  iexact Hr

end Cert.Kernel.Hand

end
-- ==== Proof.K.Run.lean ====
/-
  The whole program as the library's list of segments: five kernel regions with three short host stretches between
  them (a reshape of each filter vector into a column, a change of format of the small projection matrix). The
  contents of the TensorCore's unscoped buffers at the nine boundaries are a fold through @main: a host stretch
  applies its operations, a region replaces its output's array by what its pipeline leaves and keeps everything
  else. Each region enters from the contents before it and leaves at the contents after it; the launch theorem then
  gives: every weakly fair execution terminates, faults nowhere, and ends with every unscoped buffer at the last
  contents of the fold. No region's output and no host stretch's result is an argument, so the arguments end as
  launched; the result is what the last region's pipeline leaves in its output's array.
-/
import proofs.«173608_j68341519613982_2_alg».proof.Proof.K.R0
import proofs.«173608_j68341519613982_2_alg».proof.Proof.K.R1
import proofs.«173608_j68341519613982_2_alg».proof.Proof.K.R2
import proofs.«173608_j68341519613982_2_alg».proof.Proof.K.R3
import proofs.«173608_j68341519613982_2_alg».proof.Proof.K.R4
import proofs.«173608_j68341519613982_2_alg».proof.Proof.Gen.Kernel.Regions
import Idealize.ShloMosaic.Lib.Pipeline.Regions
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## The buffer contents at each boundary -/

/-- Core `c`'s buffers at launch, -/
abbrev W0 : Dev nD → Valuation τ sig (Elt F) := fun c b => m (c, b)
/-- and the same read at the TensorCore's references. -/
abbrev V0 : TcVal F := fun c b => W0 m c b

/-- At region 0's exit: its arrays at what the pipeline leaves (an input as entered, the output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : TcVal F := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Region 0 changes only its output's array: any other reference — an input window's array, which the pipeline hands
    back as it found it, or a buffer no window names — holds after it what it held before. -/
theorem W1_keep (c : Dev nD) (b : Ref sig .tc) (hb : b ≠ Pipeline.arrRef spec0 2) :
    W1 m c (Proc.devRef .tc b) = W0 m c (Proc.devRef .tc b) := by
  by_cases h : ∃ w, Pipeline.arrRef spec0 w = b
  · obtain ⟨w, rfl⟩ := h
    fin_cases w
    · exact (W1_arr m c 0).trans (((dat0 (V0 m) c).arrAt_in 0 rfl _).trans (A_eq0 (V0 m) c 0))
    · exact (W1_arr m c 1).trans (((dat0 (V0 m) c).arrAt_in 1 rfl _).trans (A_eq0 (V0 m) c 1))
    · exact absurd rfl hb
  · exact W1_of_ne m c b fun w e => h ⟨w, e⟩

/-- After the host stretch `hostOps1`. -/
abbrev W2 : Dev nD → Valuation τ sig (Elt F) := fun c => StableHlo.after hostOps1 (W1 m c)
abbrev V2 : TcVal F := fun c b => W2 m c b
/-- A reference the stretch does not write holds after it what it held before. -/
theorem W2_keep (c : Dev nD) (b : Ref sig .tc) (hb : b ∉ hostOps1_W) :
    W2 m c (Proc.devRef .tc b) = W1 m c (Proc.devRef .tc b) :=
  StableHlo.after_of_writes_sub hostOps1 _ hostOps1_writes hb

/-- At region 1's exit: its arrays at what the pipeline leaves (an input as entered, the output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : TcVal F := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Region 1 changes only its output's array: any other reference — an input window's array, which the pipeline hands
    back as it found it, or a buffer no window names — holds after it what it held before. -/
theorem W3_keep (c : Dev nD) (b : Ref sig .tc) (hb : b ≠ Pipeline.arrRef spec1 3) :
    W3 m c (Proc.devRef .tc b) = W2 m c (Proc.devRef .tc b) := by
  by_cases h : ∃ w, Pipeline.arrRef spec1 w = b
  · obtain ⟨w, rfl⟩ := h
    fin_cases w
    · exact (W3_arr m c 0).trans (((dat1 (V2 m) c).arrAt_in 0 rfl _).trans (A_eq1 (V2 m) c 0))
    · exact (W3_arr m c 1).trans (((dat1 (V2 m) c).arrAt_in 1 rfl _).trans (A_eq1 (V2 m) c 1))
    · exact (W3_arr m c 2).trans (((dat1 (V2 m) c).arrAt_in 2 rfl _).trans (A_eq1 (V2 m) c 2))
    · exact absurd rfl hb
  · exact W3_of_ne m c b fun w e => h ⟨w, e⟩

/-- After the host stretch `hostOps2`. -/
abbrev W4 : Dev nD → Valuation τ sig (Elt F) := fun c => StableHlo.after hostOps2 (W3 m c)
abbrev V4 : TcVal F := fun c b => W4 m c b
/-- A reference the stretch does not write holds after it what it held before. -/
theorem W4_keep (c : Dev nD) (b : Ref sig .tc) (hb : b ∉ hostOps2_W) :
    W4 m c (Proc.devRef .tc b) = W3 m c (Proc.devRef .tc b) :=
  StableHlo.after_of_writes_sub hostOps2 _ hostOps2_writes hb

/-- At region 2's exit: its arrays at what the pipeline leaves (an input as entered, the output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : TcVal F := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- Region 2 changes only its output's array: any other reference — an input window's array, which the pipeline hands
    back as it found it, or a buffer no window names — holds after it what it held before. -/
theorem W5_keep (c : Dev nD) (b : Ref sig .tc) (hb : b ≠ Pipeline.arrRef spec2 3) :
    W5 m c (Proc.devRef .tc b) = W4 m c (Proc.devRef .tc b) := by
  by_cases h : ∃ w, Pipeline.arrRef spec2 w = b
  · obtain ⟨w, rfl⟩ := h
    fin_cases w
    · exact (W5_arr m c 0).trans (((dat2 (V4 m) c).arrAt_in 0 rfl _).trans (A_eq2 (V4 m) c 0))
    · exact (W5_arr m c 1).trans (((dat2 (V4 m) c).arrAt_in 1 rfl _).trans (A_eq2 (V4 m) c 1))
    · exact (W5_arr m c 2).trans (((dat2 (V4 m) c).arrAt_in 2 rfl _).trans (A_eq2 (V4 m) c 2))
    · exact absurd rfl hb
  · exact W5_of_ne m c b fun w e => h ⟨w, e⟩

/-- After the host stretch `hostOps3`. -/
abbrev W6 : Dev nD → Valuation τ sig (Elt F) := fun c => StableHlo.after hostOps3 (W5 m c)
abbrev V6 : TcVal F := fun c b => W6 m c b
/-- A reference the stretch does not write holds after it what it held before. -/
theorem W6_keep (c : Dev nD) (b : Ref sig .tc) (hb : b ∉ hostOps3_W) :
    W6 m c (Proc.devRef .tc b) = W5 m c (Proc.devRef .tc b) :=
  StableHlo.after_of_writes_sub hostOps3 _ hostOps3_writes hb

/-- At region 3's exit: its arrays at what the pipeline leaves (an input as entered, the output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev V7 : TcVal F := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- Region 3 changes only its output's array: any other reference — an input window's array, which the pipeline hands
    back as it found it, or a buffer no window names — holds after it what it held before. -/
theorem W7_keep (c : Dev nD) (b : Ref sig .tc) (hb : b ≠ Pipeline.arrRef spec3 3) :
    W7 m c (Proc.devRef .tc b) = W6 m c (Proc.devRef .tc b) := by
  by_cases h : ∃ w, Pipeline.arrRef spec3 w = b
  · obtain ⟨w, rfl⟩ := h
    fin_cases w
    · exact (W7_arr m c 0).trans (((dat3 (V6 m) c).arrAt_in 0 rfl _).trans (A_eq3 (V6 m) c 0))
    · exact (W7_arr m c 1).trans (((dat3 (V6 m) c).arrAt_in 1 rfl _).trans (A_eq3 (V6 m) c 1))
    · exact (W7_arr m c 2).trans (((dat3 (V6 m) c).arrAt_in 2 rfl _).trans (A_eq3 (V6 m) c 2))
    · exact absurd rfl hb
  · exact W7_of_ne m c b fun w e => h ⟨w, e⟩

/-- At region 4's exit: its arrays at what the pipeline leaves (an input as entered, the output's write-backs folded),
    every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same read at the TensorCore's references. -/
abbrev V8 : TcVal F := fun c b => W8 m c b
theorem hF4 (c : Dev nD) (w : Fin cfg4.W) : (dat4 (V7 m) c).arrAt w cfg4.N = V8 m c (Pipeline.arrRef spec4 w) :=
  (W8_arr m c w).symm
theorem hrest4 (c : Dev nD) : ∀ b, b ∉ Finset.univ.image (Pipeline.arrRef spec4) → V8 m c b = V7 m c b :=
  fun b hb => W8_of_ne m c b fun w e => hb (Finset.mem_image.mpr ⟨w, Finset.mem_univ _, e⟩)

/-- Region 4 changes only its output's array: any other reference — an input window's array, which the pipeline hands
    back as it found it, or a buffer no window names — holds after it what it held before. -/
theorem W8_keep (c : Dev nD) (b : Ref sig .tc) (hb : b ≠ Pipeline.arrRef spec4 2) :
    W8 m c (Proc.devRef .tc b) = W7 m c (Proc.devRef .tc b) := by
  by_cases h : ∃ w, Pipeline.arrRef spec4 w = b
  · obtain ⟨w, rfl⟩ := h
    fin_cases w
    · exact (W8_arr m c 0).trans (((dat4 (V7 m) c).arrAt_in 0 rfl _).trans (A_eq4 (V7 m) c 0))
    · exact (W8_arr m c 1).trans (((dat4 (V7 m) c).arrAt_in 1 rfl _).trans (A_eq4 (V7 m) c 1))
    · exact absurd rfl hb
  · exact W8_of_ne m c b fun w e => h ⟨w, e⟩

/-! ## The arguments end as launched -/

/-- `main_arg0` is no region's output and no host stretch writes it: it ends as launched. -/
theorem W8_main_arg0 (c : Dev nD) : W8 m c (Proc.devRef .tc main_arg0) = m ((c : Thread nD τ).loc main_arg0) :=
  (W8_keep m c main_arg0 (by decide)).trans <| (W7_keep m c main_arg0 (by decide)).trans <| (W6_keep m c main_arg0 (by decide)).trans <|
  (W5_keep m c main_arg0 (by decide)).trans <| (W4_keep m c main_arg0 (by decide)).trans <| (W3_keep m c main_arg0 (by decide)).trans <|
  (W2_keep m c main_arg0 (by decide)).trans <| (W1_keep m c main_arg0 (by decide)).trans rfl

/-- `main_arg1` is no region's output and no host stretch writes it: it ends as launched. -/
theorem W8_main_arg1 (c : Dev nD) : W8 m c (Proc.devRef .tc main_arg1) = m ((c : Thread nD τ).loc main_arg1) :=
  (W8_keep m c main_arg1 (by decide)).trans <| (W7_keep m c main_arg1 (by decide)).trans <| (W6_keep m c main_arg1 (by decide)).trans <|
  (W5_keep m c main_arg1 (by decide)).trans <| (W4_keep m c main_arg1 (by decide)).trans <| (W3_keep m c main_arg1 (by decide)).trans <|
  (W2_keep m c main_arg1 (by decide)).trans <| (W1_keep m c main_arg1 (by decide)).trans rfl

/-- `main_arg2` is no region's output and no host stretch writes it: it ends as launched. -/
theorem W8_main_arg2 (c : Dev nD) : W8 m c (Proc.devRef .tc main_arg2) = m ((c : Thread nD τ).loc main_arg2) :=
  (W8_keep m c main_arg2 (by decide)).trans <| (W7_keep m c main_arg2 (by decide)).trans <| (W6_keep m c main_arg2 (by decide)).trans <|
  (W5_keep m c main_arg2 (by decide)).trans <| (W4_keep m c main_arg2 (by decide)).trans <| (W3_keep m c main_arg2 (by decide)).trans <|
  (W2_keep m c main_arg2 (by decide)).trans <| (W1_keep m c main_arg2 (by decide)).trans rfl

/-- `main_arg3` is no region's output and no host stretch writes it: it ends as launched. -/
theorem W8_main_arg3 (c : Dev nD) : W8 m c (Proc.devRef .tc main_arg3) = m ((c : Thread nD τ).loc main_arg3) :=
  (W8_keep m c main_arg3 (by decide)).trans <| (W7_keep m c main_arg3 (by decide)).trans <| (W6_keep m c main_arg3 (by decide)).trans <|
  (W5_keep m c main_arg3 (by decide)).trans <| (W4_keep m c main_arg3 (by decide)).trans <| (W3_keep m c main_arg3 (by decide)).trans <|
  (W2_keep m c main_arg3 (by decide)).trans <| (W1_keep m c main_arg3 (by decide)).trans rfl

/-- `main_arg4` is no region's output and no host stretch writes it: it ends as launched. -/
theorem W8_main_arg4 (c : Dev nD) : W8 m c (Proc.devRef .tc main_arg4) = m ((c : Thread nD τ).loc main_arg4) :=
  (W8_keep m c main_arg4 (by decide)).trans <| (W7_keep m c main_arg4 (by decide)).trans <| (W6_keep m c main_arg4 (by decide)).trans <|
  (W5_keep m c main_arg4 (by decide)).trans <| (W4_keep m c main_arg4 (by decide)).trans <| (W3_keep m c main_arg4 (by decide)).trans <|
  (W2_keep m c main_arg4 (by decide)).trans <| (W1_keep m c main_arg4 (by decide)).trans rfl

/-- `main_arg5` is no region's output and no host stretch writes it: it ends as launched. -/
theorem W8_main_arg5 (c : Dev nD) : W8 m c (Proc.devRef .tc main_arg5) = m ((c : Thread nD τ).loc main_arg5) :=
  (W8_keep m c main_arg5 (by decide)).trans <| (W7_keep m c main_arg5 (by decide)).trans <| (W6_keep m c main_arg5 (by decide)).trans <|
  (W5_keep m c main_arg5 (by decide)).trans <| (W4_keep m c main_arg5 (by decide)).trans <| (W3_keep m c main_arg5 (by decide)).trans <|
  (W2_keep m c main_arg5 (by decide)).trans <| (W1_keep m c main_arg5 (by decide)).trans rfl

/-- `main_arg6` is no region's output and no host stretch writes it: it ends as launched. -/
theorem W8_main_arg6 (c : Dev nD) : W8 m c (Proc.devRef .tc main_arg6) = m ((c : Thread nD τ).loc main_arg6) :=
  (W8_keep m c main_arg6 (by decide)).trans <| (W7_keep m c main_arg6 (by decide)).trans <| (W6_keep m c main_arg6 (by decide)).trans <|
  (W5_keep m c main_arg6 (by decide)).trans <| (W4_keep m c main_arg6 (by decide)).trans <| (W3_keep m c main_arg6 (by decide)).trans <|
  (W2_keep m c main_arg6 (by decide)).trans <| (W1_keep m c main_arg6 (by decide)).trans rfl

/-- The result's array ends at what the last region's pipeline leaves in it. -/
theorem W8_main_v0 (c : Dev nD) : W8 m c (Proc.devRef .tc main_v0) = (dat4 (V7 m) c).arrAt 2 cfg4.N :=
  W8_arr m c 2

/-! ## The proof data family and the regions -/

/-- Every pipeline's proof data, each at its region's entry contents — a literal match, so that the library's pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V7 m) c

/-- A host stretch as a segment over the unscoped references from the contents `W`, the tallies riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- a library lemma stated over the pinned configuration unifies with the printed one only when unification may unfold
-- plain definitions in a metavariable's type
set_option backward.isDefEq.respectTransparency.types false in
/-- Region 0 over the thread state: entered from every unscoped buffer at the contents before it, left at the
    contents after it. Its arrays are split out of the unscoped buffers and put back at what the pipeline leaves; only
    the scoped rest enters the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X _ := BI.emp
  Y _ := BI.emp
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 (V0 m) c).Φ 0 from rfl]
    iintro ⟨-, -, Hr⟩
    iapply (hin0 (V0 m) c)
    iexact Hr
  hout c := by
    rw [Pipeline.ownSems0_none, show (pdats m 0 c).Φ (Fin.last _) = (dat0 (V0 m) c).Φ (Fin.last cfg0.N) from rfl]
    iintro HΦ
    isplitr; · iempintro
    isplitr; · iempintro
    iapply (hout0 (V0 m) c)
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left at the
    contents after it. Its arrays are split out of the unscoped buffers and put back at what the pipeline leaves; only
    the scoped rest enters the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (V2 m) c).Φ 0 from rfl]
    iintro ⟨-, -, Hr⟩
    iapply (hin1 (V2 m) c)
    iexact Hr
  hout c := by
    rw [Pipeline.ownSems0_none, show (pdats m 1 c).Φ (Fin.last _) = (dat1 (V2 m) c).Φ (Fin.last cfg1.N) from rfl]
    iintro HΦ
    isplitr; · iempintro
    isplitr; · iempintro
    iapply (hout1 (V2 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the contents before it, left at the
    contents after it. Its arrays are split out of the unscoped buffers and put back at what the pipeline leaves; only
    the scoped rest enters the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X _ := BI.emp
  Y _ := BI.emp
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (dat2 (V4 m) c).Φ 0 from rfl]
    iintro ⟨-, -, Hr⟩
    iapply (hin2 (V4 m) c)
    iexact Hr
  hout c := by
    rw [Pipeline.ownSems0_none, show (pdats m 2 c).Φ (Fin.last _) = (dat2 (V4 m) c).Φ (Fin.last cfg2.N) from rfl]
    iintro HΦ
    isplitr; · iempintro
    isplitr; · iempintro
    iapply (hout2 (V4 m) c)
    iexact HΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the contents before it, left at the
    contents after it. Its arrays are split out of the unscoped buffers and put back at what the pipeline leaves; only
    the scoped rest enters the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X _ := BI.emp
  Y _ := BI.emp
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = (dat3 (V6 m) c).Φ 0 from rfl]
    iintro ⟨-, -, Hr⟩
    iapply (hin3 (V6 m) c)
    iexact Hr
  hout c := by
    rw [Pipeline.ownSems0_none, show (pdats m 3 c).Φ (Fin.last _) = (dat3 (V6 m) c).Φ (Fin.last cfg3.N) from rfl]
    iintro HΦ
    isplitr; · iempintro
    isplitr; · iempintro
    iapply (hout3 (V6 m) c)
    iexact HΦ
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at the contents before it, left at the
    contents after it. Its arrays are split out of the unscoped buffers and put back at what the pipeline leaves; only
    the scoped rest enters the invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X _ := BI.emp
  Y _ := BI.emp
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 4 c).Φ 0 = (dat4 (V7 m) c).Φ 0 from rfl]
    iintro ⟨-, -, Hr⟩
    iapply (hin4 (V7 m) c)
    iexact Hr
  hout c := by
    rw [Pipeline.ownSems0_none, show (pdats m 4 c).Φ (Fin.last _) = (dat4 (V7 m) c).Φ (Fin.last cfg4.N) from rfl]
    iintro HΦ
    isplitr; · iempintro
    isplitr; · iempintro
    iapply (hout4 (V7 m) c)
    iexact HΦ
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (hF4 m c) (hrest4 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- @main's items, in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .region (reg4 m) ]

/-- @main is the run of those items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state holds every unscoped buffer at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

/-- The frame with the result named: besides the arguments, the result's array ends at what the last region leaves. -/
theorem run_valued (ρ : Dev nD → PrngReg) : θ_run defs (onTc (τ := τ) (main (F := F))) ⟨m, fun _ => 0, ρ⟩ (fun r => ∀ c : Dev nD,
      r.2.mem ((c.tc : Thread nD τ).loc main_v0) = (dat4 (V7 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v0 (by decide))).trans (W8_main_v0 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

end Cert.Kernel.Hand

end
-- ==== Proof.KI.Base.lean ====
/-
  What every hand module of this program shares: the resource algebra the launch is run at, the shape of a
  TensorCore valuation, and what rides beside the unscoped buffers from one segment of @main to the next (the
  core owes no other core anything, at every boundary).
-/
import proofs.«173608_j68341519613982_2_alg».proof.Proof.Gen.KernelIdeal.Launch
import proofs.«173608_j68341519613982_2_alg».proof.Proof.Gen.KernelIdeal.Points
import proofs.«173608_j68341519613982_2_alg».proof.Proof.Gen.KernelIdeal.Skeleton
import Idealize.ShloMosaic.Lib.Pipeline.RegionsLoop
import Idealize.ShloMosaic.Lib.Pipeline.Frame
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource model every region of this program is run at: no index, names and levels natural numbers, the
    pipeline library's own algebra. -/
abbrev MM (F : FTy → Type) [FloatOps F] : Type := MT nD τ sig Unit (Elt F) ℕ (UR sig nD τ) ℕ

/-- The TensorCore's buffer contents on every core: what a region is entered from. -/
abbrev TcVal (F : FTy → Type) [FloatOps F] : Type := (c : Dev nD) → (b : Ref sig .tc) → Buf (Elt F) ((c : Thread nD τ).loc b)

/-- No prefetched table anywhere. -/
abbrev adm : (p : Fin 5) → (pcfgs (F := F) p).Adm := fun p => (cfgs p).toPCfg_adm

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers through every segment: the core's tallies, at nothing owed. -/
abbrev R (c : Dev nD) : sProp (MM F) := iprop(∃ W, owes (c : Thread nD τ) (0 : CellTallies nD τ sig Unit) W)

end Cert.KernelIdeal.Hand

end
-- ==== Proof.KI.R0.lean ====
/-
  The first region: one row block of x (1024 rows of 512) times the whole of w1 (512 by 256), at each of the
  eight grid points. The body loads the row block and the matrix, multiplies, and stores the product over the
  whole output block; nothing is carried from one point to the next. So the proof data names, after every point,
  each input's staging buffer at its block and the output's at the product of the two blocks, and the body's triple
  is one run of the executor.
-/
import proofs.«173608_j68341519613982_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : TcVal F)

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rx0 : Rect S1024x512 := Rect.unit (s := S1024x512) ![0, 0] S1024x512.size inb_S1024x512_S1024x512_0_0
abbrev rw0 : Rect S512x256 := Rect.unit (s := S512x256) ![0, 0] S512x256.size inb_S512x256_S512x256_0_0
abbrev ro0 : Rect S1024x256 := Rect.unit (s := S1024x256) ![0, 0] S1024x256.size inb_S1024x256_S1024x256_0_0

/-- What the output's staging buffer holds after the body: its one store, of the product of the two loaded blocks. -/
def prod0 (x : Vec F S1024x512 .f32) (w : Vec F S512x256 .f32) : Vec F S1024x256 .bf16 :=
  View.canon [⟨ro0, k0_pay1 (View.ld x rx0) (View.ld w rw0)⟩]

/-- The one store covers the output block. -/
theorem cover_prod0 (p : Vec F S1024x256 .bf16) (y : S1024x256.Idx) :
    ∃ pc ∈ ([⟨ro0, p⟩] : List (View.Piece (Elt F) S1024x256 .bf16)), y ∈ pc.1.set :=
  View.cover_of_tiled [⟨ro0, p⟩] S1024x256.size (by rfl) y

set_option maxHeartbeats 1000000 in
/-- The body on whole staging memrefs, the inputs' at contents read as `x` and `w`, the output's at anything: it runs
    to its return with the inputs' as they were and the output's at the product. -/
theorem run0 (c : Dev nD) (E : Set ℕ) (i : grid0.Coords)
    (a1 : Memref sig .tc .vmem S1024x512 .f32) (h1 : a1.IsWhole) (a2 : Memref sig .tc .vmem S512x256 .f32) (h2 : a2.IsWhole)
    (a3 : Memref sig .tc .vmem S1024x256 .bf16) (h3 : a3.IsWhole)
    (x : Vec F S1024x512 .f32) (w : Vec F S512x256 .f32) (K : PUnit → sProp (MM F)) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w ∗ owns (c : Thread nD τ) a3 fullShare (prod0 x w)) -∗ K ⟨⟩))
      ⊢ wp frame (wpE (defs₀ (F := F)) Variants.none c none) E (cc0__small_matmul_kernel i a1 h1 a2 h2 a3 h3) K := by
  simp only [cc0__small_matmul_kernel_eq_skeleton]; unfold cc0__small_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_prod0 _)

/-- The proof data of the first region on core `c`: the arrays as the region finds them; after the body at point
    `t` each input's buffer at its block and the output's at the product of the two; between points only the scoped
    buffers no window stages, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.scopedRest (Ix := Unit) (Name := ℕ) (U := UR sig nD τ) (Lvl := ℕ) (Val := Elt F) spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = prod0 (blk0 V c 0 t) (blk0 V c 1 t) := by dsimp only [dat0]

/-- The row block's buffer holds the block at every point (it is fetched at every point). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

/-- The matrix's buffer holds the whole matrix at every point, though it is fetched only at the first: its index never
    moves and the body leaves it in place. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

/-- What the body is called with at point `t`, the windows one by one, -/
def bodyPre0 (c : Dev nD) (t : Fin cfg0.N) : sProp (MM F) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp (MM F) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the run applies; the invariant and the tallies pass
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Entering the region, the invariant is the scoped rest as the launch hands it over, -/
theorem hin0 (c : Dev nD) : (Pipeline.scopedRest (Ix := Unit) (Name := ℕ) (U := UR sig nD τ) (Lvl := ℕ) (Val := Elt F) spec0 c : sProp (MM F)) ⊢ (dat0 V c).Φ 0 := .rfl
/-- and leaving it, it gives the same back. -/
theorem hout0 (c : Dev nD) : (dat0 V c).Φ (Fin.last cfg0.N) ⊢ (Pipeline.scopedRest (Ix := Unit) (Name := ℕ) (U := UR sig nD τ) (Lvl := ℕ) (Val := Elt F) spec0 c : sProp (MM F)) := .rfl

end Cert.KernelIdeal.Hand

end
-- ==== Proof.KI.R1Run.lean ====
/-
  Region 1 of the program: the K-blocked product of a 1024-row block of the square matrix with the resident
  8192 x 256 operand, accumulated over four steps of 2048 columns into a 1024 x 256 single-precision scratch, and at
  the last step scaled row by row by a 1024 x 1 column and rounded into the output block.

  The kernel body has two conditionals on the step k = t mod 4: the scratch is zeroed when k = 0, and the output
  block is stored when k = 3. So a point of the grid is in one of three cases, A (k = 0), B (k = 1, 2), C (k = 3);
  no point meets both conditions. This module states the two conditions in closed form, where the output window is
  idle, and the body's triple in each case as a subtype whose witness (the pieces each buffer ends with) the symbolic
  executor finds.
-/
import proofs.«173608_j68341519613982_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions, in closed form -/

/-- The first conditional's condition (the step is 0), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points whose step is 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the step is the last, 3). -/
abbrev cond1_1 (i : grid1.Coords) : Prop := k1_cond2 i = 1#1
/-- It holds exactly at the points whose step is 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three operands are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a point of case A the output block is not stored into, nor written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at a point of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a point of case C it is stored. -/
theorem liveAt1_3_C : ∀ t : Fin cfg1.N, ¬cond1_0 (grid1.coords t) → cond1_1 (grid1.coords t) → cfg1.idle 3 (grid1.coords t) = false := by decide +kernel

/-! ## The memrefs the body is called on -/

/-- One staging buffer of the output window, through which its contents are stated (the choice does not matter: what
    covering stores leave reads the same through any view of the shape). -/
abbrev VO1_3 : View sig .tc .vmem S1024x256 .bf16 := (Memref.whole cc1_stg3_0 : Memref sig .tc .vmem S1024x256 .bf16).view
/-- Each window's current staging memref at point `t`, and that it is a whole buffer. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S1024x256 .f32 := Memref.whole cc1_scratch0
abbrev VS1_0 : View sig .tc .vmem S1024x256 .f32 := scM1_0.view

/-! ## The body in each case -/

set_option maxHeartbeats 1000000 in
/-- CASE A (step 0). From the three operand blocks `x0`, `x1`, `x2` in their staging memrefs, the output's memref at
    contents `xi3` it does not touch, and the accumulator at anything, the body runs to its return with the operands
    and the output's memref as they were and the accumulator with the pieces `LS0` written: the zero fill, then the
    first partial product added to it. The output gets no piece. -/
noncomputable def run1_A (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : cond1_0 i) (hc1 : ¬cond1_1 i)
    (x0 : Vec F S1024x2048 .f32) (x1 : Vec F S8192x256 .bf16) (x2 : Vec F S1024x1 .f32) :
    Σ' (L3 : List (View.Piece (Elt F) S1024x256 .bf16)), { LS0 : List (View.Piece (Elt F) S1024x256 .f32) //
      ∀ (xi3 : Vec F S1024x256 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (steps 1 and 2). The same with the accumulator arriving at the contents `xs0` the point before left: one
    piece, this step's partial product added to `xs0`. -/
noncomputable def run1_B (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : ¬cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (xi3 : Vec F S1024x256 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (step 3). The accumulator arrives at `xs0`, the output's memref at anything; the accumulator gets the last
    partial product added, and the output one piece: the accumulator scaled row by row by the column `x2` and
    rounded. -/
noncomputable def run1_C (c : Dev nD) (i : grid1.Coords)
    (arg2 : Memref sig .tc .vmem S1024x2048 .f32) (harg2 : arg2.IsWhole)
    (arg3 : Memref sig .tc .vmem S8192x256 .bf16) (harg3 : arg3.IsWhole)
    (arg4 : Memref sig .tc .vmem S1024x1 .f32) (harg4 : arg4.IsWhole)
    (arg5 : Memref sig .tc .vmem S1024x256 .bf16) (harg5 : arg5.IsWhole)
    (arg6 : Memref sig .tc .vmem S1024x256 .f32) (harg6 : arg6.IsWhole)
    (hc0 : ¬cond1_0 i) (hc1 : cond1_1 i)
    (x0 : Vec F S1024x2048 .f32) (x1 : Vec F S8192x256 .bf16) (x2 : Vec F S1024x1 .f32) (xs0 : Vec F S1024x256 .f32) :
    Σ' (L3 : List (View.Piece (Elt F) S1024x256 .bf16)), { LS0 : List (View.Piece (Elt F) S1024x256 .f32) //
      ∀ (E : Set ℕ) (K : PUnit → sProp (MM F)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1.lean ====
/-
  Region 1, the frame: what the accumulator and the output block hold point by point, the region's proof data over an
  arbitrary entry valuation `V`, and the body obligation.

  The invariant carries the accumulator. Before the first point it is the region's whole scoped rest (the accumulator
  among the scoped buffers, at anything); after point n the accumulator is held whole at the contents the recursion
  `outsAt1` names for n, beside the scoped buffers other than it. The three operands' staging buffers hold their
  blocks at every point, fetched there or not (an operand not fetched at a point has the block index it had at the
  point before); the output block is idle except at the last step of each row block, where it is stored and written
  back.
-/
import proofs.«173608_j68341519613982_2_alg».proof.Proof.KI.R1Run
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves -/

/-- Case A stores nothing into the output block: a placeholder that nothing consults, since at these points the block
    is neither written back nor read by the next point. -/
def out1_A_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) : Vec F S1024x256 .bf16 :=
  VO1_3.read (Elt F) (VO1_3.writes (Elt F) VO1_3.junk (run1_A c i arg2 harg2 arg3 harg3 arg4 harg4 arg5 harg5 arg6 harg6 hc0 hc1 x0 x1 x2).1)

/-- Case A's stores into the accumulator cover it (each is a store of the whole 1024 x 256 block). -/
theorem scover1_A_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) (y : S1024x256.Idx) :
    ∃ pc ∈ (run1_A c i arg2 harg2 arg3 harg3 arg4 harg4 arg5 harg5 arg6 harg6 hc0 hc1 x0 x1 x2).2.1, y ∈ pc.1.set :=
  View.cover_of_tiledL (run1_A c i arg2 harg2 arg3 harg3 arg4 harg4 arg5 harg5 arg6 harg6 hc0 hc1 x0 x1 x2).2.1 S1024x256.size (by sl_kernel_rfl) y

/-- What case A leaves in the accumulator: its pieces read back. -/
def sout1_A_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) : Vec F S1024x256 .f32 :=
  VS1_0.read (Elt F) (VS1_0.writes (Elt F) VS1_0.junk (run1_A c i arg2 harg2 arg3 harg3 arg4 harg4 arg5 harg5 arg6 harg6 hc0 hc1 x0 x1 x2).2.1)

/-- Case B stores nothing into the output block: a placeholder that nothing consults, since at these points the block
    is neither written back nor read by the next point. -/
def out1_B_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (run1_B c i arg2 harg2 arg3 harg3 arg4 harg4 arg5 harg5 arg6 harg6 hc0 hc1 x0 x1 x2 xs0).1)

/-- Case B's stores into the accumulator cover it (each is a store of the whole 1024 x 256 block). -/
theorem scover1_B_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) (y : S1024x256.Idx) :
    ∃ pc ∈ (run1_B c i arg2 harg2 arg3 harg3 arg4 harg4 arg5 harg5 arg6 harg6 hc0 hc1 x0 x1 x2 xs0).2.1, y ∈ pc.1.set :=
  View.cover_of_tiledL (run1_B c i arg2 harg2 arg3 harg3 arg4 harg4 arg5 harg5 arg6 harg6 hc0 hc1 x0 x1 x2 xs0).2.1 S1024x256.size (by sl_kernel_rfl) y

/-- What case B leaves in the accumulator: its pieces read back. -/
def sout1_B_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) : Vec F S1024x256 .f32 :=
  VS1_0.read (Elt F) (VS1_0.writes (Elt F) VS1_0.junk (run1_B c i arg2 harg2 arg3 harg3 arg4 harg4 arg5 harg5 arg6 harg6 hc0 hc1 x0 x1 x2 xs0).2.1)

/-- Case C's one store into the output block covers it. -/
theorem cover1_C_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) (y : S1024x256.Idx) :
    ∃ pc ∈ (run1_C c i arg2 harg2 arg3 harg3 arg4 harg4 arg5 harg5 arg6 harg6 hc0 hc1 x0 x1 x2 xs0).1, y ∈ pc.1.set :=
  View.cover_of_tiledL (run1_C c i arg2 harg2 arg3 harg3 arg4 harg4 arg5 harg5 arg6 harg6 hc0 hc1 x0 x1 x2 xs0).1 S1024x256.size (by sl_kernel_rfl) y

/-- What case C leaves in the output block: its piece read back. -/
def out1_C_3 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) : Vec F S1024x256 .bf16 :=
  VO1_3.read (Elt F) (VO1_3.writes (Elt F) VO1_3.junk (run1_C c i arg2 harg2 arg3 harg3 arg4 harg4 arg5 harg5 arg6 harg6 hc0 hc1 x0 x1 x2 xs0).1)

/-- Case C's stores into the accumulator cover it (each is a store of the whole 1024 x 256 block). -/
theorem scover1_C_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) (y : S1024x256.Idx) :
    ∃ pc ∈ (run1_C c i arg2 harg2 arg3 harg3 arg4 harg4 arg5 harg5 arg6 harg6 hc0 hc1 x0 x1 x2 xs0).2.1, y ∈ pc.1.set :=
  View.cover_of_tiledL (run1_C c i arg2 harg2 arg3 harg3 arg4 harg4 arg5 harg5 arg6 harg6 hc0 hc1 x0 x1 x2 xs0).2.1 S1024x256.size (by sl_kernel_rfl) y

/-- What case C leaves in the accumulator: its pieces read back. -/
def sout1_C_0 (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) : Vec F S1024x256 .f32 :=
  VS1_0.read (Elt F) (VS1_0.writes (Elt F) VS1_0.junk (run1_C c i arg2 harg2 arg3 harg3 arg4 harg4 arg5 harg5 arg6 harg6 hc0 hc1 x0 x1 x2 xs0).2.1)

/-! ## The operands' blocks -/

variable (V : TcVal F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's current staging buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output block and the accumulator hold after each point -/

/-- THE ACCUMULATION. What the output's staging buffer and the accumulator hold after the body at position `n`: the case
    the closed forms select at `n`, run at the point's memrefs and operand blocks, the accumulator arriving (cases B and
    C) at what this leaves at `n - 1`. No point meets both conditions. -/
def outsAt1 (c : Dev nD) : (n : ℕ) → n < cfg1.N → Vec F S1024x256 .bf16 × Vec F S1024x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped rest with the accumulator taken out of it, as a memref owned at some contents. -/
theorem PhiR1_eq (c : Dev nD) :
    (Pipeline.scopedRest (Ix := Unit) (Name := ℕ) (U := UR sig nD τ) (Lvl := ℕ) (Val := Elt F) spec1 c : sProp (MM F))
      = iprop(iprop((∃ d, owns (c : Thread nD τ) scM1_0 fullShare d)) ∗ Pipeline.scopedRestBut (Ix := Unit) (Name := ℕ) (U := UR sig nD τ) (Lvl := ℕ) (Val := Elt F) spec1 c [cc1_scratch0]) := by
  rw [scopedRest1_split]; simp only [scM1_0, owns_whole]; try rfl

/-- The invariant before position `n`: before the first point the whole scoped rest; afterwards the accumulator at
    what the point before left in it, beside the other scoped buffers. -/
def PhiS1 (c : Dev nD) : (n : ℕ) → n ≤ cfg1.N → sProp (MM F)
  | 0, _ => Pipeline.scopedRest (Ix := Unit) (Name := ℕ) (U := UR sig nD τ) (Lvl := ℕ) (Val := Elt F) spec1 c
  | n + 1, hn => iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0])

theorem PhiS1_zero (c : Dev nD) (n : ℕ) (h : n ≤ cfg1.N) (hz : n = 0) : PhiS1 V c n h = Pipeline.scopedRest (Ix := Unit) (Name := ℕ) (U := UR sig nD τ) (Lvl := ℕ) (Val := Elt F) spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) := by
  cases n with
  | zero => exact absurd rfl hz
  | succ n => rfl

/-! ## The proof data -/

/-- The proof data of region 1 on core `c`, entered from `V`: the arrays at `V`; after the body at point `t` each
    operand's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp (MM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp (MM F) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The operands' memrefs hold their blocks; the closed forms say which case the point is in; the
    invariant hands the body the accumulator at what the point before left (at anything at the first point, and at a
    point of case A, which overwrites it whole before reading it) and takes it back at this point's contents, the stores
    covering it; the output's memref is handed back untouched in cases A and B, and at its covering piece in case C;
    the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiR1_eq]
        iintro ⟨⟨HS0, HR⟩, Ho, ⟨%d0, H0⟩, ⟨%d1, H1⟩, ⟨%d2, H2⟩, ⟨%d3, H3⟩⟩
        iapply ((run1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨HS0, HR⟩, Ho, ⟨%d0, H0⟩, ⟨%d1, H1⟩, ⟨%d2, H2⟩, ⟨%d3, H3⟩⟩
        iapply ((run1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      · iintro ⟨⟨HS0, HR⟩, Ho, ⟨%d0, H0⟩, ⟨%d1, H1⟩, ⟨%d2, H2⟩, ⟨%d3, H3⟩⟩
        iapply ((run1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      · iintro ⟨⟨HS0, HR⟩, Ho, ⟨%d0, H0⟩, ⟨%d1, H1⟩, ⟨%d2, H2⟩, ⟨%d3, H3⟩⟩
        iapply ((run1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's ends -/

/-- What the launch hands the region, its scoped rest, is the invariant before the first point. -/
theorem hin1 (c : Dev nD) : (Pipeline.scopedRest (Ix := Unit) (Name := ℕ) (U := UR sig nD τ) (Lvl := ℕ) (Val := Elt F) spec1 c : sProp (MM F)) ⊢ (dat1 V c).Φ 0 := by
  rw [show (dat1 V c).Φ 0 = PhiS1 V c 0 (Nat.zero_le _) from rfl, PhiS1_zero V c 0 _ rfl]

/-- After any point but the first the invariant gives the scoped rest back: the accumulator's named contents are
    forgotten. -/
theorem Phi_out1 (c : Dev nD) (t : Fin (cfg1.N + 1)) (ht : t.val ≠ 0) :
    (dat1 V c).Φ t ⊢ (Pipeline.scopedRest (Ix := Unit) (Name := ℕ) (U := UR sig nD τ) (Lvl := ℕ) (Val := Elt F) spec1 c : sProp (MM F)) := by
  rw [show (dat1 V c).Φ t = PhiS1 V c t.val (Nat.le_of_lt_succ t.isLt) from rfl, PhiS1_pos V c _ _ ht, PhiR1_eq]
  iintro ⟨HS0, HR⟩
  isplitl [HS0]
  · iexists _; iexact HS0
  iexact HR

/-- The same after the last point. -/
theorem hout1 (c : Dev nD) : (dat1 V c).Φ (Fin.last cfg1.N) ⊢ (Pipeline.scopedRest (Ix := Unit) (Name := ℕ) (U := UR sig nD τ) (Lvl := ℕ) (Val := Elt F) spec1 c : sProp (MM F)) :=
  Phi_out1 V c _ (by rw [Fin.val_last]; have : cfg1.N = 32 := N_1; omega)

end Cert.KernelIdeal.Hand

end
-- ==== Proof.KI.R2Run.lean ====
import proofs.«173608_j68341519613982_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 2: the body's run, case by case

The body of the third call accumulates one block product per grid point into a scratch accumulator: at reduction
step 0 it first zeroes the accumulator, at every step it adds the product of the current block of the left matrix
with the matching rows of the resident right matrix, and at the last step (3) it applies the rectifier, multiplies by
the resident projection matrix and stores the row block of the result. Three control cases, decided by the point's
reduction coordinate: A (step 0), B (steps 1 and 2), C (step 3). -/

/-- The first branch of the body (zero the accumulator) is taken exactly when the reduction coordinate is 0:
    the branch condition as the skeleton computes it from the grid coordinates. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The last branch (finish the row block and store it) is taken exactly at the last reduction step. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the output window is idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Before the last reduction step nothing is stored into the output block, -/
theorem idleAt2_3 : ∀ t : Fin cfg2.N, ¬ t.val % 4 = 3 → cfg2.idle 3 (grid2.coords t) = true :=
  (by decide +kernel : ∀ t : Fin grid2.N, ¬ t.val % 4 = 3 → cfg2.idle 3 (grid2.coords t) = true)
/-- and it is not written back; -/
theorem noFlush2_3 (t : Fin cfg2.N) (h : ¬ t.val % 4 = 3) : (cfg2.win 3).flush t = false := by
  rw [← Bool.not_eq_true]; exact fun hf => h ((flush2_3 t).mp hf)
/-- at the last step it is stored. -/
theorem liveAt2_3 : ∀ t : Fin cfg2.N, t.val % 4 = 3 → cfg2.idle 3 (grid2.coords t) = false :=
  (by decide +kernel : ∀ t : Fin grid2.N, t.val % 4 = 3 → cfg2.idle 3 (grid2.coords t) = false)

/-! ## The runs

Each run is a pair: the list of pieces the body's stores leave in a buffer (last store first), found by running the
body symbolically, and the proof that from whole operands at the stated contents the body runs to a state holding
the inputs as they were and the stored buffers with those pieces written. -/

set_option maxHeartbeats 4000000 in
/-- Case A (reduction step 0): the accumulator, at anything, is zeroed and then receives the first block product; the
    output block is left as found. -/
noncomputable def kernelRun2_A (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : cond2_0 i) (hc1 : ¬cond2_1 i)
    (x0 : Vec F S1024x2048 .f32) (x1 : Vec F S8192x256 .bf16) (x2 : Vec F S256x64 .bf16) :
    { LS0 : List (View.Piece (Elt F) S1024x256 .f32) //
      ∀ (xi3 : Vec F S1024x64 .bf16) (E : Set ℕ) (K : PUnit → sProp (MM F)),
        iprop(owns (c : Thread nD τ) arg2 fullShare x0 ∗ owns (c : Thread nD τ) arg3 fullShare x1
            ∗ owns (c : Thread nD τ) arg4 fullShare x2 ∗ owns (c : Thread nD τ) arg5 fullShare xi3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case B (reduction steps 1 and 2): the accumulator, at what the point before left, receives one more block
    product; the output block is left as found. -/
noncomputable def kernelRun2_B (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : ¬cond2_1 i)
    (x0 : Vec F S1024x2048 .f32) (x1 : Vec F S8192x256 .bf16) (x2 : Vec F S256x64 .bf16) (xs0 : Vec F S1024x256 .f32) :
    { LS0 : List (View.Piece (Elt F) S1024x256 .f32) //
      ∀ (xi3 : Vec F S1024x64 .bf16) (E : Set ℕ) (K : PUnit → sProp (MM F)),
        iprop(owns (c : Thread nD τ) arg2 fullShare x0 ∗ owns (c : Thread nD τ) arg3 fullShare x1
            ∗ owns (c : Thread nD τ) arg4 fullShare x2 ∗ owns (c : Thread nD τ) arg5 fullShare xi3
            ∗ owns (c : Thread nD τ) arg6 fullShare xs0
            ∗ (iprop(owns (c : Thread nD τ) arg2 fullShare x0 ∗ owns (c : Thread nD τ) arg3 fullShare x1
                ∗ owns (c : Thread nD τ) arg4 fullShare x2 ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- Case C (the last reduction step): the accumulator receives the last block product, and the output block, at
    anything, is stored whole from the finished accumulator and the projection matrix. -/
noncomputable def kernelRun2_C (c : Dev nD) (i : grid2.Coords)
    (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : cond2_1 i)
    (x0 : Vec F S1024x2048 .f32) (x1 : Vec F S8192x256 .bf16) (x2 : Vec F S256x64 .bf16) (xs0 : Vec F S1024x256 .f32) :
    Σ' (L3 : List (View.Piece (Elt F) S1024x64 .bf16)), { LS0 : List (View.Piece (Elt F) S1024x256 .f32) //
      ∀ (E : Set ℕ) (K : PUnit → sProp (MM F)),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ owns (c : Thread nD τ) arg6 fullShare xs0
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R2.lean ====
import proofs.«173608_j68341519613982_2_alg».proof.Proof.KI.R2Run
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 2: the frame of the third call, at any entry contents

The region is entered with the TensorCore's buffers at `V`. Its three input windows (the left matrix's block, the
resident right matrix, the resident projection matrix) hold their blocks of `V`'s arrays at every point, fetched
there or not. Its scratch accumulator is carried from point to point: after point `n` it holds a value named by
recursion on `n` (`outsAt2`). The output window is stored at the last reduction step of each row block only. -/

variable (V : TcVal F)

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's index has not moved), for any proof data over `V`'s arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The operands at a point -/

abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x64 .bf16 := win2_3.stage (cfg2.slots t 3)
abbrev hs2_3 (t : Fin cfg2.N) : (ms2_3 t).IsWhole := hstage2_3 ((cfg2.slots t 3).cast nbuf2_3)
/-- The accumulator: a whole scoped buffer of the call's own. -/
abbrev scM2 : Memref sig .tc .vmem S1024x256 .f32 := Memref.whole cc2_scratch0
/-- The views through which the accumulator's and the output block's contents are stated (which staging buffer
    of the output is chosen does not matter: the stores cover the block). -/
abbrev VS2 : View sig .tc .vmem S1024x256 .f32 := scM2.view
abbrev VO2 : View sig .tc .vmem S1024x64 .bf16 := (Memref.whole cc2_stg3_0 : Memref sig .tc .vmem S1024x64 .bf16).view

/-! ## What each case leaves -/

/-- The run of case A at point `t`, on the point's operands and blocks. -/
abbrev runA2 (c : Dev nD) (t : Fin cfg2.N) (h0 : t.val % 4 = 0) :=
  kernelRun2_A (F := F) c (grid2.coords t) (ms2_0 t) (hs2_0 t) (ms2_1 t) (hs2_1 t) (ms2_2 t) (hs2_2 t) (ms2_3 t) (hs2_3 t) scM2 (Memref.isWhole_whole _) ((hcond2_0 t).mpr h0) (fun h => by have := (hcond2_1 t).mp h; omega) (iblk2 V c 0 t) (iblk2 V c 1 t) (iblk2 V c 2 t)
abbrev runB2 (c : Dev nD) (t : Fin cfg2.N) (h0 : ¬ t.val % 4 = 0) (h1 : ¬ t.val % 4 = 3) (xs : Vec F S1024x256 .f32) :=
  kernelRun2_B (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) xs
abbrev runC2 (c : Dev nD) (t : Fin cfg2.N) (h0 : ¬ t.val % 4 = 0) (h1 : t.val % 4 = 3) (xs : Vec F S1024x256 .f32) :=
  kernelRun2_C (F := F) c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) xs

/-- Each case's stores into the accumulator cover it (whole-buffer stores), -/
theorem scover2_A (c : Dev nD) (t : Fin cfg2.N) (h0 : t.val % 4 = 0) (y : S1024x256.Idx) :
    ∃ pc ∈ (runA2 V c t h0).1, y ∈ pc.1.set :=
  View.cover_of_tiledL (runA2 V c t h0).1 S1024x256.size (by sl_kernel_rfl) y
theorem scover2_B (c : Dev nD) (t : Fin cfg2.N) (h0 : ¬ t.val % 4 = 0) (h1 : ¬ t.val % 4 = 3) (xs : Vec F S1024x256 .f32) (y : S1024x256.Idx) :
    ∃ pc ∈ (runB2 V c t h0 h1 xs).1, y ∈ pc.1.set :=
  View.cover_of_tiledL (runB2 V c t h0 h1 xs).1 S1024x256.size (by sl_kernel_rfl) y
theorem scover2_C (c : Dev nD) (t : Fin cfg2.N) (h0 : ¬ t.val % 4 = 0) (h1 : t.val % 4 = 3) (xs : Vec F S1024x256 .f32) (y : S1024x256.Idx) :
    ∃ pc ∈ (runC2 V c t h0 h1 xs).2.1, y ∈ pc.1.set :=
  View.cover_of_tiledL (runC2 V c t h0 h1 xs).2.1 S1024x256.size (by sl_kernel_rfl) y
/-- and the last case's store into the output block covers it. -/
theorem cover2_C (c : Dev nD) (t : Fin cfg2.N) (h0 : ¬ t.val % 4 = 0) (h1 : t.val % 4 = 3) (xs : Vec F S1024x256 .f32) (y : S1024x64.Idx) :
    ∃ pc ∈ (runC2 V c t h0 h1 xs).1, y ∈ pc.1.set :=
  View.cover_of_tiledL (runC2 V c t h0 h1 xs).1 S1024x64.size (by sl_kernel_rfl) y

/-- What a case leaves in the accumulator: its pieces read back. -/
def accA2 (c : Dev nD) (t : Fin cfg2.N) (h0 : t.val % 4 = 0) : Vec F S1024x256 .f32 :=
  VS2.read (Elt F) (VS2.writes (Elt F) VS2.junk (runA2 V c t h0).1)
def accB2 (c : Dev nD) (t : Fin cfg2.N) (h0 : ¬ t.val % 4 = 0) (h1 : ¬ t.val % 4 = 3) (xs : Vec F S1024x256 .f32) : Vec F S1024x256 .f32 :=
  VS2.read (Elt F) (VS2.writes (Elt F) VS2.junk (runB2 V c t h0 h1 xs).1)
def accC2 (c : Dev nD) (t : Fin cfg2.N) (h0 : ¬ t.val % 4 = 0) (h1 : t.val % 4 = 3) (xs : Vec F S1024x256 .f32) : Vec F S1024x256 .f32 :=
  VS2.read (Elt F) (VS2.writes (Elt F) VS2.junk (runC2 V c t h0 h1 xs).2.1)
/-- What the last case leaves in the output block. -/
def outC2 (c : Dev nD) (t : Fin cfg2.N) (h0 : ¬ t.val % 4 = 0) (h1 : t.val % 4 = 3) (xs : Vec F S1024x256 .f32) : Vec F S1024x64 .bf16 :=
  VO2.read (Elt F) (VO2.writes (Elt F) VO2.junk (runC2 V c t h0 h1 xs).1)
/-- Where the output block is not stored nothing consults what is recorded for it. -/
def idleOut2 : Vec F S1024x64 .bf16 := VO2.read (Elt F) (VO2.junk (Val := Elt F))

/-! ## The accumulation, point by point -/

/-- One point: what the output block and the accumulator hold after the body at `t`, the accumulator having held
    `prev` before it (unread at reduction step 0, where it is zeroed first). -/
def step2 (c : Dev nD) (t : Fin cfg2.N) (prev : Vec F S1024x256 .f32) : Vec F S1024x64 .bf16 × Vec F S1024x256 .f32 :=
  if h0 : t.val % 4 = 0 then (idleOut2, accA2 V c t h0)
  else if h1 : t.val % 4 = 3 then (outC2 V c t h0 h1 prev, accC2 V c t h0 h1 prev)
  else (idleOut2, accB2 V c t h0 h1 prev)

/-- After the body at position `n`: the recursion through the points. -/
def outsAt2 (c : Dev nD) : (n : ℕ) → n < cfg2.N → Vec F S1024x64 .bf16 × Vec F S1024x256 .f32
  | 0, hn => step2 V c ⟨0, hn⟩ (VS2.read (Elt F) (VS2.junk (Val := Elt F)))
  | n + 1, hn => step2 V c ⟨n + 1, hn⟩ (outsAt2 c n (Nat.lt_of_succ_lt hn)).2

theorem outsAt2_A (c : Dev nD) (t : Fin cfg2.N) (h0 : t.val % 4 = 0) :
    outsAt2 V c t.val t.isLt = (idleOut2, accA2 V c t h0) := by
  obtain ⟨n, hn⟩ := t
  cases n with
  | zero =>
    have e : outsAt2 V c 0 hn = step2 V c ⟨0, hn⟩ (VS2.read (Elt F) (VS2.junk (Val := Elt F))) := rfl
    exact e.trans ((dif_pos h0).trans rfl)
  | succ n => exact (dif_pos h0).trans rfl

theorem outsAt2_B (c : Dev nD) (t : Fin cfg2.N) (h0 : ¬ t.val % 4 = 0) (h1 : ¬ t.val % 4 = 3) :
    outsAt2 V c t.val t.isLt
      = (idleOut2, accB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬ t.val % 4 = 0) (h1 : t.val % 4 = 3) :
    outsAt2 V c t.val t.isLt
      = (outC2 V c t h0 h1 (outsAt2 V c (t.val - 1) (Nat.lt_of_le_of_lt (Nat.sub_le _ _) t.isLt)).2,
         accC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the first point the region's whole scoped rest; afterwards the accumulator held whole
    at what the point before left in it, beside the rest of the scoped buffers, unopened. -/
def PhiS2 (c : Dev nD) : (n : ℕ) → n ≤ cfg2.N → sProp (MM F)
  | 0, _ => Pipeline.scopedRest (Ix := Unit) (Name := ℕ) (U := UR sig nD τ) (Lvl := ℕ) (Val := Elt F) spec2 c
  | n + 1, hn => iprop(owns (c : Thread nD τ) scM2 fullShare ((outsAt2 V c n hn).2)
      ∗ Pipeline.scopedRestBut (Ix := Unit) (Name := ℕ) (U := UR sig nD τ) (Lvl := ℕ) (Val := Elt F) spec2 c [cc2_scratch0])

theorem PhiS2_zero (c : Dev nD) (n : ℕ) (h : n ≤ cfg2.N) (hz : n = 0) :
    PhiS2 V c n h = Pipeline.scopedRest (Ix := Unit) (Name := ℕ) (U := UR sig nD τ) (Lvl := ℕ) (Val := Elt F) spec2 c := by
  subst hz; rfl

theorem PhiS2_succ (c : Dev nD) (n : ℕ) (hn : n < cfg2.N) :
    PhiS2 V c (n + 1) hn = iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) := rfl

theorem PhiS2_pos (c : Dev nD) (n : ℕ) (h : n ≤ cfg2.N) (hz : n ≠ 0) :
    PhiS2 V c n h = iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) := by
  cases n with
  | zero => exact absurd rfl hz
  | succ n => rfl

/-- The scoped rest with the accumulator split out, owned whole at some contents. -/
theorem scopedRest2_scM (c : Dev nD) :
    (Pipeline.scopedRest (Ix := Unit) (Name := ℕ) (U := UR sig nD τ) (Lvl := ℕ) (Val := Elt F) spec2 c : sProp (MM F))
      = iprop((∃ d, owns (c : Thread nD τ) scM2 fullShare d)
          ∗ Pipeline.scopedRestBut (Ix := Unit) (Name := ℕ) (U := UR sig nD τ) (Lvl := ℕ) (Val := Elt F) spec2 c [cc2_scratch0]) := by
  rw [scopedRest2_split]; simp only [scM2, owns_whole]; try rfl

/-! ## The proof data -/

/-- The region's proof data on core `c`: the arrays as the region finds them; after the body each input's buffer at
    its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp (MM F) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp (MM F) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]

set_option maxHeartbeats 4800000 in
/-- The body at any point. The inputs' buffers hold their blocks; the point's reduction coordinate selects the case;
    the invariant hands the body the accumulator (at anything at the first point, at what the point before left
    afterwards) and takes it back at this point's contents, the stores covering it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 32 := lt_of_lt_of_eq t.isLt (show cfg2.N = 32 from N_2)
  by_cases h0 : t.val % 4 = 0
  · have h1 : ¬ t.val % 4 = 3 := by omega
    rw [Dat.leavesExact_idle (dat2 V c) 3 t (idleAt2_3 t h1) (noFlush2_3 t h1)]
    rw [outsAt2_A V c t h0]
    unfold accA2; (try dsimp only)
    by_cases hz : t.val = 0
    · rw [PhiS2_castSucc V c t, PhiS2_zero V c _ _ hz, scopedRest2_scM]
      iintro ⟨⟨HS0, Hr⟩, Ho, ⟨%d0, H0⟩, ⟨%d1, H1⟩, ⟨%d2, H2⟩, ⟨%d3, H3⟩⟩
      iapply ((runA2 V c t h0).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t h0)
        iexact Hr
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runA2 V c t h0).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_A V c t h0)
        iexact Hr
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 = 3
    · rw [show (dat2 V c).leavesExact 3 t = owns (c : Thread nD τ) (ms2_3 t) fullShare ((dat2 V c).after 3 t) from by
        unfold Dat.leavesExact; rw [liveAt2_3 t h1], after2_3]
      rw [outsAt2_C V c t h0 h1]
      unfold outC2 accC2; (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runC2 V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr]
      · isplitl [HS0]
        · unfold owns; iexists _; isplitr
          swap; · iexact HS0
          ipureintro; exact View.read_writes_of_cover _ _ _ _ _ (scover2_C V c t h0 h1 _)
        iexact Hr
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C V c t h0 h1 _)
    · rw [Dat.leavesExact_idle (dat2 V c) 3 t (idleAt2_3 t h1) (noFlush2_3 t h1)]
      rw [outsAt2_B V c t h0 h1]
      unfold accB2; (try dsimp only)
      rw [PhiS2_castSucc V c t, PhiS2_pos V c _ _ hz]
      iintro ⟨⟨HS0, Hr⟩, Ho, ⟨%d0, H0⟩, ⟨%d1, H1⟩, ⟨%d2, H2⟩, ⟨%d3, H3⟩⟩
      iapply ((runB2 V c t h0 h1 _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr]
      · isplitl [HS0]
        · unfold owns; iexists _; isplitr
          swap; · iexact HS0
          ipureintro; exact View.read_writes_of_cover _ _ _ _ _ (scover2_B V c t h0 h1 _)
        iexact Hr
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The region's scoped rest is the invariant before the first point. -/
theorem hin2 (c : Dev nD) :
    (Pipeline.scopedRest (Ix := Unit) (Name := ℕ) (U := UR sig nD τ) (Lvl := ℕ) (Val := Elt F) spec2 c : sProp (MM F))
      ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's named contents are forgotten. -/
theorem hout2 (c : Dev nD) :
    (dat2 V c).Φ (Fin.last cfg2.N)
      ⊢ (Pipeline.scopedRest (Ix := Unit) (Name := ℕ) (U := UR sig nD τ) (Lvl := ℕ) (Val := Elt F) spec2 c : sProp (MM F)) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), scopedRest2_scM]
  iintro ⟨HS0, Hr⟩
  isplitl [HS0]
  · iexists _; iexact HS0
  iexact Hr

end Cert.KernelIdeal.Hand

end
-- ==== Proof.KI.R3Run.lean ====
/-
  Region 3 of the program: the K-blocked product of a 1024-row block of the square matrix with the resident
  8192 x 64 operand, accumulated over four steps of 2048 columns into a 1024 x 64 single-precision scratch, and at
  the last step scaled row by row by a 1024 x 1 column and rounded into the output block.

  The kernel body has two conditionals on the step k = t mod 4: the scratch is zeroed when k = 0, and the output
  block is stored when k = 3. So a point of the grid is in one of three cases, A (k = 0), B (k = 1, 2), C (k = 3);
  no point meets both conditions. This module states the two conditions in closed form, where the output window is
  idle, and the body's triple in each case as a subtype whose witness (the pieces each buffer ends with) the symbolic
  executor finds.
-/
import proofs.«173608_j68341519613982_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two conditions, in closed form -/

/-- The first conditional's condition (the step is 0), as the body computes it from the coordinates. -/
abbrev cond3_0 (i : grid3.Coords) : Prop := (Scalar.cmpi .ne (Scalar.extui (Scalar.cmpi .eq (BitVec.ofNat 32 (i 1).val) 0#32)) 0#32) = 1#1
/-- It holds exactly at the points whose step is 0. -/
theorem hcond3_0 : ∀ t : Fin cfg3.N, cond3_0 (grid3.coords t) ↔ t.val % 4 = 0 :=
  (by decide +kernel : ∀ t : Fin grid3.N, cond3_0 (grid3.coords t) ↔ t.val % 4 = 0)

/-- The second conditional's condition (the step is the last, 3). -/
abbrev cond3_1 (i : grid3.Coords) : Prop := k3_cond2 i = 1#1
/-- It holds exactly at the points whose step is 3. -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

/-- The three operands are read at every point. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a point of case A the output block is not stored into, nor written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- Nor at a point of case B. -/
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At a point of case C it is stored. -/
theorem liveAt3_3_C : ∀ t : Fin cfg3.N, ¬cond3_0 (grid3.coords t) → cond3_1 (grid3.coords t) → cfg3.idle 3 (grid3.coords t) = false := by decide +kernel

/-! ## The memrefs the body is called on -/

/-- One staging buffer of the output window, through which its contents are stated (the choice does not matter: what
    covering stores leave reads the same through any view of the shape). -/
abbrev VO3_3 : View sig .tc .vmem S1024x64 .bf16 := (Memref.whole cc3_stg3_0 : Memref sig .tc .vmem S1024x64 .bf16).view
/-- Each window's current staging memref at point `t`, and that it is a whole buffer. -/
abbrev ms3_0 (t : Fin cfg3.N) : Memref sig .tc .vmem S1024x2048 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x64 .bf16 := win3_3.stage (cfg3.slots t 3)
abbrev hs3_3 (t : Fin cfg3.N) : (ms3_3 t).IsWhole := hstage3_3 ((cfg3.slots t 3).cast nbuf3_3)
/-- The accumulator: a whole scoped buffer of the kernel's own, carried from one point to the next. -/
abbrev scM3_0 : Memref sig .tc .vmem S1024x64 .f32 := Memref.whole cc3_scratch0
abbrev VS3_0 : View sig .tc .vmem S1024x64 .f32 := scM3_0.view

/-! ## The body in each case -/

set_option maxHeartbeats 1000000 in
/-- CASE A (step 0). From the three operand blocks `x0`, `x1`, `x2` in their staging memrefs, the output's memref at
    contents `xi3` it does not touch, and the accumulator at anything, the body runs to its return with the operands
    and the output's memref as they were and the accumulator with the pieces `LS0` written: the zero fill, then the
    first partial product added to it. The output gets no piece. -/
noncomputable def run3_A (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : cond3_0 i) (hc1 : ¬cond3_1 i)
    (x0 : Vec F S1024x2048 .f32) (x1 : Vec F S8192x64 .bf16) (x2 : Vec F S1024x1 .f32) :
    Σ' (L3 : List (View.Piece (Elt F) S1024x64 .bf16)), { LS0 : List (View.Piece (Elt F) S1024x64 .f32) //
      ∀ (xi3 : Vec F S1024x64 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE B (steps 1 and 2). The same with the accumulator arriving at the contents `xs0` the point before left: one
    piece, this step's partial product added to `xs0`. -/
noncomputable def run3_B (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : ¬cond3_0 i) (hc1 : ¬cond3_1 i)
    (x0 : Vec F S1024x2048 .f32) (x1 : Vec F S8192x64 .bf16) (x2 : Vec F S1024x1 .f32) (xs0 : Vec F S1024x64 .f32) :
    Σ' (L3 : List (View.Piece (Elt F) S1024x64 .bf16)), { LS0 : List (View.Piece (Elt F) S1024x64 .f32) //
      ∀ (xi3 : Vec F S1024x64 .bf16) (E : Set ℕ) (K : PUnit → sProp (MM F)),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- CASE C (step 3). The accumulator arrives at `xs0`, the output's memref at anything; the accumulator gets the last
    partial product added, and the output one piece: the accumulator scaled row by row by the column `x2` and
    rounded. -/
noncomputable def run3_C (c : Dev nD) (i : grid3.Coords)
    (arg2 : Memref sig .tc .vmem S1024x2048 .f32) (harg2 : arg2.IsWhole)
    (arg3 : Memref sig .tc .vmem S8192x64 .bf16) (harg3 : arg3.IsWhole)
    (arg4 : Memref sig .tc .vmem S1024x1 .f32) (harg4 : arg4.IsWhole)
    (arg5 : Memref sig .tc .vmem S1024x64 .bf16) (harg5 : arg5.IsWhole)
    (arg6 : Memref sig .tc .vmem S1024x64 .f32) (harg6 : arg6.IsWhole)
    (hc0 : ¬cond3_0 i) (hc1 : cond3_1 i)
    (x0 : Vec F S1024x2048 .f32) (x1 : Vec F S8192x64 .bf16) (x2 : Vec F S1024x1 .f32) (xs0 : Vec F S1024x64 .f32) :
    Σ' (L3 : List (View.Piece (Elt F) S1024x64 .bf16)), { LS0 : List (View.Piece (Elt F) S1024x64 .f32) //
      ∀ (E : Set ℕ) (K : PUnit → sProp (MM F)),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R3.lean ====
/-
  Region 3, the frame: what the accumulator and the output block hold point by point, the region's proof data over an
  arbitrary entry valuation `V`, and the body obligation.

  The invariant carries the accumulator. Before the first point it is the region's whole scoped rest (the accumulator
  among the scoped buffers, at anything); after point n the accumulator is held whole at the contents the recursion
  `outsAt3` names for n, beside the scoped buffers other than it. The three operands' staging buffers hold their
  blocks at every point, fetched there or not (an operand not fetched at a point has the block index it had at the
  point before); the output block is idle except at the last step of each row block, where it is stored and written
  back.
-/
import proofs.«173608_j68341519613982_2_alg».proof.Proof.KI.R3Run
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What each case leaves -/

/-- Case A stores nothing into the output block: a placeholder that nothing consults, since at these points the block
    is neither written back nor read by the next point. -/
def out3_A_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) : Vec F S1024x64 .bf16 :=
  VO3_3.read (Elt F) (VO3_3.writes (Elt F) VO3_3.junk (run3_A c i arg2 harg2 arg3 harg3 arg4 harg4 arg5 harg5 arg6 harg6 hc0 hc1 x0 x1 x2).1)

/-- Case A's stores into the accumulator cover it (each is a store of the whole 1024 x 64 block). -/
theorem scover3_A_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) (y : S1024x64.Idx) :
    ∃ pc ∈ (run3_A c i arg2 harg2 arg3 harg3 arg4 harg4 arg5 harg5 arg6 harg6 hc0 hc1 x0 x1 x2).2.1, y ∈ pc.1.set :=
  View.cover_of_tiledL (run3_A c i arg2 harg2 arg3 harg3 arg4 harg4 arg5 harg5 arg6 harg6 hc0 hc1 x0 x1 x2).2.1 S1024x64.size (by sl_kernel_rfl) y

/-- What case A leaves in the accumulator: its pieces read back. -/
def sout3_A_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) : Vec F S1024x64 .f32 :=
  VS3_0.read (Elt F) (VS3_0.writes (Elt F) VS3_0.junk (run3_A c i arg2 harg2 arg3 harg3 arg4 harg4 arg5 harg5 arg6 harg6 hc0 hc1 x0 x1 x2).2.1)

/-- Case B stores nothing into the output block: a placeholder that nothing consults, since at these points the block
    is neither written back nor read by the next point. -/
def out3_B_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) : Vec F S1024x64 .bf16 :=
  VO3_3.read (Elt F) (VO3_3.writes (Elt F) VO3_3.junk (run3_B c i arg2 harg2 arg3 harg3 arg4 harg4 arg5 harg5 arg6 harg6 hc0 hc1 x0 x1 x2 xs0).1)

/-- Case B's stores into the accumulator cover it (each is a store of the whole 1024 x 64 block). -/
theorem scover3_B_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) (y : S1024x64.Idx) :
    ∃ pc ∈ (run3_B c i arg2 harg2 arg3 harg3 arg4 harg4 arg5 harg5 arg6 harg6 hc0 hc1 x0 x1 x2 xs0).2.1, y ∈ pc.1.set :=
  View.cover_of_tiledL (run3_B c i arg2 harg2 arg3 harg3 arg4 harg4 arg5 harg5 arg6 harg6 hc0 hc1 x0 x1 x2 xs0).2.1 S1024x64.size (by sl_kernel_rfl) y

/-- What case B leaves in the accumulator: its pieces read back. -/
def sout3_B_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) : Vec F S1024x64 .f32 :=
  VS3_0.read (Elt F) (VS3_0.writes (Elt F) VS3_0.junk (run3_B c i arg2 harg2 arg3 harg3 arg4 harg4 arg5 harg5 arg6 harg6 hc0 hc1 x0 x1 x2 xs0).2.1)

/-- Case C's one store into the output block covers it. -/
theorem cover3_C_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) (y : S1024x64.Idx) :
    ∃ pc ∈ (run3_C c i arg2 harg2 arg3 harg3 arg4 harg4 arg5 harg5 arg6 harg6 hc0 hc1 x0 x1 x2 xs0).1, y ∈ pc.1.set :=
  View.cover_of_tiledL (run3_C c i arg2 harg2 arg3 harg3 arg4 harg4 arg5 harg5 arg6 harg6 hc0 hc1 x0 x1 x2 xs0).1 S1024x64.size (by sl_kernel_rfl) y

/-- What case C leaves in the output block: its piece read back. -/
def out3_C_3 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) : Vec F S1024x64 .bf16 :=
  VO3_3.read (Elt F) (VO3_3.writes (Elt F) VO3_3.junk (run3_C c i arg2 harg2 arg3 harg3 arg4 harg4 arg5 harg5 arg6 harg6 hc0 hc1 x0 x1 x2 xs0).1)

/-- Case C's stores into the accumulator cover it (each is a store of the whole 1024 x 64 block). -/
theorem scover3_C_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) (y : S1024x64.Idx) :
    ∃ pc ∈ (run3_C c i arg2 harg2 arg3 harg3 arg4 harg4 arg5 harg5 arg6 harg6 hc0 hc1 x0 x1 x2 xs0).2.1, y ∈ pc.1.set :=
  View.cover_of_tiledL (run3_C c i arg2 harg2 arg3 harg3 arg4 harg4 arg5 harg5 arg6 harg6 hc0 hc1 x0 x1 x2 xs0).2.1 S1024x64.size (by sl_kernel_rfl) y

/-- What case C leaves in the accumulator: its pieces read back. -/
def sout3_C_0 (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) : Vec F S1024x64 .f32 :=
  VS3_0.read (Elt F) (VS3_0.writes (Elt F) VS3_0.junk (run3_C c i arg2 harg2 arg3 harg3 arg4 harg4 arg5 harg5 arg6 harg6 hc0 hc1 x0 x1 x2 xs0).2.1)

/-! ## The operands' blocks -/

variable (V : TcVal F)

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's current staging buffer holds its block at every point, fetched there or not, for any proof data whose
    array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the output block and the accumulator hold after each point -/

/-- THE ACCUMULATION. What the output's staging buffer and the accumulator hold after the body at position `n`: the case
    the closed forms select at `n`, run at the point's memrefs and operand blocks, the accumulator arriving (cases B and
    C) at what this leaves at `n - 1`. No point meets both conditions. -/
def outsAt3 (c : Dev nD) : (n : ℕ) → n < cfg3.N → Vec F S1024x64 .bf16 × Vec F S1024x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: over what the point before left. -/
theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: over what the point before left. -/
theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's scoped rest with the accumulator taken out of it, as a memref owned at some contents. -/
theorem PhiR3_eq (c : Dev nD) :
    (Pipeline.scopedRest (Ix := Unit) (Name := ℕ) (U := UR sig nD τ) (Lvl := ℕ) (Val := Elt F) spec3 c : sProp (MM F))
      = iprop(iprop((∃ d, owns (c : Thread nD τ) scM3_0 fullShare d)) ∗ Pipeline.scopedRestBut (Ix := Unit) (Name := ℕ) (U := UR sig nD τ) (Lvl := ℕ) (Val := Elt F) spec3 c [cc3_scratch0]) := by
  rw [scopedRest3_split]; simp only [scM3_0, owns_whole]; try rfl

/-- The invariant before position `n`: before the first point the whole scoped rest; afterwards the accumulator at
    what the point before left in it, beside the other scoped buffers. -/
def PhiS3 (c : Dev nD) : (n : ℕ) → n ≤ cfg3.N → sProp (MM F)
  | 0, _ => Pipeline.scopedRest (Ix := Unit) (Name := ℕ) (U := UR sig nD τ) (Lvl := ℕ) (Val := Elt F) spec3 c
  | n + 1, hn => iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0])

theorem PhiS3_zero (c : Dev nD) (n : ℕ) (h : n ≤ cfg3.N) (hz : n = 0) : PhiS3 V c n h = Pipeline.scopedRest (Ix := Unit) (Name := ℕ) (U := UR sig nD τ) (Lvl := ℕ) (Val := Elt F) spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) := by
  cases n with
  | zero => exact absurd rfl hz
  | succ n => rfl

/-! ## The proof data -/

/-- The proof data of region 3 on core `c`, entered from `V`: the arrays at `V`; after the body at point `t` each
    operand's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp (MM F) :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp (MM F) :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The operands' memrefs hold their blocks; the closed forms say which case the point is in; the
    invariant hands the body the accumulator at what the point before left (at anything at the first point, and at a
    point of case A, which overwrites it whole before reading it) and takes it back at this point's contents, the stores
    covering it; the output's memref is handed back untouched in cases A and B, and at its covering piece in case C;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiR3_eq]
        iintro ⟨⟨HS0, HR⟩, Ho, ⟨%d0, H0⟩, ⟨%d1, H1⟩, ⟨%d2, H2⟩, ⟨%d3, H3⟩⟩
        iapply ((run3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨HS0, HR⟩, Ho, ⟨%d0, H0⟩, ⟨%d1, H1⟩, ⟨%d2, H2⟩, ⟨%d3, H3⟩⟩
        iapply ((run3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          iexact HR
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      · iintro ⟨⟨HS0, HR⟩, Ho, ⟨%d0, H0⟩, ⟨%d1, H1⟩, ⟨%d2, H2⟩, ⟨%d3, H3⟩⟩
        iapply ((run3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR]
        · isplitl [HS0]
          · unfold owns; iexists _; isplitr
            swap; · iexact HS0
            ipureintro; exact View.read_writes_of_cover _ _ _ _ _ (scover3_C_0 c _ _ _ _ _ _ _ _ _ _ _ _ _ _ _ _ _)
          iexact HR
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      · iintro ⟨⟨HS0, HR⟩, Ho, ⟨%d0, H0⟩, ⟨%d1, H1⟩, ⟨%d2, H2⟩, ⟨%d3, H3⟩⟩
        iapply ((run3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          iexact HR
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The region's ends -/

/-- What the launch hands the region, its scoped rest, is the invariant before the first point. -/
theorem hin3 (c : Dev nD) : (Pipeline.scopedRest (Ix := Unit) (Name := ℕ) (U := UR sig nD τ) (Lvl := ℕ) (Val := Elt F) spec3 c : sProp (MM F)) ⊢ (dat3 V c).Φ 0 := by
  rw [show (dat3 V c).Φ 0 = PhiS3 V c 0 (Nat.zero_le _) from rfl, PhiS3_zero V c 0 _ rfl]

/-- After any point but the first the invariant gives the scoped rest back: the accumulator's named contents are
    forgotten. -/
theorem Phi_out3 (c : Dev nD) (t : Fin (cfg3.N + 1)) (ht : t.val ≠ 0) :
    (dat3 V c).Φ t ⊢ (Pipeline.scopedRest (Ix := Unit) (Name := ℕ) (U := UR sig nD τ) (Lvl := ℕ) (Val := Elt F) spec3 c : sProp (MM F)) := by
  rw [show (dat3 V c).Φ t = PhiS3 V c t.val (Nat.le_of_lt_succ t.isLt) from rfl, PhiS3_pos V c _ _ ht, PhiR3_eq]
  iintro ⟨HS0, HR⟩
  isplitl [HS0]
  · iexists _; iexact HS0
  iexact HR

/-- The same after the last point. -/
theorem hout3 (c : Dev nD) : (dat3 V c).Φ (Fin.last cfg3.N) ⊢ (Pipeline.scopedRest (Ix := Unit) (Name := ℕ) (U := UR sig nD τ) (Lvl := ℕ) (Val := Elt F) spec3 c : sProp (MM F)) :=
  Phi_out3 V c _ (by rw [Fin.val_last]; have : cfg3.N = 32 := N_3; omega)

end Cert.KernelIdeal.Hand

end
-- ==== Proof.KI.R4Run.lean ====
import proofs.«173608_j68341519613982_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 4: the body's run, case by case

The body of the last call accumulates one block product per grid point into a scratch accumulator, exactly as the
third call's does: at reduction step 0 it first zeroes the accumulator, at every step it adds the product of the
current block of the left matrix with the matching rows of the resident right matrix, and at the last step (3) it
stores the row-wise log-softmax of the finished accumulator as the row block of the result. Three control cases,
decided by the point's reduction coordinate: A (step 0), B (steps 1 and 2), C (step 3). -/

/-- The first branch of the body (zero the accumulator) is taken exactly when the reduction coordinate is 0:
    the branch condition as the skeleton computes it from the grid coordinates. -/
abbrev cond4_0 (i : grid4.Coords) : Prop :=
  (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)

/-- The last branch (finish the row block and store it) is taken exactly at the last reduction step. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the output window is idle -/

theorem liveAt4_0 : ∀ t : Fin cfg4.N, cfg4.idle 0 (grid4.coords t) = false := fun _ => rfl
theorem liveAt4_1 : ∀ t : Fin cfg4.N, cfg4.idle 1 (grid4.coords t) = false := fun _ => rfl
/-- Before the last reduction step nothing is stored into the output block, -/
theorem idleAt4_2 : ∀ t : Fin cfg4.N, ¬ t.val % 4 = 3 → cfg4.idle 2 (grid4.coords t) = true :=
  (by decide +kernel : ∀ t : Fin grid4.N, ¬ t.val % 4 = 3 → cfg4.idle 2 (grid4.coords t) = true)
/-- and it is not written back; -/
theorem noFlush4_2 (t : Fin cfg4.N) (h : ¬ t.val % 4 = 3) : (cfg4.win 2).flush t = false := by
  rw [← Bool.not_eq_true]; exact fun hf => h ((flush4_2 t).mp hf)
/-- at the last step it is stored. -/
theorem liveAt4_2 : ∀ t : Fin cfg4.N, t.val % 4 = 3 → cfg4.idle 2 (grid4.coords t) = false :=
  (by decide +kernel : ∀ t : Fin grid4.N, t.val % 4 = 3 → cfg4.idle 2 (grid4.coords t) = false)

/-! ## The runs

Each run is a pair: the list of pieces the body's stores leave in a buffer (last store first), found by running the
body symbolically, and the proof that from whole operands at the stated contents the body runs to a state holding
the inputs as they were and the stored buffers with those pieces written. -/

set_option maxHeartbeats 4000000 in
/-- Case A (reduction step 0): the accumulator, at anything, is zeroed and then receives the first block product; the
    output block is left as found. -/
noncomputable def kernelRun4_A (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : cond4_0 i) (hc1 : ¬cond4_1 i)
    (x0 : Vec F S1024x2048 .f32) (x1 : Vec F S8192x64 .bf16) :
    { LS0 : List (View.Piece (Elt F) S1024x64 .f32) //
      ∀ (xi2 : Vec F S1024x64 .f32) (E : Set ℕ) (K : PUnit → sProp (MM F)),
        iprop(owns (c : Thread nD τ) arg2 fullShare x0 ∗ owns (c : Thread nD τ) arg3 fullShare x1
            ∗ owns (c : Thread nD τ) arg4 fullShare xi2
            ∗ (∃ d, owns (c : Thread nD τ) arg5 fullShare d)
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case B (reduction steps 1 and 2): the accumulator, at what the point before left, receives one more block
    product; the output block is left as found. -/
noncomputable def kernelRun4_B (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : ¬cond4_0 i) (hc1 : ¬cond4_1 i)
    (x0 : Vec F S1024x2048 .f32) (x1 : Vec F S8192x64 .bf16) (xs0 : Vec F S1024x64 .f32) :
    { LS0 : List (View.Piece (Elt F) S1024x64 .f32) //
      ∀ (xi2 : Vec F S1024x64 .f32) (E : Set ℕ) (K : PUnit → sProp (MM F)),
        iprop(owns (c : Thread nD τ) arg2 fullShare x0 ∗ owns (c : Thread nD τ) arg3 fullShare x1
            ∗ owns (c : Thread nD τ) arg4 fullShare xi2
            ∗ owns (c : Thread nD τ) arg5 fullShare xs0
            ∗ (iprop(owns (c : Thread nD τ) arg2 fullShare x0 ∗ owns (c : Thread nD τ) arg3 fullShare x1
                ∗ owns (c : Thread nD τ) arg4 fullShare xi2
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- Case C (the last reduction step): the accumulator receives the last block product, and the output block, at
    anything, is stored whole from the finished accumulator. -/
noncomputable def kernelRun4_C (c : Dev nD) (i : grid4.Coords)
    (arg2 : Memref sig .tc .vmem S1024x2048 .f32) (harg2 : arg2.IsWhole)
    (arg3 : Memref sig .tc .vmem S8192x64 .bf16) (harg3 : arg3.IsWhole)
    (arg4 : Memref sig .tc .vmem S1024x64 .f32) (harg4 : arg4.IsWhole)
    (arg5 : Memref sig .tc .vmem S1024x64 .f32) (harg5 : arg5.IsWhole)
    (hc0 : ¬cond4_0 i) (hc1 : cond4_1 i)
    (x0 : Vec F S1024x2048 .f32) (x1 : Vec F S8192x64 .bf16) (xs0 : Vec F S1024x64 .f32) :
    Σ' (L2 : List (View.Piece (Elt F) S1024x64 .f32)), { LS0 : List (View.Piece (Elt F) S1024x64 .f32) //
      ∀ (E : Set ℕ) (K : PUnit → sProp (MM F)),
        iprop(owns (c : Thread nD τ) arg2 fullShare x0 ∗ owns (c : Thread nD τ) arg3 fullShare x1
            ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1
    obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R4.lean ====
import proofs.«173608_j68341519613982_2_alg».proof.Proof.KI.R4Run
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Region 4: the frame of the last call, at any entry contents

The region is entered with the TensorCore's buffers at `V`. Its two input windows (the left matrix's block, the
resident right matrix) hold their blocks of `V`'s arrays at every point, fetched there or not. Its scratch
accumulator is carried from point to point: after point `n` it holds a value named by recursion on `n`
(`outsAt4`). The output window is stored at the last reduction step of each row block only. -/

variable (V : TcVal F)

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not (an unfetched
    window's index has not moved), for any proof data over `V`'s arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The operands at a point -/

abbrev ms4_0 (t : Fin cfg4.N) : Memref sig .tc .vmem S1024x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x64 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x64 .f32 := win4_2.stage (cfg4.slots t 2)
abbrev hs4_2 (t : Fin cfg4.N) : (ms4_2 t).IsWhole := hstage4_2 ((cfg4.slots t 2).cast nbuf4_2)
/-- The accumulator: a whole scoped buffer of the call's own. -/
abbrev scM4 : Memref sig .tc .vmem S1024x64 .f32 := Memref.whole cc4_scratch0
/-- The views through which the accumulator's and the output block's contents are stated (which staging buffer
    of the output is chosen does not matter: the stores cover the block). -/
abbrev VS4 : View sig .tc .vmem S1024x64 .f32 := scM4.view
abbrev VO4 : View sig .tc .vmem S1024x64 .f32 := (Memref.whole cc4_stg2_0 : Memref sig .tc .vmem S1024x64 .f32).view

/-! ## What each case leaves -/

/-- The run of each case at point `t`, on the point's operands and blocks. -/
abbrev runA4 (c : Dev nD) (t : Fin cfg4.N) (h0 : t.val % 4 = 0) :=
  kernelRun4_A (F := F) c (grid4.coords t) (ms4_0 t) (hs4_0 t) (ms4_1 t) (hs4_1 t) (ms4_2 t) (hs4_2 t) scM4 (Memref.isWhole_whole _) ((hcond4_0 t).mpr h0) (fun h => by have := (hcond4_1 t).mp h; omega) (iblk4 V c 0 t) (iblk4 V c 1 t)
abbrev runB4 (c : Dev nD) (t : Fin cfg4.N) (h0 : ¬ t.val % 4 = 0) (h1 : ¬ t.val % 4 = 3) (xs : Vec F S1024x64 .f32) :=
  kernelRun4_B (F := F) c (grid4.coords t) (ms4_0 t) (hs4_0 t) (ms4_1 t) (hs4_1 t) (ms4_2 t) (hs4_2 t) scM4 (Memref.isWhole_whole _) (fun h => h0 ((hcond4_0 t).mp h)) (fun h => h1 ((hcond4_1 t).mp h)) (iblk4 V c 0 t) (iblk4 V c 1 t) xs
abbrev runC4 (c : Dev nD) (t : Fin cfg4.N) (h0 : ¬ t.val % 4 = 0) (h1 : t.val % 4 = 3) (xs : Vec F S1024x64 .f32) :=
  kernelRun4_C (F := F) c (grid4.coords t) (ms4_0 t) (hs4_0 t) (ms4_1 t) (hs4_1 t) (ms4_2 t) (hs4_2 t) scM4 (Memref.isWhole_whole _) (fun h => h0 ((hcond4_0 t).mp h)) ((hcond4_1 t).mpr h1) (iblk4 V c 0 t) (iblk4 V c 1 t) xs

/-- Each case's stores into the accumulator cover it (whole-buffer stores), -/
theorem scover4_A (c : Dev nD) (t : Fin cfg4.N) (h0 : t.val % 4 = 0) (y : S1024x64.Idx) :
    ∃ pc ∈ (runA4 V c t h0).1, y ∈ pc.1.set :=
  View.cover_of_tiledL (runA4 V c t h0).1 S1024x64.size (by sl_kernel_rfl) y
theorem scover4_B (c : Dev nD) (t : Fin cfg4.N) (h0 : ¬ t.val % 4 = 0) (h1 : ¬ t.val % 4 = 3) (xs : Vec F S1024x64 .f32) (y : S1024x64.Idx) :
    ∃ pc ∈ (runB4 V c t h0 h1 xs).1, y ∈ pc.1.set :=
  View.cover_of_tiledL (runB4 V c t h0 h1 xs).1 S1024x64.size (by sl_kernel_rfl) y
theorem scover4_C (c : Dev nD) (t : Fin cfg4.N) (h0 : ¬ t.val % 4 = 0) (h1 : t.val % 4 = 3) (xs : Vec F S1024x64 .f32) (y : S1024x64.Idx) :
    ∃ pc ∈ (runC4 V c t h0 h1 xs).2.1, y ∈ pc.1.set :=
  View.cover_of_tiledL (runC4 V c t h0 h1 xs).2.1 S1024x64.size (by sl_kernel_rfl) y
/-- and the last case's store into the output block covers it. -/
theorem cover4_C (c : Dev nD) (t : Fin cfg4.N) (h0 : ¬ t.val % 4 = 0) (h1 : t.val % 4 = 3) (xs : Vec F S1024x64 .f32) (y : S1024x64.Idx) :
    ∃ pc ∈ (runC4 V c t h0 h1 xs).1, y ∈ pc.1.set :=
  View.cover_of_tiledL (runC4 V c t h0 h1 xs).1 S1024x64.size (by sl_kernel_rfl) y

/-- What a case leaves in the accumulator: its pieces read back. -/
def accA4 (c : Dev nD) (t : Fin cfg4.N) (h0 : t.val % 4 = 0) : Vec F S1024x64 .f32 :=
  VS4.read (Elt F) (VS4.writes (Elt F) VS4.junk (runA4 V c t h0).1)
def accB4 (c : Dev nD) (t : Fin cfg4.N) (h0 : ¬ t.val % 4 = 0) (h1 : ¬ t.val % 4 = 3) (xs : Vec F S1024x64 .f32) : Vec F S1024x64 .f32 :=
  VS4.read (Elt F) (VS4.writes (Elt F) VS4.junk (runB4 V c t h0 h1 xs).1)
def accC4 (c : Dev nD) (t : Fin cfg4.N) (h0 : ¬ t.val % 4 = 0) (h1 : t.val % 4 = 3) (xs : Vec F S1024x64 .f32) : Vec F S1024x64 .f32 :=
  VS4.read (Elt F) (VS4.writes (Elt F) VS4.junk (runC4 V c t h0 h1 xs).2.1)
/-- What the last case leaves in the output block. -/
def outC4 (c : Dev nD) (t : Fin cfg4.N) (h0 : ¬ t.val % 4 = 0) (h1 : t.val % 4 = 3) (xs : Vec F S1024x64 .f32) : Vec F S1024x64 .f32 :=
  VO4.read (Elt F) (VO4.writes (Elt F) VO4.junk (runC4 V c t h0 h1 xs).1)
/-- Where the output block is not stored nothing consults what is recorded for it. -/
def idleOut4 : Vec F S1024x64 .f32 := VO4.read (Elt F) (VO4.junk (Val := Elt F))

/-! ## The accumulation, point by point -/

/-- One point: what the output block and the accumulator hold after the body at `t`, the accumulator having held
    `prev` before it (unread at reduction step 0, where it is zeroed first). -/
def step4 (c : Dev nD) (t : Fin cfg4.N) (prev : Vec F S1024x64 .f32) : Vec F S1024x64 .f32 × Vec F S1024x64 .f32 :=
  if h0 : t.val % 4 = 0 then (idleOut4, accA4 V c t h0)
  else if h1 : t.val % 4 = 3 then (outC4 V c t h0 h1 prev, accC4 V c t h0 h1 prev)
  else (idleOut4, accB4 V c t h0 h1 prev)

/-- After the body at position `n`: the recursion through the points. -/
def outsAt4 (c : Dev nD) : (n : ℕ) → n < cfg4.N → Vec F S1024x64 .f32 × Vec F S1024x64 .f32
  | 0, hn => step4 V c ⟨0, hn⟩ (VS4.read (Elt F) (VS4.junk (Val := Elt F)))
  | n + 1, hn => step4 V c ⟨n + 1, hn⟩ (outsAt4 c n (Nat.lt_of_succ_lt hn)).2

theorem outsAt4_A (c : Dev nD) (t : Fin cfg4.N) (h0 : t.val % 4 = 0) :
    outsAt4 V c t.val t.isLt = (idleOut4, accA4 V c t h0) := by
  obtain ⟨n, hn⟩ := t
  cases n with
  | zero =>
    have e : outsAt4 V c 0 hn = step4 V c ⟨0, hn⟩ (VS4.read (Elt F) (VS4.junk (Val := Elt F))) := rfl
    exact e.trans ((dif_pos h0).trans rfl)
  | succ n => exact (dif_pos h0).trans rfl

theorem outsAt4_B (c : Dev nD) (t : Fin cfg4.N) (h0 : ¬ t.val % 4 = 0) (h1 : ¬ t.val % 4 = 3) :
    outsAt4 V c t.val t.isLt
      = (idleOut4, accB4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt4_C (c : Dev nD) (t : Fin cfg4.N) (h0 : ¬ t.val % 4 = 0) (h1 : t.val % 4 = 3) :
    outsAt4 V c t.val t.isLt
      = (outC4 V c t h0 h1 (outsAt4 V c (t.val - 1) (Nat.lt_of_le_of_lt (Nat.sub_le _ _) t.isLt)).2,
         accC4 V c t h0 h1 (outsAt4 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The invariant -/

/-- Before position `n`: at the first point the region's whole scoped rest; afterwards the accumulator held whole
    at what the point before left in it, beside the rest of the scoped buffers, unopened. -/
def PhiS4 (c : Dev nD) : (n : ℕ) → n ≤ cfg4.N → sProp (MM F)
  | 0, _ => Pipeline.scopedRest (Ix := Unit) (Name := ℕ) (U := UR sig nD τ) (Lvl := ℕ) (Val := Elt F) spec4 c
  | n + 1, hn => iprop(owns (c : Thread nD τ) scM4 fullShare ((outsAt4 V c n hn).2)
      ∗ Pipeline.scopedRestBut (Ix := Unit) (Name := ℕ) (U := UR sig nD τ) (Lvl := ℕ) (Val := Elt F) spec4 c [cc4_scratch0])

theorem PhiS4_zero (c : Dev nD) (n : ℕ) (h : n ≤ cfg4.N) (hz : n = 0) :
    PhiS4 V c n h = Pipeline.scopedRest (Ix := Unit) (Name := ℕ) (U := UR sig nD τ) (Lvl := ℕ) (Val := Elt F) spec4 c := by
  subst hz; rfl

theorem PhiS4_succ (c : Dev nD) (n : ℕ) (hn : n < cfg4.N) :
    PhiS4 V c (n + 1) hn = iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) := rfl

theorem PhiS4_pos (c : Dev nD) (n : ℕ) (h : n ≤ cfg4.N) (hz : n ≠ 0) :
    PhiS4 V c n h = iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) := by
  cases n with
  | zero => exact absurd rfl hz
  | succ n => rfl

/-- The scoped rest with the accumulator split out, owned whole at some contents. -/
theorem scopedRest4_scM (c : Dev nD) :
    (Pipeline.scopedRest (Ix := Unit) (Name := ℕ) (U := UR sig nD τ) (Lvl := ℕ) (Val := Elt F) spec4 c : sProp (MM F))
      = iprop((∃ d, owns (c : Thread nD τ) scM4 fullShare d)
          ∗ Pipeline.scopedRestBut (Ix := Unit) (Name := ℕ) (U := UR sig nD τ) (Lvl := ℕ) (Val := Elt F) spec4 c [cc4_scratch0]) := by
  rw [scopedRest4_split]; simp only [scM4, owns_whole]; try rfl

/-! ## The proof data -/

/-- The region's proof data on core `c`: the arrays as the region finds them; after the body each input's buffer at
    its block and the output's at `outsAt4`'s first component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp (MM F) :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp (MM F) :=
  iprop((dat4 V c).Φ t.succ ∗ (dat4 V c).owesAt () t.succ
    ∗ (dat4 V c).leavesExact 0 t
    ∗ (dat4 V c).leavesExact 1 t
    ∗ (dat4 V c).leavesExact 2 t)

theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

set_option maxHeartbeats 4800000 in
/-- The body at any point. The inputs' buffers hold their blocks; the point's reduction coordinate selects the case;
    the invariant hands the body the accumulator (at anything at the first point, at what the point before left
    afterwards) and takes it back at this point's contents, the stores covering it. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 32 := lt_of_lt_of_eq t.isLt (show cfg4.N = 32 from N_4)
  by_cases h0 : t.val % 4 = 0
  · have h1 : ¬ t.val % 4 = 3 := by omega
    rw [Dat.leavesExact_idle (dat4 V c) 2 t (idleAt4_2 t h1) (noFlush4_2 t h1)]
    rw [outsAt4_A V c t h0]
    unfold accA4; (try dsimp only)
    by_cases hz : t.val = 0
    · rw [PhiS4_castSucc V c t, PhiS4_zero V c _ _ hz, scopedRest4_scM]
      iintro ⟨⟨HS0, Hr⟩, Ho, ⟨%d0, H0⟩, ⟨%d1, H1⟩, ⟨%d2, H2⟩⟩
      iapply ((runA4 V c t h0).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_A V c t h0)
        iexact Hr
      isplitl [Ho]; · iexact Ho
      isplitl [H0]; · iexact H0
      isplitl [H1]; · iexact H1
      iexists _; iexact H2
    · rw [PhiS4_castSucc V c t, PhiS4_pos V c _ _ hz]
      iintro ⟨⟨HS0, Hr⟩, Ho, ⟨%d0, H0⟩, ⟨%d1, H1⟩, ⟨%d2, H2⟩⟩
      iapply ((runA4 V c t h0).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_A V c t h0)
        iexact Hr
      isplitl [Ho]; · iexact Ho
      isplitl [H0]; · iexact H0
      isplitl [H1]; · iexact H1
      iexists _; iexact H2
  · have hz : t.val ≠ 0 := fun hz => h0 (by rw [hz])
    by_cases h1 : t.val % 4 = 3
    · rw [show (dat4 V c).leavesExact 2 t = owns (c : Thread nD τ) (ms4_2 t) fullShare ((dat4 V c).after 2 t) from by
        unfold Dat.leavesExact; rw [liveAt4_2 t h1], after4_2]
      rw [outsAt4_C V c t h0 h1]
      unfold outC4 accC4; (try dsimp only)
      rw [PhiS4_castSucc V c t, PhiS4_pos V c _ _ hz]
      iintro ⟨⟨HS0, Hr⟩, Ho, ⟨%d0, H0⟩, ⟨%d1, H1⟩, ⟨%d2, H2⟩⟩
      iapply ((runC4 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr]
      · isplitl [HS0]
        · unfold owns; iexists _; isplitr
          swap; · iexact HS0
          ipureintro; exact View.read_writes_of_cover _ _ _ _ _ (scover4_C V c t h0 h1 _)
        iexact Hr
      isplitl [Ho]; · iexact Ho
      isplitl [H0]; · iexact H0
      isplitl [H1]; · iexact H1
      unfold owns; iexists _; isplitr
      swap; · iexact H2
      ipureintro; exact View.read_writes_of_cover _ _ _ _ _ (cover4_C V c t h0 h1 _)
    · rw [Dat.leavesExact_idle (dat4 V c) 2 t (idleAt4_2 t h1) (noFlush4_2 t h1)]
      rw [outsAt4_B V c t h0 h1]
      unfold accB4; (try dsimp only)
      rw [PhiS4_castSucc V c t, PhiS4_pos V c _ _ hz]
      iintro ⟨⟨HS0, Hr⟩, Ho, ⟨%d0, H0⟩, ⟨%d1, H1⟩, ⟨%d2, H2⟩⟩
      iapply ((runB4 V c t h0 h1 _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr]
      · isplitl [HS0]
        · unfold owns; iexists _; isplitr
          swap; · iexact HS0
          ipureintro; exact View.read_writes_of_cover _ _ _ _ _ (scover4_B V c t h0 h1 _)
        iexact Hr
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- The region's scoped rest is the invariant before the first point. -/
theorem hin4 (c : Dev nD) :
    (Pipeline.scopedRest (Ix := Unit) (Name := ℕ) (U := UR sig nD τ) (Lvl := ℕ) (Val := Elt F) spec4 c : sProp (MM F))
      ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the accumulator's named contents are forgotten. -/
theorem hout4 (c : Dev nD) :
    (dat4 V c).Φ (Fin.last cfg4.N)
      ⊢ (Pipeline.scopedRest (Ix := Unit) (Name := ℕ) (U := UR sig nD τ) (Lvl := ℕ) (Val := Elt F) spec4 c : sProp (MM F)) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 32 := N_4; omega), scopedRest4_scM]
  iintro ⟨HS0, Hr⟩
  isplitl [HS0]
  · iexists _; iexact HS0
  iexact Hr

end Cert.KernelIdeal.Hand

end
-- ==== Proof.KI.Run.lean ====
/-
  The whole program as the library's list of segments: five kernel regions with three short host stretches between
  them (a reshape of each filter vector into a column, a change of format of the small projection matrix). The
  contents of the TensorCore's unscoped buffers at the nine boundaries are a fold through @main: a host stretch
  applies its operations, a region replaces its output's array by what its pipeline leaves and keeps everything
  else. Each region enters from the contents before it and leaves at the contents after it; the launch theorem then
  gives: every weakly fair execution terminates, faults nowhere, and ends with every unscoped buffer at the last
  contents of the fold. No region's output and no host stretch's result is an argument, so the arguments end as
  launched; the result is what the last region's pipeline leaves in its output's array.
-/
import proofs.«173608_j68341519613982_2_alg».proof.Proof.KI.R0
import proofs.«173608_j68341519613982_2_alg».proof.Proof.KI.R1
import proofs.«173608_j68341519613982_2_alg».proof.Proof.KI.R2
import proofs.«173608_j68341519613982_2_alg».proof.Proof.KI.R3
import proofs.«173608_j68341519613982_2_alg».proof.Proof.KI.R4
import proofs.«173608_j68341519613982_2_alg».proof.Proof.Gen.KernelIdeal.Regions
import Idealize.ShloMosaic.Lib.Pipeline.Regions
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-! ## The buffer contents at each boundary -/

/-- Core `c`'s buffers at launch, -/
abbrev W0 : Dev nD → Valuation τ sig (Elt F) := fun c b => m (c, b)
/-- and the same read at the TensorCore's references. -/
abbrev V0 : TcVal F := fun c b => W0 m c b

/-- At region 0's exit: its arrays at what the pipeline leaves (an input as entered, the output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : TcVal F := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Region 0 changes only its output's array: any other reference — an input window's array, which the pipeline hands
    back as it found it, or a buffer no window names — holds after it what it held before. -/
theorem W1_keep (c : Dev nD) (b : Ref sig .tc) (hb : b ≠ Pipeline.arrRef spec0 2) :
    W1 m c (Proc.devRef .tc b) = W0 m c (Proc.devRef .tc b) := by
  by_cases h : ∃ w, Pipeline.arrRef spec0 w = b
  · obtain ⟨w, rfl⟩ := h
    fin_cases w
    · exact (W1_arr m c 0).trans (((dat0 (V0 m) c).arrAt_in 0 rfl _).trans (A_eq0 (V0 m) c 0))
    · exact (W1_arr m c 1).trans (((dat0 (V0 m) c).arrAt_in 1 rfl _).trans (A_eq0 (V0 m) c 1))
    · exact absurd rfl hb
  · exact W1_of_ne m c b fun w e => h ⟨w, e⟩

/-- After the host stretch `hostOps1`. -/
abbrev W2 : Dev nD → Valuation τ sig (Elt F) := fun c => StableHlo.after hostOps1 (W1 m c)
abbrev V2 : TcVal F := fun c b => W2 m c b
/-- A reference the stretch does not write holds after it what it held before. -/
theorem W2_keep (c : Dev nD) (b : Ref sig .tc) (hb : b ∉ hostOps1_W) :
    W2 m c (Proc.devRef .tc b) = W1 m c (Proc.devRef .tc b) :=
  StableHlo.after_of_writes_sub hostOps1 _ hostOps1_writes hb

/-- At region 1's exit: its arrays at what the pipeline leaves (an input as entered, the output's write-backs folded),
    every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references. -/
abbrev V3 : TcVal F := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- Region 1 changes only its output's array: any other reference — an input window's array, which the pipeline hands
    back as it found it, or a buffer no window names — holds after it what it held before. -/
theorem W3_keep (c : Dev nD) (b : Ref sig .tc) (hb : b ≠ Pipeline.arrRef spec1 3) :
    W3 m c (Proc.devRef .tc b) = W2 m c (Proc.devRef .tc b) := by
  by_cases h : ∃ w, Pipeline.arrRef spec1 w = b
  · obtain ⟨w, rfl⟩ := h
    fin_cases w
    · exact (W3_arr m c 0).trans (((dat1 (V2 m) c).arrAt_in 0 rfl _).trans (A_eq1 (V2 m) c 0))
    · exact (W3_arr m c 1).trans (((dat1 (V2 m) c).arrAt_in 1 rfl _).trans (A_eq1 (V2 m) c 1))
    · exact (W3_arr m c 2).trans (((dat1 (V2 m) c).arrAt_in 2 rfl _).trans (A_eq1 (V2 m) c 2))
    · exact absurd rfl hb
  · exact W3_of_ne m c b fun w e => h ⟨w, e⟩

/-- After the host stretch `hostOps2`. -/
abbrev W4 : Dev nD → Valuation τ sig (Elt F) := fun c => StableHlo.after hostOps2 (W3 m c)
abbrev V4 : TcVal F := fun c b => W4 m c b
/-- A reference the stretch does not write holds after it what it held before. -/
theorem W4_keep (c : Dev nD) (b : Ref sig .tc) (hb : b ∉ hostOps2_W) :
    W4 m c (Proc.devRef .tc b) = W3 m c (Proc.devRef .tc b) :=
  StableHlo.after_of_writes_sub hostOps2 _ hostOps2_writes hb

/-- At region 2's exit: its arrays at what the pipeline leaves (an input as entered, the output's write-backs folded),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : TcVal F := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- Region 2 changes only its output's array: any other reference — an input window's array, which the pipeline hands
    back as it found it, or a buffer no window names — holds after it what it held before. -/
theorem W5_keep (c : Dev nD) (b : Ref sig .tc) (hb : b ≠ Pipeline.arrRef spec2 3) :
    W5 m c (Proc.devRef .tc b) = W4 m c (Proc.devRef .tc b) := by
  by_cases h : ∃ w, Pipeline.arrRef spec2 w = b
  · obtain ⟨w, rfl⟩ := h
    fin_cases w
    · exact (W5_arr m c 0).trans (((dat2 (V4 m) c).arrAt_in 0 rfl _).trans (A_eq2 (V4 m) c 0))
    · exact (W5_arr m c 1).trans (((dat2 (V4 m) c).arrAt_in 1 rfl _).trans (A_eq2 (V4 m) c 1))
    · exact (W5_arr m c 2).trans (((dat2 (V4 m) c).arrAt_in 2 rfl _).trans (A_eq2 (V4 m) c 2))
    · exact absurd rfl hb
  · exact W5_of_ne m c b fun w e => h ⟨w, e⟩

/-- After the host stretch `hostOps3`. -/
abbrev W6 : Dev nD → Valuation τ sig (Elt F) := fun c => StableHlo.after hostOps3 (W5 m c)
abbrev V6 : TcVal F := fun c b => W6 m c b
/-- A reference the stretch does not write holds after it what it held before. -/
theorem W6_keep (c : Dev nD) (b : Ref sig .tc) (hb : b ∉ hostOps3_W) :
    W6 m c (Proc.devRef .tc b) = W5 m c (Proc.devRef .tc b) :=
  StableHlo.after_of_writes_sub hostOps3 _ hostOps3_writes hb

/-- At region 3's exit: its arrays at what the pipeline leaves (an input as entered, the output's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references. -/
abbrev V7 : TcVal F := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- Region 3 changes only its output's array: any other reference — an input window's array, which the pipeline hands
    back as it found it, or a buffer no window names — holds after it what it held before. -/
theorem W7_keep (c : Dev nD) (b : Ref sig .tc) (hb : b ≠ Pipeline.arrRef spec3 3) :
    W7 m c (Proc.devRef .tc b) = W6 m c (Proc.devRef .tc b) := by
  by_cases h : ∃ w, Pipeline.arrRef spec3 w = b
  · obtain ⟨w, rfl⟩ := h
    fin_cases w
    · exact (W7_arr m c 0).trans (((dat3 (V6 m) c).arrAt_in 0 rfl _).trans (A_eq3 (V6 m) c 0))
    · exact (W7_arr m c 1).trans (((dat3 (V6 m) c).arrAt_in 1 rfl _).trans (A_eq3 (V6 m) c 1))
    · exact (W7_arr m c 2).trans (((dat3 (V6 m) c).arrAt_in 2 rfl _).trans (A_eq3 (V6 m) c 2))
    · exact absurd rfl hb
  · exact W7_of_ne m c b fun w e => h ⟨w, e⟩

/-- At region 4's exit: its arrays at what the pipeline leaves (an input as entered, the output's write-backs folded),
    every other buffer as entered. -/
def W8 (c : Dev nD) : Valuation τ sig (Elt F) :=
  Pipeline.withArrays spec4 c (W7 m c) fun w => (dat4 (V7 m) c).arrAt w cfg4.N
theorem W8_arr (c : Dev nD) (w : Fin cfg4.W) :
    W8 m c (Proc.devRef .tc (Pipeline.arrRef spec4 w)) = (dat4 (V7 m) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m c (Proc.devRef .tc b) = W7 m c (Proc.devRef .tc b) := by
  unfold W8; exact Pipeline.withArrays_of_ne spec4 c _ _ b hb
/-- The same read at the TensorCore's references. -/
abbrev V8 : TcVal F := fun c b => W8 m c b
theorem hF4 (c : Dev nD) (w : Fin cfg4.W) : (dat4 (V7 m) c).arrAt w cfg4.N = V8 m c (Pipeline.arrRef spec4 w) :=
  (W8_arr m c w).symm
theorem hrest4 (c : Dev nD) : ∀ b, b ∉ Finset.univ.image (Pipeline.arrRef spec4) → V8 m c b = V7 m c b :=
  fun b hb => W8_of_ne m c b fun w e => hb (Finset.mem_image.mpr ⟨w, Finset.mem_univ _, e⟩)

/-- Region 4 changes only its output's array: any other reference — an input window's array, which the pipeline hands
    back as it found it, or a buffer no window names — holds after it what it held before. -/
theorem W8_keep (c : Dev nD) (b : Ref sig .tc) (hb : b ≠ Pipeline.arrRef spec4 2) :
    W8 m c (Proc.devRef .tc b) = W7 m c (Proc.devRef .tc b) := by
  by_cases h : ∃ w, Pipeline.arrRef spec4 w = b
  · obtain ⟨w, rfl⟩ := h
    fin_cases w
    · exact (W8_arr m c 0).trans (((dat4 (V7 m) c).arrAt_in 0 rfl _).trans (A_eq4 (V7 m) c 0))
    · exact (W8_arr m c 1).trans (((dat4 (V7 m) c).arrAt_in 1 rfl _).trans (A_eq4 (V7 m) c 1))
    · exact absurd rfl hb
  · exact W8_of_ne m c b fun w e => h ⟨w, e⟩

/-! ## The arguments end as launched -/

/-- `main_arg0` is no region's output and no host stretch writes it: it ends as launched. -/
theorem W8_main_arg0 (c : Dev nD) : W8 m c (Proc.devRef .tc main_arg0) = m ((c : Thread nD τ).loc main_arg0) :=
  (W8_keep m c main_arg0 (by decide)).trans <| (W7_keep m c main_arg0 (by decide)).trans <| (W6_keep m c main_arg0 (by decide)).trans <|
  (W5_keep m c main_arg0 (by decide)).trans <| (W4_keep m c main_arg0 (by decide)).trans <| (W3_keep m c main_arg0 (by decide)).trans <|
  (W2_keep m c main_arg0 (by decide)).trans <| (W1_keep m c main_arg0 (by decide)).trans rfl

/-- `main_arg1` is no region's output and no host stretch writes it: it ends as launched. -/
theorem W8_main_arg1 (c : Dev nD) : W8 m c (Proc.devRef .tc main_arg1) = m ((c : Thread nD τ).loc main_arg1) :=
  (W8_keep m c main_arg1 (by decide)).trans <| (W7_keep m c main_arg1 (by decide)).trans <| (W6_keep m c main_arg1 (by decide)).trans <|
  (W5_keep m c main_arg1 (by decide)).trans <| (W4_keep m c main_arg1 (by decide)).trans <| (W3_keep m c main_arg1 (by decide)).trans <|
  (W2_keep m c main_arg1 (by decide)).trans <| (W1_keep m c main_arg1 (by decide)).trans rfl

/-- `main_arg2` is no region's output and no host stretch writes it: it ends as launched. -/
theorem W8_main_arg2 (c : Dev nD) : W8 m c (Proc.devRef .tc main_arg2) = m ((c : Thread nD τ).loc main_arg2) :=
  (W8_keep m c main_arg2 (by decide)).trans <| (W7_keep m c main_arg2 (by decide)).trans <| (W6_keep m c main_arg2 (by decide)).trans <|
  (W5_keep m c main_arg2 (by decide)).trans <| (W4_keep m c main_arg2 (by decide)).trans <| (W3_keep m c main_arg2 (by decide)).trans <|
  (W2_keep m c main_arg2 (by decide)).trans <| (W1_keep m c main_arg2 (by decide)).trans rfl

/-- `main_arg3` is no region's output and no host stretch writes it: it ends as launched. -/
theorem W8_main_arg3 (c : Dev nD) : W8 m c (Proc.devRef .tc main_arg3) = m ((c : Thread nD τ).loc main_arg3) :=
  (W8_keep m c main_arg3 (by decide)).trans <| (W7_keep m c main_arg3 (by decide)).trans <| (W6_keep m c main_arg3 (by decide)).trans <|
  (W5_keep m c main_arg3 (by decide)).trans <| (W4_keep m c main_arg3 (by decide)).trans <| (W3_keep m c main_arg3 (by decide)).trans <|
  (W2_keep m c main_arg3 (by decide)).trans <| (W1_keep m c main_arg3 (by decide)).trans rfl

/-- `main_arg4` is no region's output and no host stretch writes it: it ends as launched. -/
theorem W8_main_arg4 (c : Dev nD) : W8 m c (Proc.devRef .tc main_arg4) = m ((c : Thread nD τ).loc main_arg4) :=
  (W8_keep m c main_arg4 (by decide)).trans <| (W7_keep m c main_arg4 (by decide)).trans <| (W6_keep m c main_arg4 (by decide)).trans <|
  (W5_keep m c main_arg4 (by decide)).trans <| (W4_keep m c main_arg4 (by decide)).trans <| (W3_keep m c main_arg4 (by decide)).trans <|
  (W2_keep m c main_arg4 (by decide)).trans <| (W1_keep m c main_arg4 (by decide)).trans rfl

/-- `main_arg5` is no region's output and no host stretch writes it: it ends as launched. -/
theorem W8_main_arg5 (c : Dev nD) : W8 m c (Proc.devRef .tc main_arg5) = m ((c : Thread nD τ).loc main_arg5) :=
  (W8_keep m c main_arg5 (by decide)).trans <| (W7_keep m c main_arg5 (by decide)).trans <| (W6_keep m c main_arg5 (by decide)).trans <|
  (W5_keep m c main_arg5 (by decide)).trans <| (W4_keep m c main_arg5 (by decide)).trans <| (W3_keep m c main_arg5 (by decide)).trans <|
  (W2_keep m c main_arg5 (by decide)).trans <| (W1_keep m c main_arg5 (by decide)).trans rfl

/-- `main_arg6` is no region's output and no host stretch writes it: it ends as launched. -/
theorem W8_main_arg6 (c : Dev nD) : W8 m c (Proc.devRef .tc main_arg6) = m ((c : Thread nD τ).loc main_arg6) :=
  (W8_keep m c main_arg6 (by decide)).trans <| (W7_keep m c main_arg6 (by decide)).trans <| (W6_keep m c main_arg6 (by decide)).trans <|
  (W5_keep m c main_arg6 (by decide)).trans <| (W4_keep m c main_arg6 (by decide)).trans <| (W3_keep m c main_arg6 (by decide)).trans <|
  (W2_keep m c main_arg6 (by decide)).trans <| (W1_keep m c main_arg6 (by decide)).trans rfl

/-- The result's array ends at what the last region's pipeline leaves in it. -/
theorem W8_main_v0 (c : Dev nD) : W8 m c (Proc.devRef .tc main_v0) = (dat4 (V7 m) c).arrAt 2 cfg4.N :=
  W8_arr m c 2

/-! ## The proof data family and the regions -/

/-- Every pipeline's proof data, each at its region's entry contents — a literal match, so that the library's pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
  | ⟨4, _⟩ => fun c => dat4 (V7 m) c

/-- A host stretch as a segment over the unscoped references from the contents `W`, the tallies riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

-- a library lemma stated over the pinned configuration unifies with the printed one only when unification may unfold
-- plain definitions in a metavariable's type
set_option backward.isDefEq.respectTransparency.types false in
/-- Region 0 over the thread state: entered from every unscoped buffer at the contents before it, left at the
    contents after it. Its arrays are split out of the unscoped buffers and put back at what the pipeline leaves; only
    the scoped rest enters the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X _ := BI.emp
  Y _ := BI.emp
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (dat0 (V0 m) c).Φ 0 from rfl]
    iintro ⟨-, -, Hr⟩
    iapply (hin0 (V0 m) c)
    iexact Hr
  hout c := by
    rw [Pipeline.ownSems0_none, show (pdats m 0 c).Φ (Fin.last _) = (dat0 (V0 m) c).Φ (Fin.last cfg0.N) from rfl]
    iintro HΦ
    isplitr; · iempintro
    isplitr; · iempintro
    iapply (hout0 (V0 m) c)
    iexact HΦ
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at the contents before it, left at the
    contents after it. Its arrays are split out of the unscoped buffers and put back at what the pipeline leaves; only
    the scoped rest enters the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X _ := BI.emp
  Y _ := BI.emp
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (dat1 (V2 m) c).Φ 0 from rfl]
    iintro ⟨-, -, Hr⟩
    iapply (hin1 (V2 m) c)
    iexact Hr
  hout c := by
    rw [Pipeline.ownSems0_none, show (pdats m 1 c).Φ (Fin.last _) = (dat1 (V2 m) c).Φ (Fin.last cfg1.N) from rfl]
    iintro HΦ
    isplitr; · iempintro
    isplitr; · iempintro
    iapply (hout1 (V2 m) c)
    iexact HΦ
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at the contents before it, left at the
    contents after it. Its arrays are split out of the unscoped buffers and put back at what the pipeline leaves; only
    the scoped rest enters the invariant; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X _ := BI.emp
  Y _ := BI.emp
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 2 c).Φ 0 = (dat2 (V4 m) c).Φ 0 from rfl]
    iintro ⟨-, -, Hr⟩
    iapply (hin2 (V4 m) c)
    iexact Hr
  hout c := by
    rw [Pipeline.ownSems0_none, show (pdats m 2 c).Φ (Fin.last _) = (dat2 (V4 m) c).Φ (Fin.last cfg2.N) from rfl]
    iintro HΦ
    isplitr; · iempintro
    isplitr; · iempintro
    iapply (hout2 (V4 m) c)
    iexact HΦ
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at the contents before it, left at the
    contents after it. Its arrays are split out of the unscoped buffers and put back at what the pipeline leaves; only
    the scoped rest enters the invariant; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X _ := BI.emp
  Y _ := BI.emp
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 3 c).Φ 0 = (dat3 (V6 m) c).Φ 0 from rfl]
    iintro ⟨-, -, Hr⟩
    iapply (hin3 (V6 m) c)
    iexact Hr
  hout c := by
    rw [Pipeline.ownSems0_none, show (pdats m 3 c).Φ (Fin.last _) = (dat3 (V6 m) c).Φ (Fin.last cfg3.N) from rfl]
    iintro HΦ
    isplitr; · iempintro
    isplitr; · iempintro
    iapply (hout3 (V6 m) c)
    iexact HΦ
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at the contents before it, left at the
    contents after it. Its arrays are split out of the unscoped buffers and put back at what the pipeline leaves; only
    the scoped rest enters the invariant; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m) c).loose
  hwaits := Pipeline.hwaits_of_owed_zero _ _ _ _ L lv 4 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X _ := BI.emp
  Y _ := BI.emp
  Z c := Pipeline.unscopedRest (Ix := Unit) (Name := ℕ) (U := UR sig nD τ) (Lvl := ℕ) spec4 c (V7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V7 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 4 c).Φ 0 = (dat4 (V7 m) c).Φ 0 from rfl]
    iintro ⟨-, -, Hr⟩
    iapply (hin4 (V7 m) c)
    iexact Hr
  hout c := by
    rw [Pipeline.ownSems0_none, show (pdats m 4 c).Φ (Fin.last _) = (dat4 (V7 m) c).Φ (Fin.last cfg4.N) from rfl]
    iintro HΦ
    isplitr; · iempintro
    isplitr; · iempintro
    iapply (hout4 (V7 m) c)
    iexact HΦ
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V7 m c) (V8 m c) ((pdats m 4 c).arrAt · cfg4.N) (hF4 m c) (hrest4 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The run -/

/-- @main's items, in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m),
    .region (reg4 m) ]

/-- @main is the run of those items. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- From any memory with zero counters, every weakly fair execution of @main on the TensorCores terminates, nothing
    faulting, and every final state holds every unscoped buffer at the last contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MM F))
            ⊢ BI.own (emb₁ (initOf (Pipeline.cells cfgs cellOf_inj) (Pipeline.launchToks cfgs cellOf_inj))) from .rfl)
        iexact Hu
      iapply (show (BI.emp : sProp (MM F)) ⊢ bigSep Finset.univ (fun _ : Dev nD => (BI.emp : sProp (MM F))) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

/-- The frame with the result named: besides the arguments, the result's array ends at what the last region leaves. -/
theorem run_valued (ρ : Dev nD → PrngReg) : θ_run defs (onTc (τ := τ) (main (F := F))) ⟨m, fun _ => 0, ρ⟩ (fun r => ∀ c : Dev nD,
      r.2.mem ((c.tc : Thread nD τ).loc main_v0) = (dat4 (V7 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v0 (by decide))).trans (W8_main_v0 m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

end Cert.KernelIdeal.Hand

end
-- ==== Proof.KI.MatmulAt.lean ====
/-
  The matrix unit's product of two blocks into a zero accumulator, read at one row and one column, on the extended
  reals: the sum over the inner positions of the products of the two entries. One statement per pair of block shapes
  the five kernels multiply. The contraction's index type is a one-axis index; it is carried to the plain range of the
  inner extent, and the two operand indices are then the row with the inner position and the inner position with the
  column.
-/
import proofs.«173608_j68341519613982_2_alg».proof.Proof.Gen.KernelIdeal
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- A 1024×512 block times a 512×256 block into a zero accumulator, at row `p` and column `q`: the sum over the
    512 inner positions of the products. -/
theorem matmul_1024_512_256_apply {φ₁ φ₂ : FTy} (x : FVec Ideal S1024x512 φ₁) (w : FVec Ideal S512x256 φ₂) (p : Fin 1024) (q : Fin 256) :
    matmul (F := Ideal) dot_S1024x512_S512x256_S1024x256_1_0_0_1_n_n none x w (constant (F := Ideal) S1024x256 .f32 0x00000000#32) (ix2 p q)
      = ∑ k : Fin 512, x (ix2 p k) * w (ix2 k q) := by
  show FloatOps.matmul dot_S1024x512_S512x256_S1024x256_1_0_0_1_n_n none x w (constant S1024x256 .f32 0x00000000#32) (ix2 p q) = _
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ =>
      show (dot_S1024x512_S512x256_S1024x256_1_0_0_1_n_n.lhsIdx (ix2 p q) _ 0).val = p.val
      unfold DotDims.lhsIdx
      rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
      rfl
    | ⟨1, _⟩ => exact (dot_S1024x512_S512x256_S1024x256_1_0_0_1_n_n.lhsIdx_val_of_single rfl (ix2 p q) _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (dot_S1024x512_S512x256_S1024x256_1_0_0_1_n_n.rhsIdx_val_of_single rfl (ix2 p q) _).trans hk
    | ⟨1, _⟩ =>
      show (dot_S1024x512_S512x256_S1024x256_1_0_0_1_n_n.rhsIdx (ix2 p q) _ 1).val = q.val
      unfold DotDims.rhsIdx
      rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
      rfl)
  rw [el, er]

/-- A 1024×2048 block times a 2048×256 block into a zero accumulator, at row `p` and column `q`: the sum over the
    2048 inner positions of the products. -/
theorem matmul_1024_2048_256_apply {φ₁ φ₂ : FTy} (x : FVec Ideal S1024x2048 φ₁) (w : FVec Ideal S2048x256 φ₂) (p : Fin 1024) (q : Fin 256) :
    matmul (F := Ideal) dot_S1024x2048_S2048x256_S1024x256_1_0_0_1_n_n none x w (constant (F := Ideal) S1024x256 .f32 0x00000000#32) (ix2 p q)
      = ∑ k : Fin 2048, x (ix2 p k) * w (ix2 k q) := by
  show FloatOps.matmul dot_S1024x2048_S2048x256_S1024x256_1_0_0_1_n_n none x w (constant S1024x256 .f32 0x00000000#32) (ix2 p q) = _
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ =>
      show (dot_S1024x2048_S2048x256_S1024x256_1_0_0_1_n_n.lhsIdx (ix2 p q) _ 0).val = p.val
      unfold DotDims.lhsIdx
      rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
      rfl
    | ⟨1, _⟩ => exact (dot_S1024x2048_S2048x256_S1024x256_1_0_0_1_n_n.lhsIdx_val_of_single rfl (ix2 p q) _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (dot_S1024x2048_S2048x256_S1024x256_1_0_0_1_n_n.rhsIdx_val_of_single rfl (ix2 p q) _).trans hk
    | ⟨1, _⟩ =>
      show (dot_S1024x2048_S2048x256_S1024x256_1_0_0_1_n_n.rhsIdx (ix2 p q) _ 1).val = q.val
      unfold DotDims.rhsIdx
      rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
      rfl)
  rw [el, er]

/-- A 1024×256 block times a 256×64 block into a zero accumulator, at row `p` and column `q`: the sum over the
    256 inner positions of the products. -/
theorem matmul_1024_256_64_apply {φ₁ φ₂ : FTy} (x : FVec Ideal S1024x256 φ₁) (w : FVec Ideal S256x64 φ₂) (p : Fin 1024) (q : Fin 64) :
    matmul (F := Ideal) dot_S1024x256_S256x64_S1024x64_1_0_0_1_n_n none x w (constant (F := Ideal) S1024x64 .f32 0x00000000#32) (ix2 p q)
      = ∑ k : Fin 256, x (ix2 p k) * w (ix2 k q) := by
  show FloatOps.matmul dot_S1024x256_S256x64_S1024x64_1_0_0_1_n_n none x w (constant S1024x64 .f32 0x00000000#32) (ix2 p q) = _
  rw [Ideal.matmul_constant_zero_apply, ← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ =>
      show (dot_S1024x256_S256x64_S1024x64_1_0_0_1_n_n.lhsIdx (ix2 p q) _ 0).val = p.val
      unfold DotDims.lhsIdx
      rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
      rfl
    | ⟨1, _⟩ => exact (dot_S1024x256_S256x64_S1024x64_1_0_0_1_n_n.lhsIdx_val_of_single rfl (ix2 p q) _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (dot_S1024x256_S256x64_S1024x64_1_0_0_1_n_n.rhsIdx_val_of_single rfl (ix2 p q) _).trans hk
    | ⟨1, _⟩ =>
      show (dot_S1024x256_S256x64_S1024x64_1_0_0_1_n_n.rhsIdx (ix2 p q) _ 1).val = q.val
      unfold DotDims.rhsIdx
      rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
      rfl)
  rw [el, er]

/-- A 1024×2048 block times a 2048×64 block into a zero accumulator, at row `p` and column `q`: the sum over the
    2048 inner positions of the products. -/
theorem matmul_1024_2048_64_apply {φ₁ φ₂ : FTy} (x : FVec Ideal S1024x2048 φ₁) (w : FVec Ideal S2048x64 φ₂) (p : Fin 1024) (q : Fin 64) :
    matmul (F := Ideal) dot_S1024x2048_S2048x64_S1024x64_1_0_0_1_n_n none x w (constant (F := Ideal) S1024x64 .f32 0x00000000#32) (ix2 p q)
      = ∑ k : Fin 2048, x (ix2 p k) * w (ix2 k q) := by
  show FloatOps.matmul dot_S1024x2048_S2048x64_S1024x64_1_0_0_1_n_n none x w (constant S1024x64 .f32 0x00000000#32) (ix2 p q) = _
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p q) ((contrEquiv1 dot_S1024x2048_S2048x64_S1024x64_1_0_0_1_n_n 2048 rfl rfl).symm k) = ix2 p k := funext fun a => Fin.ext (by
    match a with
    | ⟨0, _⟩ =>
      show (dot_S1024x2048_S2048x64_S1024x64_1_0_0_1_n_n.lhsIdx (ix2 p q) _ 0).val = p.val
      unfold DotDims.lhsIdx
      rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
      rfl
    | ⟨1, _⟩ => exact (dot_S1024x2048_S2048x64_S1024x64_1_0_0_1_n_n.lhsIdx_val_of_single rfl (ix2 p q) _).trans hk)
  have er : dot_S1024x2048_S2048x64_S1024x64_1_0_0_1_n_n.rhsIdx (ix2 p q) ((contrEquiv1 dot_S1024x2048_S2048x64_S1024x64_1_0_0_1_n_n 2048 rfl rfl).symm k) = ix2 k q := funext fun a => Fin.ext (by
    match a with
    | ⟨0, _⟩ => exact (dot_S1024x2048_S2048x64_S1024x64_1_0_0_1_n_n.rhsIdx_val_of_single rfl (ix2 p q) _).trans hk
    | ⟨1, _⟩ =>
      show (dot_S1024x2048_S2048x64_S1024x64_1_0_0_1_n_n.rhsIdx (ix2 p q) _ 1).val = q.val
      unfold DotDims.rhsIdx
      rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
      rfl)
  rw [el, er]

end Cert.KernelIdeal.Hand

end
-- ==== Proof.Spec.lean ====
/-
  The specification of the result, with no program in sight: two graph-wavelet layers followed by a row-wise log-softmax,

      layer(feat, w, f) = W · (diag f · (W⁻ · (feat · w))),      result = logSoftmaxRows (layer (relu (layer x w1 f1)) w2 f2),

  as ONE function `G` of the seven argument arrays, element by element on the extended reals, where every operation is the
  exact one: a matrix product is the sum over the inner index, `diag f · Y` scales row `r` of `Y` by `f r`, `relu` is the
  maximum with zero, and the log-softmax of a row is `(y − m) − log Σ exp (y − m)` with `m` the row's maximum.

  Two laws join other arrangements of the same arithmetic to `G`. Both hold on ALL extended reals, infinities included,
  because only the commutative-monoid structure of `+` and of `·` is used; no finiteness is needed.
    * The scaling factor may stand on either side of the product (`scaleRowsR_eq`).
    * A sum over an index range cut into consecutive blocks of equal length, accumulated block after block from zero, is
      the sum over the whole range (`sum_blocks`, `acc_blocks`, `sum_four_blocks`), hence a matrix product whose inner
      dimension is accumulated in four blocks of 2048 is the matrix product (`mm_four_blocks`).
-/
import Idealize.ShloMosaic.PureOps.Ideal
import Idealize.ShloMosaic.Lib.ValueIdx
import Idealize.ShloMosaic.PureOps.Ideal.Laws

noncomputable section

open scoped BigOperators
open Idealize.ShloMosaic Idealize.ShloMosaic.ValueIdx

namespace Cert.Spec

/-- An `a × b` matrix of extended reals, as a function of its index. -/
abbrev Mat (a b : Nat) : Type := (⟨2, ![a, b]⟩ : Shape).Idx → EReal
/-- A vector of `n` extended reals, as a function of its index. -/
abbrev Col (n : Nat) : Type := (⟨1, ![n]⟩ : Shape).Idx → EReal

/-! ## The operations -/

/-- The matrix product: entry `(r, c)` is `Σ k, A (r, k) · B (k, c)`. -/
def mm {a b c : Nat} (A : Mat a b) (B : Mat b c) : Mat a c :=
  fun i => ∑ k : Fin b, A (ix2 (i 0) k) * B (ix2 k (i 1))

/-- `diag f · Y`: row `r` of `Y` scaled by `f r`, the factor on the left of the product … -/
def scaleRows {n d : Nat} (f : Col n) (Y : Mat n d) : Mat n d :=
  fun i => f (ix1 (i 0)) * Y i

/-- … and the same with the factor on the right. -/
def scaleRowsR {n d : Nat} (f : Col n) (Y : Mat n d) : Mat n d :=
  fun i => Y i * f (ix1 (i 0))

/-- Multiplication of extended reals is commutative, so the two scalings are one function. -/
theorem scaleRowsR_eq {n d : Nat} (f : Col n) (Y : Mat n d) : scaleRowsR f Y = scaleRows f Y :=
  funext fun _ => mul_comm _ _

/-- The maximum with zero, element by element; the zero is the value of the f32 word `0x00000000`. -/
def relu {n d : Nat} (Y : Mat n d) : Mat n d :=
  fun i => max (Y i) (Ideal.ofBits .f32 0x00000000#32)

theorem relu_apply {n d : Nat} (Y : Mat n d) (i : (⟨2, ![n, d]⟩ : Shape).Idx) : relu Y i = max (Y i) 0 := by
  unfold relu; rw [Ideal.ofBits_zero_f32]

/-- The maximum of row `r`: the fold of `max` over the row from `−∞` (the value of the f32 word `0xFF800000`), and once
    more the maximum of that with `−∞`. -/
def rowMax {n d : Nat} (Y : Mat n d) (r : Fin n) : EReal :=
  max (Ideal.ofBits .f32 0xFF800000#32)
    ((Finset.univ : Finset (Fin d)).fold max (Ideal.ofBits .f32 0xFF800000#32) fun k => Y (ix2 r k))

/-- Each entry less its row's maximum. -/
def shifted {n d : Nat} (Y : Mat n d) : Mat n d :=
  fun i => Y i - rowMax Y (i 0)

/-- The logarithm of the sum over row `r` of the exponentials of the shifted entries. -/
def rowLogSumExp {n d : Nat} (Y : Mat n d) (r : Fin n) : EReal :=
  Ideal.log (∑ k : Fin d, Ideal.exp (shifted Y (ix2 r k)))

/-- The row-wise log-softmax: `(y − m) − log Σ exp (y − m)`, `m` the row's maximum. -/
def logSoftmaxRows {n d : Nat} (Y : Mat n d) : Mat n d :=
  fun i => shifted Y i - rowLogSumExp Y (i 0)

/-! ## The result -/

/-- One graph-wavelet layer: `W · (diag f · (W⁻ · (feat · w)))`. -/
def layer {n p q : Nat} (W Winv : Mat n n) (feat : Mat n p) (w : Mat p q) (f : Col n) : Mat n q :=
  mm W (scaleRows f (mm Winv (mm feat w)))

/-- THE RESULT as one function of the seven arguments. -/
def G (x : Mat 8192 512) (W Winv : Mat 8192 8192) (w1 : Mat 512 256) (f1 : Col 8192) (w2 : Mat 256 64)
    (f2 : Col 8192) : Mat 8192 64 :=
  logSoftmaxRows (mm W (scaleRows f2 (mm Winv (mm (relu (mm W (scaleRows f1 (mm Winv (mm x w1))))) w2))))

theorem G_eq_layers (x : Mat 8192 512) (W Winv : Mat 8192 8192) (w1 : Mat 512 256) (f1 : Col 8192) (w2 : Mat 256 64)
    (f2 : Col 8192) : G x W Winv w1 f1 w2 f2 = logSoftmaxRows (layer W Winv (relu (layer W Winv x w1 f1)) w2 f2) := rfl

/-! ## A sum accumulated block after block is the whole sum -/

section Blocks
variable {M : Type*} [AddCommMonoid M]

/-- A range of `nb · bs` indices cut into `nb` consecutive blocks of `bs`: the sum over the blocks of each block's sum is the
    sum over the range. `blk n j` is the `j`-th index of block `n`, whatever way it is written, provided its value is
    `bs · n + j`. -/
theorem sum_blocks {N : Nat} (nb bs : Nat) (hN : nb * bs = N) (g : Fin N → M) (blk : Fin nb → Fin bs → Fin N)
    (hblk : ∀ n j, (blk n j).val = bs * n.val + j.val) :
    ∑ n : Fin nb, ∑ j : Fin bs, g (blk n j) = ∑ k : Fin N, g k := by
  subst hN
  rw [← Equiv.sum_comp finProdFinEquiv g, Fintype.sum_prod_type]
  refine Finset.sum_congr rfl fun n _ => Finset.sum_congr rfl fun j _ => congrArg g (Fin.ext ?_)
  rw [hblk, finProdFinEquiv_apply_val, Nat.add_comm]

/-- The same as an accumulation: from zero, adding block `n`'s sum at step `n`, after `nb` steps the accumulator holds the
    whole sum. -/
theorem acc_blocks {N : Nat} (nb bs : Nat) (hN : nb * bs = N) (g : Fin N → M) (blk : Fin nb → Fin bs → Fin N)
    (hblk : ∀ n j, (blk n j).val = bs * n.val + j.val) (acc : Nat → M) (h0 : acc 0 = 0)
    (hs : ∀ (n : Nat) (hn : n < nb), acc (n + 1) = acc n + ∑ j : Fin bs, g (blk ⟨n, hn⟩ j)) :
    acc nb = ∑ k : Fin N, g k := by
  have key : ∀ (n : Nat) (hn : n ≤ nb), acc n = ∑ m : Fin n, ∑ j : Fin bs, g (blk ⟨m.val, lt_of_lt_of_le m.isLt hn⟩ j) := by
    intro n
    induction n with
    | zero => intro _; rw [h0]; exact (Finset.sum_empty).symm
    | succ n ih =>
      intro hn
      rw [hs n hn, ih (Nat.le_of_succ_le hn), Fin.sum_univ_castSucc]
      rfl
  rw [key nb le_rfl, ← sum_blocks nb bs hN g blk hblk]

/-- The `j`-th index of the `n`-th block of 2048 in a range of 8192. -/
def blockIdx (n : Fin 4) (j : Fin 2048) : Fin 8192 := ⟨2048 * n.val + j.val, by omega⟩

theorem blockIdx_val (n : Fin 4) (j : Fin 2048) : (blockIdx n j).val = 2048 * n.val + j.val := rfl

/-- Four blocks of 2048 accumulated from zero, written out: the sum over the 8192. -/
theorem sum_four_blocks (g : Fin 8192 → M) (blk : Fin 4 → Fin 2048 → Fin 8192)
    (hblk : ∀ n j, (blk n j).val = 2048 * n.val + j.val) :
    (((0 + ∑ j : Fin 2048, g (blk 0 j)) + ∑ j : Fin 2048, g (blk 1 j)) + ∑ j : Fin 2048, g (blk 2 j))
      + ∑ j : Fin 2048, g (blk 3 j) = ∑ k : Fin 8192, g k := by
  rw [← sum_blocks 4 2048 rfl g blk hblk, Fin.sum_univ_four, zero_add]

end Blocks

/-- A matrix product over an inner dimension of 8192 accumulated in four blocks of 2048 from a zero accumulator is the
    matrix product. -/
theorem mm_four_blocks {a c : Nat} (A : Mat a 8192) (B : Mat 8192 c) (blk : Fin 4 → Fin 2048 → Fin 8192)
    (hblk : ∀ n j, (blk n j).val = 2048 * n.val + j.val) (r : Fin a) (q : Fin c) :
    (((0 + ∑ j : Fin 2048, A (ix2 r (blk 0 j)) * B (ix2 (blk 0 j) q))
        + ∑ j : Fin 2048, A (ix2 r (blk 1 j)) * B (ix2 (blk 1 j) q))
        + ∑ j : Fin 2048, A (ix2 r (blk 2 j)) * B (ix2 (blk 2 j) q))
        + ∑ j : Fin 2048, A (ix2 r (blk 3 j)) * B (ix2 (blk 3 j) q)
      = mm A B (ix2 r q) :=
  sum_four_blocks (fun k => A (ix2 r k) * B (ix2 k q)) blk hblk

end Cert.Spec

end
-- ==== Proof.KI.V0.lean ====
/-
  What the first region leaves in its output's array, on the extended reals: the whole matrix product of x and w1.
  At grid point `t` the body multiplies rows 1024·t … 1024·t + 1023 of x by all of w1, and the pipeline writes that
  block back over the same rows of the output; entry (p, q) of the block is the sum over the 512 inner positions of
  x's entry in row 1024·t + p times w1's entry in column q. The eight blocks tile the 8192 rows, so the array ends
  holding the product at every index.
-/
import proofs.«173608_j68341519613982_2_alg».proof.Proof.KI.R0
import proofs.«173608_j68341519613982_2_alg».proof.Proof.KI.MatmulAt
import proofs.«173608_j68341519613982_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : TcVal Ideal)

theorem zero_off2 : (![0, 0] : Fin 2 → Nat) = fun _ => 0 := funext fun a => by fin_cases a <;> rfl

/-- The body's payload at row `p` and column `q` of the block: the sum over the inner positions (the changes of
    format are the identity on the extended reals). -/
theorem pay0_apply (x : Vec Ideal S1024x512 .f32) (w : Vec Ideal S512x256 .f32) (p : Fin 1024) (q : Fin 256) :
    k0_pay1 (F := Ideal) x w (ix2 p q) = ∑ k : Fin 512, x (ix2 p k) * w (ix2 k q) := by
  unfold k0_pay1
  exact matmul_1024_512_256_apply _ _ p q

/-- The printed index maps over the eight points: the row block of x moves with the output's, every other block
    index is zero, and the output's row-block index is the point itself. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the whole product. -/
theorem flushed0_eq (c : Dev nD) (t : Fin cfg0.N) :
    (dat0 V c).flushed 2 t = ((cfg0.win 2).blk t).view.read (Elt Ideal) (Spec.mm (V c main_arg0) (V c main_arg3)) := by
  show (cfg0.win 2).cut (grid0.coords t) ((dat0 V c).after 2 t) = _
  rw [after0_2]
  unfold prod0
  rw [View.canon_unit_zero zero_off2]
  simp only [View.ld_unit_zero (S := S1024x512) zero_off2, View.ld_unit_zero (S := S512x256) zero_off2]
  obtain ⟨e0, e1, e2, e3, e4, e5⟩ := idx_facts0 t
  funext j
  obtain ⟨p, q, rfl⟩ : ∃ (p : Fin 1024) (q : Fin 256), j = ix2 p q := ⟨j 0, j 1, eq_ix2 j⟩
  show k0_pay1 (F := Ideal) (blk0 V c 0 t) (blk0 V c 1 t) (ix2 p q) = Spec.mm (V c main_arg0) (V c main_arg3) (((cfg0.win 2).blk t).view.emb (ix2 p q))
  rw [pay0_apply]
  unfold Spec.mm
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 256 + 1 * q.val = win0_2.index t (1 : Fin 2) * 256 + 1 * q.val; omega
  congr 1
  · exact congrArg (V c main_arg0) hx
  · exact congrArg (V c main_arg3) hw

/-- An index of the output's array is in point `t`'s block iff each coordinate is in the block's range on its axis. -/
theorem mem_blk0 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_call0_v0).slice (win0_2.rect t)).set ↔ _
  rw [View.set_slice_whole, Rect.mem_set_unit]
  exact Iff.rfl

/-- Every index of the output's array is in some point's block: row `r` is in block `r / 1024`. -/
theorem cover0 (i : S8192x256.Idx) : ∃ t : Fin cfg0.N, (cfg0.win 2).flush t = true ∧ i ∈ ((cfg0.win 2).blk t).view.set := by
  have hi0 : (i 0).val < 8192 := idx2_lt0 i
  have hi1 : (i 1).val < 256 := idx2_lt1 i
  have hN : cfg0.N = 8 := N_0
  refine ⟨⟨(i 0).val / 1024, by omega⟩, flush0_2 _, ?_⟩
  rw [mem_blk0]
  obtain ⟨e0, e1, e2, e3, e4, e5⟩ := idx_facts0 ⟨(i 0).val / 1024, by omega⟩
  intro a
  match a with
  | ⟨0, _⟩ => show win0_2.index _ (0 : Fin 2) * 1024 ≤ (i 0).val ∧ (i 0).val < win0_2.index _ (0 : Fin 2) * 1024 + 1024; simp only [] at e5; omega
  | ⟨1, _⟩ => show win0_2.index _ (1 : Fin 2) * 256 ≤ (i 1).val ∧ (i 1).val < win0_2.index _ (1 : Fin 2) * 256 + 256; omega

/-- After the first region its output's array holds the whole product of x and w1. -/
theorem final0 (c : Dev nD) : (dat0 V c).arrAt 2 cfg0.N = Spec.mm (V c main_arg0) (V c main_arg3) :=
  (dat0 V c).arrAt_eq_of_cover 2 _ (fun t _ => flushed0_eq V c t) (cover0)

end Cert.KernelIdeal.Hand

end
-- ==== Proof.SpecExt.lean ====
/-
  A matrix of one column read as a vector: entry `r` of the vector is the matrix's entry in row `r` and its only
  column. (The kernels scale the rows of a product by such a column; the specification scales by the vector.)
-/
import proofs.«173608_j68341519613982_2_alg».proof.Proof.Spec

noncomputable section

namespace Cert.Spec

open Idealize.ShloMosaic Idealize.ShloMosaic.ValueIdx

/-- The vector a one-column matrix is. -/
def colOf {n : Nat} (Y : Mat n 1) : Col n := fun i => Y (ix2 (i 0) (0 : Fin 1))

theorem colOf_apply {n : Nat} (Y : Mat n 1) (r : Fin n) : colOf Y (ix1 r) = Y (ix2 r (0 : Fin 1)) := rfl

end Cert.Spec

end
-- ==== Proof.KI.V1.lean ====
/-
  What region 1 leaves in its output's array, on the extended reals: the rows of the product of the square matrix with
  the resident operand, each scaled by its entry of the column.

  At the four points 4r, 4r + 1, 4r + 2, 4r + 3 the body adds, into an accumulator zeroed at the first of them, the
  product of the block (r, s) of the square matrix (rows 1024r ..., columns 2048s ...) with rows 2048s ... of the resident
  operand, s = 0, 1, 2, 3; at the last it multiplies row p of the accumulator by entry p of block r of the column and
  stores the block, which the pipeline writes back over rows 1024r ... of the output. Entry (p, q) of the accumulator is
  then zero plus the four partial sums over the inner positions, which is the whole inner sum; the eight written-back
  blocks tile the 8192 rows, so the array ends holding the scaled product at every index.
-/
import proofs.«173608_j68341519613982_2_alg».proof.Proof.KI.R1
import proofs.«173608_j68341519613982_2_alg».proof.Proof.KI.MatmulAt
import proofs.«173608_j68341519613982_2_alg».proof.Proof.Spec
import proofs.«173608_j68341519613982_2_alg».proof.Proof.SpecExt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open scoped BigOperators

/-! ## What each case leaves, as values -/

section Cases
variable {F : FTy → Type} [FloatOps F]

theorem zero_off1 : (![0, 0] : Fin 2 → Nat) = fun _ => 0 := funext fun a => by fin_cases a <;> rfl

/-- The rows of the resident operand the step at coordinates `i` multiplies by: the 2048 rows from row 2048·(step). -/
abbrev rows1 (i : grid1.Coords) (x1 : Vec F S8192x256 .bf16) : Vec F S2048x256 .bf16 :=
  View.ld x1 (Rect.unit (s := S8192x256) (k1_off1 i) S2048x256.size (k1_off1_inb i))

/-- Case A leaves in the accumulator the zero block plus the first partial product: the zero fill is read back through
    the rectangle it was stored through. -/
theorem sout1_A_0_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : cond1_0 i) (hc1 : ¬cond1_1 i)
    (x0 : Vec F S1024x2048 .f32) (x1 : Vec F S8192x256 .bf16) (x2 : Vec F S1024x1 .f32) :
    sout1_A_0 c i arg2 harg2 arg3 harg3 arg4 harg4 arg5 harg5 arg6 harg6 hc0 hc1 x0 x1 x2 = k1_pay2 x0 (rows1 i x1) (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold run1_A
  dsimp only
  try sl_unfold_run_names
  rw [View.canon_cons_unit_zero (S := S1024x256) zero_off1, View.readCov_unit_zero (S := S1024x256) _ zero_off1]
  simp only [View.readAt_eq_ld, harg2.read_unread, harg3.read_unread, harg4.read_unread, harg6.read_unread, View.ld_unit_zero (S := S1024x2048) zero_off1, View.ld_unit_zero (S := S1024x256) zero_off1, View.ld_unit_zero (S := S1024x1) zero_off1]

/-- Case B leaves in the accumulator what it held plus this step's partial product. -/
theorem sout1_B_0_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : ¬cond1_1 i)
    (x0 : Vec F S1024x2048 .f32) (x1 : Vec F S8192x256 .bf16) (x2 : Vec F S1024x1 .f32) (xs0 : Vec F S1024x256 .f32) :
    sout1_B_0 c i arg2 harg2 arg3 harg3 arg4 harg4 arg5 harg5 arg6 harg6 hc0 hc1 x0 x1 x2 xs0 = k1_pay2 x0 (rows1 i x1) xs0 := by
  unfold sout1_B_0
  rw [View.read_writes_eq_canon _ _ _ (scover1_B_0 c i arg2 harg2 arg3 harg3 arg4 harg4 arg5 harg5 arg6 harg6 hc0 hc1 x0 x1 x2 xs0)]
  unfold run1_B
  dsimp only
  try sl_unfold_run_names
  rw [View.canon_unit_zero (S := S1024x256) zero_off1]
  simp only [View.readAt_eq_ld, harg2.read_unread, harg3.read_unread, harg4.read_unread, harg6.read_unread, View.ld_unit_zero (S := S1024x2048) zero_off1, View.ld_unit_zero (S := S1024x256) zero_off1, View.ld_unit_zero (S := S1024x1) zero_off1]

/-- So does case C, -/
theorem sout1_C_0_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) :
    sout1_C_0 c i arg2 harg2 arg3 harg3 arg4 harg4 arg5 harg5 arg6 harg6 hc0 hc1 x0 x1 x2 xs0 = k1_pay2 x0 (rows1 i x1) xs0 := by
  unfold sout1_C_0
  rw [View.read_writes_eq_canon _ _ _ (scover1_C_0 c i arg2 harg2 arg3 harg3 arg4 harg4 arg5 harg5 arg6 harg6 hc0 hc1 x0 x1 x2 xs0)]
  unfold run1_C
  dsimp only
  try sl_unfold_run_names
  rw [View.canon_unit_zero (S := S1024x256) zero_off1]
  simp only [View.readAt_eq_ld, harg2.read_unread, harg3.read_unread, harg4.read_unread, harg6.read_unread, View.ld_unit_zero (S := S1024x2048) zero_off1, View.ld_unit_zero (S := S1024x256) zero_off1, View.ld_unit_zero (S := S1024x1) zero_off1]

/-- and it stores into the output block that accumulator scaled by the column and rounded. -/
theorem out1_C_3_eq (c : Dev nD) (i : grid1.Coords) (arg2 : Memref sig .tc .vmem S1024x2048 .f32) (harg2 : arg2.IsWhole) (arg3 : Memref sig .tc .vmem S8192x256 .bf16) (harg3 : arg3.IsWhole) (arg4 : Memref sig .tc .vmem S1024x1 .f32) (harg4 : arg4.IsWhole) (arg5 : Memref sig .tc .vmem S1024x256 .bf16) (harg5 : arg5.IsWhole) (arg6 : Memref sig .tc .vmem S1024x256 .f32) (harg6 : arg6.IsWhole) (hc0 : ¬cond1_0 i) (hc1 : cond1_1 i)
    (x0 : Vec F S1024x2048 .f32) (x1 : Vec F S8192x256 .bf16) (x2 : Vec F S1024x1 .f32) (xs0 : Vec F S1024x256 .f32) :
    out1_C_3 c i arg2 harg2 arg3 harg3 arg4 harg4 arg5 harg5 arg6 harg6 hc0 hc1 x0 x1 x2 xs0 = k1_pay3 (k1_pay2 x0 (rows1 i x1) xs0) x2 := by
  unfold out1_C_3
  rw [View.read_writes_eq_canon _ _ _ (cover1_C_3 c i arg2 harg2 arg3 harg3 arg4 harg4 arg5 harg5 arg6 harg6 hc0 hc1 x0 x1 x2 xs0)]
  unfold run1_C
  dsimp only
  try sl_unfold_run_names
  rw [View.canon_unit_zero (S := S1024x256) zero_off1, View.readCov_unit_zero (S := S1024x256) _ zero_off1]
  simp only [View.readAt_eq_ld, harg2.read_unread, harg3.read_unread, harg4.read_unread, harg6.read_unread, View.ld_unit_zero (S := S1024x2048) zero_off1, View.ld_unit_zero (S := S1024x256) zero_off1, View.ld_unit_zero (S := S1024x1) zero_off1]

end Cases

/-! ## The payloads at an index, on the extended reals -/

/-- The zero fill is zero everywhere. -/
theorem pay1_1_apply (p : Fin 1024) (q : Fin 256) : k1_pay1 (F := Ideal) (ix2 p q) = 0 := by
  unfold k1_pay1
  rw [shapeCast_self]
  exact Ideal.ofBits_zero_f32

/-- One step of the accumulation at row `p` and column `q`: what the accumulator held plus the sum over the 2048 inner
    positions of the step (the changes of format are the identity on the extended reals). -/
theorem pay2_1_apply (x0 : Vec Ideal S1024x2048 .f32) (xb : Vec Ideal S2048x256 .bf16) (acc : Vec Ideal S1024x256 .f32)
    (p : Fin 1024) (q : Fin 256) :
    k1_pay2 (F := Ideal) x0 xb acc (ix2 p q) = acc (ix2 p q) + ∑ k : Fin 2048, x0 (ix2 p k) * xb (ix2 k q) := by
  unfold k1_pay2
  rw [shapeCast_self, shapeCast_self, addf_apply, matmul_1024_2048_256_apply]
  rfl

/-- The stored block at row `p` and column `q`: the accumulator's entry times the column's entry in row `p`. -/
theorem pay3_1_apply (acc : Vec Ideal S1024x256 .f32) (col : Vec Ideal S1024x1 .f32) (p : Fin 1024) (q : Fin 256) :
    k1_pay3 (F := Ideal) acc col (ix2 p q) = acc (ix2 p q) * col (ix2 p (0 : Fin 1)) := by
  unfold k1_pay3
  rw [shapeCast_self, truncf_apply, mulf_apply]
  refine congrArg (acc (ix2 p q) * ·) ?_
  exact broadcastTo_apply col _ (ix2 p q) (ix2 p (0 : Fin 1)) (fun a => by
    match a with
    | ⟨0, _⟩ => rfl
    | ⟨1, _⟩ => rfl)

/-! ## The accumulator after the four steps of a row block -/

variable (V : TcVal Ideal)

/-- The three operand arrays as the region finds them, read as matrices of extended reals. -/
abbrev matA1 (c : Dev nD) : Spec.Mat 8192 8192 := V c main_arg2
abbrev matB1 (c : Dev nD) : Spec.Mat 8192 256 := V c main_call0_v0
abbrev colF1 (c : Dev nD) : Spec.Mat 8192 1 := V c main_call0_v1

/-- The block of the square matrix the step at position `n` reads, and the rows of the resident operand it multiplies by. -/
abbrev blkA1 (c : Dev nD) (n : ℕ) (h : n < cfg1.N) : Vec Ideal S1024x2048 .f32 := iblk1 V c 0 ⟨n, h⟩
abbrev blkB1 (c : Dev nD) (n : ℕ) (h : n < cfg1.N) : Vec Ideal S2048x256 .bf16 := rows1 (grid1.coords ⟨n, h⟩) (iblk1 V c 1 ⟨n, h⟩)

/-- At the first step of a row block the accumulator ends at the zero block plus the step's product; -/
theorem acc1_reset (c : Dev nD) (n : ℕ) (h : n < cfg1.N) (hn : n % 4 = 0) :
    (outsAt1 V c n h).2 = k1_pay2 (blkA1 V c n h) (blkB1 V c n h) (k1_pay1 (F := Ideal)) :=
  by
  have hA := outsAt1_A V c ⟨n, h⟩ hn (fun h3 => by dsimp only at h3; omega)
  dsimp only at hA
  rw [hA]
  dsimp only
  exact sout1_A_0_eq (F := Ideal) ..

/-- at every other step, at what the step before left plus the step's product. -/
theorem acc1_step (c : Dev nD) (n : ℕ) (h : n + 1 < cfg1.N) (hn : ¬(n + 1) % 4 = 0) :
    (outsAt1 V c (n + 1) h).2 = k1_pay2 (blkA1 V c (n + 1) h) (blkB1 V c (n + 1) h) (outsAt1 V c n (Nat.lt_of_succ_lt h)).2 := by
  by_cases h1 : (n + 1) % 4 = 3
  · have hC := outsAt1_C V c ⟨n + 1, h⟩ hn h1
    dsimp only at hC
    rw [hC]
    dsimp only
    exact sout1_C_0_eq (F := Ideal) ..
  · have hB := outsAt1_B V c ⟨n + 1, h⟩ hn h1
    dsimp only at hB
    rw [hB]
    dsimp only
    exact sout1_B_0_eq (F := Ideal) ..

/-- So after the fourth step it is the zero block with the four products added in order. -/
theorem acc1_four (c : Dev nD) (n : ℕ) (h : n + 3 < cfg1.N) (hn : n % 4 = 0) :
    (outsAt1 V c (n + 3) h).2
      = k1_pay2 (blkA1 V c (n + 3) h) (blkB1 V c (n + 3) h)
          (k1_pay2 (blkA1 V c (n + 2) (by omega)) (blkB1 V c (n + 2) (by omega))
            (k1_pay2 (blkA1 V c (n + 1) (by omega)) (blkB1 V c (n + 1) (by omega))
              (k1_pay2 (blkA1 V c n (by omega)) (blkB1 V c n (by omega)) (k1_pay1 (F := Ideal))))) :=
  (acc1_step V c (n + 2) h (by omega)).trans (congrArg _ ((acc1_step V c (n + 1) (by omega) (by omega)).trans
    (congrArg _ ((acc1_step V c n (by omega) (by omega)).trans (congrArg _ (acc1_reset V c n (by omega) hn))))))

/-- And the block stored at the fourth step is that accumulator scaled by the column's block. -/
theorem out1_last (c : Dev nD) (n : ℕ) (h : n + 3 < cfg1.N) (hn : n % 4 = 0) :
    (outsAt1 V c (n + 3) h).1 = k1_pay3 (outsAt1 V c (n + 3) h).2 (iblk1 V c 2 ⟨n + 3, h⟩) := by
  have hC := outsAt1_C V c ⟨n + 3, h⟩ (fun h0 => by dsimp only at h0; omega) (by dsimp only; omega)
  dsimp only at hC
  rw [hC]
  dsimp only
  rw [out1_C_3_eq, sout1_C_0_eq]

/-! ## Where the blocks sit in their arrays -/

/-- The printed index maps over the 32 points: at point `t` the row-block index of the square matrix's window, of the
    column's and of the output's is t / 4, the square matrix's column-block index is the step t % 4, every other block
    index is zero, and the rows of the resident operand are read from row 2048·(t % 4). -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

/-- One step's partial sum, read off the arrays: over the inner positions of block `s` = (the step) of the inner range,
    the square matrix's entry in row `r` times the resident operand's entry in column `q`. -/
theorem step_sum1 (c : Dev nD) (m : ℕ) (hm : m < cfg1.N) (p : Fin 1024) (q : Fin 256) (r : Fin 8192) (s : Fin 4)
    (hr : r.val = 1024 * (m / 4) + p.val) (hs : s.val = m % 4) :
    ∑ k : Fin 2048, blkA1 V c m hm (ix2 p k) * blkB1 V c m hm (ix2 k q)
      = ∑ k : Fin 2048, matA1 V c (ix2 r (Spec.blockIdx s k)) * matB1 V c (ix2 (Spec.blockIdx s k) q) := by
  refine Finset.sum_congr rfl fun k _ => ?_
  obtain ⟨e00, e01, e10, e11, e20, e21, e30, e31, o0, o1⟩ := idx_facts1 ⟨m, hm⟩
  simp only [] at e00 e01 e10 e11 o0 o1
  have hx : ((cfg1.win 0).blk ⟨m, hm⟩).view.emb (ix2 p k) = ix2 r (Spec.blockIdx s k) := by
    funext a; apply Fin.ext
    match a with
    | ⟨0, _⟩ => show win1_0.index ⟨m, hm⟩ (0 : Fin 2) * 1024 + 1 * p.val = r.val; omega
    | ⟨1, _⟩ => show win1_0.index ⟨m, hm⟩ (1 : Fin 2) * 2048 + 1 * k.val = 2048 * s.val + k.val; omega
  have hw : ((cfg1.win 1).blk ⟨m, hm⟩).view.emb ((Rect.unit (s := S8192x256) (k1_off1 (grid1.coords ⟨m, hm⟩)) S2048x256.size (k1_off1_inb _)).idx (ix2 k q)) = ix2 (Spec.blockIdx s k) q := by
    funext a; apply Fin.ext
    match a with
    | ⟨0, _⟩ => show win1_1.index ⟨m, hm⟩ (0 : Fin 2) * 8192 + 1 * (k1_off1 (grid1.coords ⟨m, hm⟩) (0 : Fin 2) + 1 * k.val) = 2048 * s.val + k.val; omega
    | ⟨1, _⟩ => show win1_1.index ⟨m, hm⟩ (1 : Fin 2) * 256 + 1 * (k1_off1 (grid1.coords ⟨m, hm⟩) (1 : Fin 2) + 1 * q.val) = q.val; omega
  show matA1 V c (((cfg1.win 0).blk ⟨m, hm⟩).view.emb (ix2 p k)) * matB1 V c (((cfg1.win 1).blk ⟨m, hm⟩).view.emb ((Rect.unit (s := S8192x256) (k1_off1 (grid1.coords ⟨m, hm⟩)) S2048x256.size (k1_off1_inb _)).idx (ix2 k q))) = _
  rw [hx, hw]

/-! ## From the blocks to the array -/

/-- What a point that writes back writes is its block of the scaled product: entry (p, q) of the stored block is the
    accumulator's entry, zero plus the four partial sums, which is the whole inner sum at row 1024·(t / 4) + p, times
    the column's entry in that row. -/
theorem flushed1_eq (c : Dev nD) (t : Fin cfg1.N) (hf : (cfg1.win 3).flush t = true) :
    (dat1 V c).flushed 3 t = ((cfg1.win 3).blk t).view.read (Elt Ideal)
      (Spec.scaleRowsR (Spec.colOf (V c main_call0_v1)) (Spec.mm (V c main_arg2) (V c main_call0_v0))) := by
  have h3 : t.val % 4 = 3 := (flush1_3 t).mp hf
  have hN : cfg1.N = 32 := N_1
  obtain ⟨tv, ht⟩ := t
  obtain ⟨n, rfl⟩ : ∃ n, tv = n + 3 := ⟨tv - 3, by dsimp only at h3; omega⟩
  have hn : n % 4 = 0 := by dsimp only at h3; omega
  show (cfg1.win 3).cut (grid1.coords ⟨n + 3, ht⟩) ((dat1 V c).after 3 ⟨n + 3, ht⟩) = _
  rw [after1_3]
  funext j
  obtain ⟨p, q, rfl⟩ : ∃ (p : Fin 1024) (q : Fin 256), j = ix2 p q := ⟨j 0, j 1, eq_ix2 j⟩
  have hp : p.val < 1024 := p.isLt
  obtain ⟨r, hr⟩ : ∃ r : Fin 8192, r.val = 1024 * (n / 4) + p.val := ⟨⟨1024 * (n / 4) + p.val, by omega⟩, rfl⟩
  obtain ⟨e00, e01, e10, e11, e20, e21, e30, e31, o0, o1⟩ := idx_facts1 ⟨n + 3, ht⟩
  simp only [] at e20 e21 e30 e31
  have he3 : ((cfg1.win 3).blk ⟨n + 3, ht⟩).view.emb (ix2 p q) = ix2 r q := by
    funext a; apply Fin.ext
    match a with
    | ⟨0, _⟩ => show win1_3.index ⟨n + 3, ht⟩ (0 : Fin 2) * 1024 + 1 * p.val = r.val; omega
    | ⟨1, _⟩ => show win1_3.index ⟨n + 3, ht⟩ (1 : Fin 2) * 256 + 1 * q.val = q.val; omega
  have he2 : ((cfg1.win 2).blk ⟨n + 3, ht⟩).view.emb (ix2 p (0 : Fin 1)) = ix2 r (0 : Fin 1) := by
    funext a; apply Fin.ext
    match a with
    | ⟨0, _⟩ => show win1_2.index ⟨n + 3, ht⟩ (0 : Fin 2) * 1024 + 1 * p.val = r.val; omega
    | ⟨1, _⟩ => show win1_2.index ⟨n + 3, ht⟩ (1 : Fin 2) * 1 + 1 * 0 = 0; omega
  show (outsAt1 V c (n + 3) ht).1 (ix2 p q) = Spec.scaleRowsR (Spec.colOf (colF1 V c)) (Spec.mm (matA1 V c) (matB1 V c)) (((cfg1.win 3).blk ⟨n + 3, ht⟩).view.emb (ix2 p q))
  rw [he3, out1_last V c n ht hn, acc1_four V c n ht hn, pay3_1_apply, pay2_1_apply, pay2_1_apply, pay2_1_apply, pay2_1_apply, pay1_1_apply]
  rw [step_sum1 V c n (by omega) p q r 0 (by omega) (by show (0 : ℕ) = _; omega),
    step_sum1 V c (n + 1) (by omega) p q r 1 (by omega) (by show (1 : ℕ) = _; omega),
    step_sum1 V c (n + 2) (by omega) p q r 2 (by omega) (by show (2 : ℕ) = _; omega),
    step_sum1 V c (n + 3) ht p q r 3 (by omega) (by show (3 : ℕ) = _; omega)]
  rw [Spec.mm_four_blocks (matA1 V c) (matB1 V c) Spec.blockIdx Spec.blockIdx_val r q]
  show _ * _ = Spec.mm (matA1 V c) (matB1 V c) (ix2 r q) * Spec.colOf (colF1 V c) (ix1 r)
  refine congrArg (_ * ·) ?_
  show colF1 V c (((cfg1.win 2).blk ⟨n + 3, ht⟩).view.emb (ix2 p (0 : Fin 1))) = colF1 V c (ix2 r (0 : Fin 1))
  rw [he2]

/-- An index of the output's array is in point `t`'s block iff each coordinate is in the block's range on its axis. -/
theorem mem_blk1 (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_call0_v2).slice (win1_3.rect t)).set ↔ _
  rw [View.set_slice_whole, Rect.mem_set_unit]
  exact Iff.rfl

/-- Every index of the output's array is in the block of a point that writes back: row `r` is in the block written at
    the last step of row block `r / 1024`. -/
theorem cover1 (i : S8192x256.Idx) : ∃ t : Fin cfg1.N, (cfg1.win 3).flush t = true ∧ i ∈ ((cfg1.win 3).blk t).view.set := by
  have hi0 : (i 0).val < 8192 := idx2_lt0 i
  have hi1 : (i 1).val < 256 := idx2_lt1 i
  have hN : cfg1.N = 32 := N_1
  refine ⟨⟨4 * ((i 0).val / 1024) + 3, by omega⟩, (flush1_3 _).mpr (by show (4 * ((i 0).val / 1024) + 3) % 4 = 3; omega), ?_⟩
  rw [mem_blk1]
  obtain ⟨e00, e01, e10, e11, e20, e21, e30, e31, o0, o1⟩ := idx_facts1 ⟨4 * ((i 0).val / 1024) + 3, by omega⟩
  simp only [] at e30 e31
  intro a
  match a with
  | ⟨0, _⟩ => show win1_3.index _ (0 : Fin 2) * 1024 ≤ (i 0).val ∧ (i 0).val < win1_3.index _ (0 : Fin 2) * 1024 + 1024; omega
  | ⟨1, _⟩ => show win1_3.index _ (1 : Fin 2) * 256 ≤ (i 1).val ∧ (i 1).val < win1_3.index _ (1 : Fin 2) * 256 + 256; omega

/-- After region 1 its output's array holds the product of the square matrix with the resident operand, each row scaled
    by its entry of the column. -/
theorem final1 (c : Dev nD) : (dat1 V c).arrAt 3 cfg1.N
    = Spec.scaleRowsR (Spec.colOf (V c main_call0_v1)) (Spec.mm (V c main_arg2) (V c main_call0_v0)) :=
  (dat1 V c).arrAt_eq_of_cover 3 _ (fun t hf => flushed1_eq V c t hf) cover1

end Cert.KernelIdeal.Hand

end
-- ==== Proof.KI.V2.lean ====
/-
  What the third region leaves in its output's array, on the extended reals: the projection of the rectified product,
  (relu (W · v1)) · w2, at every index. A row block of 1024 rows takes four grid points, one per block of 2048 inner
  positions: the accumulator is zeroed and receives the first block product, then the second, the third and the
  fourth, and at the fourth point the body rectifies it, multiplies it by the resident 256×64 matrix and stores the
  row block, which the pipeline writes back. Four block sums accumulated from zero are the whole inner sum, so the
  row block is the specification's at its rows; the eight row blocks tile the 8192 rows.
-/
import proofs.«173608_j68341519613982_2_alg».proof.Proof.KI.R2
import proofs.«173608_j68341519613982_2_alg».proof.Proof.KI.MatmulAt
import proofs.«173608_j68341519613982_2_alg».proof.Proof.Spec
import proofs.«173608_j68341519613982_2_alg».proof.Proof.SpecExt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-- The two zero offsets, as the constant function. -/
theorem zero_off_r2 : (![0, 0] : Fin 2 → Nat) = fun _ => 0 := funext fun a => by fin_cases a <;> rfl

/-! ## The payloads on the extended reals, entry by entry -/

/-- The zeroed accumulator. -/
theorem pay1_r2_apply (i : S1024x256.Idx) : k2_pay1 (F := Ideal) i = 0 := by
  unfold k2_pay1
  rw [shapeCast_self]
  show Ideal.ofBits .f32 0x00000000#32 = 0
  exact Ideal.ofBits_zero_f32

/-- One accumulation step: the accumulator's entry plus the block product's (changes of format are the identity on
    the extended reals). -/
theorem pay2_r2_apply (x : Vec Ideal S1024x2048 .f32) (y : Vec Ideal S2048x256 .bf16) (z : Vec Ideal S1024x256 .f32)
    (p : Fin 1024) (q : Fin 256) :
    k2_pay2 (F := Ideal) x y z (ix2 p q) = z (ix2 p q) + ∑ k : Fin 2048, x (ix2 p k) * y (ix2 k q) := by
  unfold k2_pay2
  rw [shapeCast_self]
  show z (ix2 p q) + matmul (F := Ideal) dot_S1024x2048_S2048x256_S1024x256_1_0_0_1_n_n none _ _ (constant (F := Ideal) S1024x256 .f32 0x00000000#32) (ix2 p q) = _
  rw [matmul_1024_2048_256_apply, shapeCast_self]
  rfl

/-- The last step's result: the rectified accumulator times the projection matrix. -/
theorem pay3_r2_apply (z : Vec Ideal S1024x256 .f32) (w : Vec Ideal S256x64 .bf16) (p : Fin 1024) (o : Fin 64) :
    k2_pay3 (F := Ideal) z w (ix2 p o)
      = ∑ k : Fin 256, max (z (ix2 p k)) (Ideal.ofBits .f32 0x00000000#32) * w (ix2 k o) := by
  unfold k2_pay3
  show matmul (F := Ideal) dot_S1024x256_S256x64_S1024x64_1_0_0_1_n_n none _ _ (constant (F := Ideal) S1024x64 .f32 0x00000000#32) (ix2 p o) = _
  rw [matmul_1024_256_64_apply, shapeCast_self]
  rfl

/-! ## What the runs' pieces leave, as payloads of the blocks -/

/-- The rows of the resident right matrix the body reads at a point: 2048 rows from the reduction step's offset. -/
abbrev rows_r2 (i : grid2.Coords) : Rect S8192x256 :=
  Rect.unit (s := S8192x256) (k2_off1 i) S2048x256.size (Gen.k2_off1_inb i)

section Pieces
variable {F : FTy → Type} [FloatOps F]

/-- Case A leaves in the accumulator the first block product added to zeros. -/
theorem piecesA_r2 (c : Dev nD) (i : grid2.Coords) (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : cond2_0 i) (hc1 : ¬cond2_1 i)
    (x0 : Vec F S1024x2048 .f32) (x1 : Vec F S8192x256 .bf16) (x2 : Vec F S256x64 .bf16) :
    View.canon (kernelRun2_A (F := F) c i arg2 harg2 arg3 harg3 arg4 harg4 arg5 harg5 arg6 harg6 hc0 hc1 x0 x1 x2).1
      = k2_pay2 x0 (View.ld x1 (rows_r2 i)) k2_pay1 := by
  show View.canon (⟨Rect.unit ![0, 0] S1024x256.size inb_S1024x256_S1024x256_0_0,
      k2_pay2 (View.readAt (Elt F) arg2.view (Rect.unit ![0, 0] S1024x2048.size inb_S1024x2048_S1024x2048_0_0).toLoadRect (harg2.unread x0))
        (View.readAt (Elt F) arg3.view (rows_r2 i).toLoadRect (harg3.unread x1))
        (kernelRun2_A.sl.v10 c arg6)⟩ :: kernelRun2_A.sl.HS0_1) = _
  rw [View.canon_cons_unit_zero zero_off_r2]
  rw [View.readAt_eq_ld, View.readAt_eq_ld, harg2.read_unread, harg3.read_unread, View.ld_unit_zero zero_off_r2]
  unfold kernelRun2_A.sl.v10 kernelRun2_A.sl.HS0_1
  rw [View.readCov_cons_toLoadRect]

/-- Case B leaves in the accumulator one more block product added to what it held. -/
theorem piecesB_r2 (c : Dev nD) (i : grid2.Coords) (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : ¬cond2_1 i)
    (x0 : Vec F S1024x2048 .f32) (x1 : Vec F S8192x256 .bf16) (x2 : Vec F S256x64 .bf16) (xs0 : Vec F S1024x256 .f32) :
    View.canon (kernelRun2_B (F := F) c i arg2 harg2 arg3 harg3 arg4 harg4 arg5 harg5 arg6 harg6 hc0 hc1 x0 x1 x2 xs0).1
      = k2_pay2 x0 (View.ld x1 (rows_r2 i)) xs0 := by
  show View.canon [(⟨Rect.unit ![0, 0] S1024x256.size inb_S1024x256_S1024x256_0_0,
      k2_pay2 (View.readAt (Elt F) arg2.view (Rect.unit ![0, 0] S1024x2048.size inb_S1024x2048_S1024x2048_0_0).toLoadRect (harg2.unread x0))
        (View.readAt (Elt F) arg3.view (rows_r2 i).toLoadRect (harg3.unread x1))
        (View.readAt (Elt F) arg6.view (Rect.unit ![0, 0] S1024x256.size inb_S1024x256_S1024x256_0_0).toLoadRect (harg6.unread xs0))⟩ :
      View.Piece (Elt F) S1024x256 .f32)] = _
  rw [View.canon_unit_zero zero_off_r2]
  rw [View.readAt_eq_ld, View.readAt_eq_ld, View.readAt_eq_ld, harg2.read_unread, harg3.read_unread, harg6.read_unread,
    View.ld_unit_zero zero_off_r2, View.ld_unit_zero zero_off_r2]

/-- Case C leaves in the accumulator the last block product added to what it held, -/
theorem piecesC_acc_r2 (c : Dev nD) (i : grid2.Coords) (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : cond2_1 i)
    (x0 : Vec F S1024x2048 .f32) (x1 : Vec F S8192x256 .bf16) (x2 : Vec F S256x64 .bf16) (xs0 : Vec F S1024x256 .f32) :
    View.canon (kernelRun2_C (F := F) c i arg2 harg2 arg3 harg3 arg4 harg4 arg5 harg5 arg6 harg6 hc0 hc1 x0 x1 x2 xs0).2.1
      = k2_pay2 x0 (View.ld x1 (rows_r2 i)) xs0 := by
  show View.canon (kernelRun2_C.sl.HS0_1 c i arg2 harg2 arg3 harg3 arg6 harg6 x0 x1 xs0) = _
  unfold kernelRun2_C.sl.HS0_1
  rw [View.canon_unit_zero zero_off_r2]
  rw [View.readAt_eq_ld, View.readAt_eq_ld, View.readAt_eq_ld, harg2.read_unread, harg3.read_unread, harg6.read_unread,
    View.ld_unit_zero zero_off_r2, View.ld_unit_zero zero_off_r2]

/-- and in the output block the projection of the rectified, finished accumulator. -/
theorem piecesC_out_r2 (c : Dev nD) (i : grid2.Coords) (arg2 : Memref sig .tc .vmem S1024x2048 .f32) (harg2 : arg2.IsWhole)
    (arg3 : Memref sig .tc .vmem S8192x256 .bf16) (harg3 : arg3.IsWhole)
    (arg4 : Memref sig .tc .vmem S256x64 .bf16) (harg4 : arg4.IsWhole)
    (arg5 : Memref sig .tc .vmem S1024x64 .bf16) (harg5 : arg5.IsWhole)
    (arg6 : Memref sig .tc .vmem S1024x256 .f32) (harg6 : arg6.IsWhole)
    (hc0 : ¬cond2_0 i) (hc1 : cond2_1 i)
    (x0 : Vec F S1024x2048 .f32) (x1 : Vec F S8192x256 .bf16) (x2 : Vec F S256x64 .bf16) (xs0 : Vec F S1024x256 .f32) :
    View.canon (kernelRun2_C (F := F) c i arg2 harg2 arg3 harg3 arg4 harg4 arg5 harg5 arg6 harg6 hc0 hc1 x0 x1 x2 xs0).1
      = k2_pay3 (k2_pay2 x0 (View.ld x1 (rows_r2 i)) xs0) x2 := by
  show View.canon [(⟨Rect.unit ![0, 0] S1024x64.size inb_S1024x64_S1024x64_0_0,
      k2_pay3 (kernelRun2_C.sl.v19 c i arg2 harg2 arg3 harg3 arg6 harg6 x0 x1 xs0)
        (View.readAt (Elt F) arg4.view (Rect.unit ![0, 0] S256x64.size inb_S256x64_S256x64_0_0).toLoadRect (harg4.unread x2))⟩ :
      View.Piece (Elt F) S1024x64 .bf16)] = _
  rw [View.canon_unit_zero zero_off_r2]
  unfold kernelRun2_C.sl.v19 kernelRun2_C.sl.HS0_1
  rw [View.readCov_cons_toLoadRect]
  rw [View.readAt_eq_ld, View.readAt_eq_ld, View.readAt_eq_ld, View.readAt_eq_ld, harg2.read_unread, harg3.read_unread,
    harg4.read_unread, harg6.read_unread,
    View.ld_unit_zero zero_off_r2, View.ld_unit_zero zero_off_r2, View.ld_unit_zero zero_off_r2]

end Pieces

/-! ## The accumulator and the output block at a point, over the point's blocks -/

variable (V : TcVal Ideal)

/-- The left matrix's block, the rows of the resident right matrix the point's step reads, and the projection matrix. -/
abbrev A_r2 (c : Dev nD) (t : Fin cfg2.N) : Vec Ideal S1024x2048 .f32 := iblk2 V c 0 t
abbrev B_r2 (c : Dev nD) (t : Fin cfg2.N) : Vec Ideal S2048x256 .bf16 :=
  View.ld (iblk2 V c 1 t : Vec Ideal S8192x256 .bf16) (rows_r2 (grid2.coords t))
abbrev W_r2 (c : Dev nD) (t : Fin cfg2.N) : Vec Ideal S256x64 .bf16 := iblk2 V c 2 t

theorem accA2_eq (c : Dev nD) (t : Fin cfg2.N) (h0 : t.val % 4 = 0) :
    accA2 V c t h0 = k2_pay2 (A_r2 V c t) (B_r2 V c t) (k2_pay1 (F := Ideal)) := by
  unfold accA2
  rw [View.read_writes_junk_eq_canon]
  exact piecesA_r2 c ..

theorem accB2_eq (c : Dev nD) (t : Fin cfg2.N) (h0 : ¬ t.val % 4 = 0) (h1 : ¬ t.val % 4 = 3) (xs : Vec Ideal S1024x256 .f32) :
    accB2 V c t h0 h1 xs = k2_pay2 (A_r2 V c t) (B_r2 V c t) xs := by
  unfold accB2
  rw [View.read_writes_junk_eq_canon]
  exact piecesB_r2 c ..

theorem accC2_eq (c : Dev nD) (t : Fin cfg2.N) (h0 : ¬ t.val % 4 = 0) (h1 : t.val % 4 = 3) (xs : Vec Ideal S1024x256 .f32) :
    accC2 V c t h0 h1 xs = k2_pay2 (A_r2 V c t) (B_r2 V c t) xs := by
  unfold accC2
  rw [View.read_writes_junk_eq_canon]
  exact piecesC_acc_r2 c ..

theorem outC2_eq (c : Dev nD) (t : Fin cfg2.N) (h0 : ¬ t.val % 4 = 0) (h1 : t.val % 4 = 3) (xs : Vec Ideal S1024x256 .f32) :
    outC2 V c t h0 h1 xs = k2_pay3 (k2_pay2 (A_r2 V c t) (B_r2 V c t) xs) (W_r2 V c t) := by
  unfold outC2
  rw [View.read_writes_junk_eq_canon]
  exact piecesC_out_r2 c ..

/-- The point before a point (the first point's is itself). -/
abbrev prevPt_r2 (t : Fin cfg2.N) : Fin cfg2.N := ⟨t.val - 1, Nat.lt_of_le_of_lt (Nat.sub_le _ _) t.isLt⟩

/-- At the last reduction step of a row block the output block is the projection of the rectified sum, from zero, of
    the four block products of the row block's four points. -/
theorem outs_flush_r2 (c : Dev nD) (t : Fin cfg2.N) (h3 : t.val % 4 = 3) :
    (outsAt2 V c t.val t.isLt).1
      = k2_pay3 (k2_pay2 (A_r2 V c t) (B_r2 V c t)
          (k2_pay2 (A_r2 V c (prevPt_r2 t)) (B_r2 V c (prevPt_r2 t))
            (k2_pay2 (A_r2 V c (prevPt_r2 (prevPt_r2 t))) (B_r2 V c (prevPt_r2 (prevPt_r2 t)))
              (k2_pay2 (A_r2 V c (prevPt_r2 (prevPt_r2 (prevPt_r2 t)))) (B_r2 V c (prevPt_r2 (prevPt_r2 (prevPt_r2 t))))
                (k2_pay1 (F := Ideal))))))
          (W_r2 V c t) := by
  have h3a : ¬ t.val % 4 = 0 := by omega
  have h2a : ¬ (prevPt_r2 t).val % 4 = 0 := by show ¬ (t.val - 1) % 4 = 0; omega
  have h2b : ¬ (prevPt_r2 t).val % 4 = 3 := by show ¬ (t.val - 1) % 4 = 3; omega
  have h1a : ¬ (prevPt_r2 (prevPt_r2 t)).val % 4 = 0 := by show ¬ (t.val - 1 - 1) % 4 = 0; omega
  have h1b : ¬ (prevPt_r2 (prevPt_r2 t)).val % 4 = 3 := by show ¬ (t.val - 1 - 1) % 4 = 3; omega
  have h0a : (prevPt_r2 (prevPt_r2 (prevPt_r2 t))).val % 4 = 0 := by show (t.val - 1 - 1 - 1) % 4 = 0; omega
  have e3 := outsAt2_C V c t h3a h3
  have e2 := outsAt2_B V c (prevPt_r2 t) h2a h2b
  have e1 := outsAt2_B V c (prevPt_r2 (prevPt_r2 t)) h1a h1b
  have e0 := outsAt2_A V c (prevPt_r2 (prevPt_r2 (prevPt_r2 t))) h0a
  rw [e3]
  dsimp only
  rw [e2]
  dsimp only
  rw [e1]
  dsimp only
  rw [e0]
  dsimp only
  rw [outC2_eq, accB2_eq, accB2_eq, accA2_eq]

/-! ## From the blocks to the array -/

/-- The printed index maps and the body's row offset over the 32 points: point `t` is row block `t / 4` at
    reduction step `t % 4`; the resident operands' block indices are zero. -/
theorem idx_facts_r2 : ∀ t : Fin cfg2.N,
    win2_0.index t (0 : Fin 2) = t.val / 4 ∧ win2_0.index t (1 : Fin 2) = t.val % 4
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0
    ∧ k2_off1 (grid2.coords t) (0 : Fin 2) = 2048 * (t.val % 4) ∧ k2_off1 (grid2.coords t) (1 : Fin 2) = 0 :=
  (by decide +kernel : ∀ t : Fin grid2.N, _)

/-- An entry of the left matrix's block at a point is the matrix's entry in the row block's row and the reduction
    step's column. -/
theorem A_r2_apply (c : Dev nD) (t : Fin cfg2.N) (p : Fin 1024) (j : Fin 2048) (r : Fin 8192) (s : Fin 8192)
    (hr : r.val = 1024 * (t.val / 4) + p.val) (hs : s.val = 2048 * (t.val % 4) + j.val) :
    A_r2 V c t (ix2 p j) = V c main_arg1 (ix2 r s) := by
  obtain ⟨e0, e1, -⟩ := idx_facts_r2 t
  show V c main_arg1 (((cfg2.win 0).blk t).view.emb (ix2 p j)) = _
  congr 1
  funext a; apply Fin.ext
  match a with
  | ⟨0, _⟩ => show win2_0.index t (0 : Fin 2) * 1024 + 1 * p.val = r.val; omega
  | ⟨1, _⟩ => show win2_0.index t (1 : Fin 2) * 2048 + 1 * j.val = s.val; omega

/-- An entry of the rows the step reads of the resident right matrix is the matrix's entry in the step's row. -/
theorem B_r2_apply (c : Dev nD) (t : Fin cfg2.N) (j : Fin 2048) (k : Fin 256) (s : Fin 8192)
    (hs : s.val = 2048 * (t.val % 4) + j.val) :
    B_r2 V c t (ix2 j k) = V c main_call0_v2 (ix2 s k) := by
  obtain ⟨-, -, e2, e3, -, -, -, -, e8, e9⟩ := idx_facts_r2 t
  show V c main_call0_v2 (((cfg2.win 1).blk t).view.emb ((rows_r2 (grid2.coords t)).idx (ix2 j k))) = _
  congr 1
  funext a; apply Fin.ext
  match a with
  | ⟨0, _⟩ => show win2_1.index t (0 : Fin 2) * 8192 + 1 * (k2_off1 (grid2.coords t) (0 : Fin 2) + 1 * j.val) = s.val; omega
  | ⟨1, _⟩ => show win2_1.index t (1 : Fin 2) * 256 + 1 * (k2_off1 (grid2.coords t) (1 : Fin 2) + 1 * k.val) = k.val; omega

/-- The projection matrix's block is the matrix. -/
theorem W_r2_apply (c : Dev nD) (t : Fin cfg2.N) (k : Fin 256) (o : Fin 64) :
    W_r2 V c t (ix2 k o) = V c main_call0_v3 (ix2 k o) := by
  obtain ⟨-, -, -, -, e4, e5, -⟩ := idx_facts_r2 t
  show V c main_call0_v3 (((cfg2.win 2).blk t).view.emb (ix2 k o)) = _
  congr 1
  funext a; apply Fin.ext
  match a with
  | ⟨0, _⟩ => show win2_2.index t (0 : Fin 2) * 256 + 1 * k.val = k.val; omega
  | ⟨1, _⟩ => show win2_2.index t (1 : Fin 2) * 64 + 1 * o.val = o.val; omega

/-- An entry of the output's block at a point sits in the array in the row block's row. -/
theorem emb_out_r2 (t : Fin cfg2.N) (p : Fin 1024) (o : Fin 64) (r : Fin 8192) (hr : r.val = 1024 * (t.val / 4) + p.val) :
    ((cfg2.win 3).blk t).view.emb (ix2 p o) = ix2 r o := by
  obtain ⟨-, -, -, -, -, -, e6, e7, -⟩ := idx_facts_r2 t
  funext a; apply Fin.ext
  match a with
  | ⟨0, _⟩ => show win2_3.index t (0 : Fin 2) * 1024 + 1 * p.val = r.val; omega
  | ⟨1, _⟩ => show win2_3.index t (1 : Fin 2) * 64 + 1 * o.val = o.val; omega

/-- One entry of a finished row block, over the whole matrices: the four block products from zero are the whole
    inner sum, the rectifier and the projection are the specification's. -/
theorem block_r2 (MA : Spec.Mat 8192 8192) (MB : Spec.Mat 8192 256) (MW : Spec.Mat 256 64)
    (A0 A1 A2 A3 : Vec Ideal S1024x2048 .f32) (B0 B1 B2 B3 : Vec Ideal S2048x256 .bf16) (W : Vec Ideal S256x64 .bf16)
    (r : Fin 8192) (p : Fin 1024) (o : Fin 64)
    (hA0 : ∀ j : Fin 2048, A0 (ix2 p j) = MA (ix2 r (Spec.blockIdx 0 j)))
    (hA1 : ∀ j : Fin 2048, A1 (ix2 p j) = MA (ix2 r (Spec.blockIdx 1 j)))
    (hA2 : ∀ j : Fin 2048, A2 (ix2 p j) = MA (ix2 r (Spec.blockIdx 2 j)))
    (hA3 : ∀ j : Fin 2048, A3 (ix2 p j) = MA (ix2 r (Spec.blockIdx 3 j)))
    (hB0 : ∀ (j : Fin 2048) (k : Fin 256), B0 (ix2 j k) = MB (ix2 (Spec.blockIdx 0 j) k))
    (hB1 : ∀ (j : Fin 2048) (k : Fin 256), B1 (ix2 j k) = MB (ix2 (Spec.blockIdx 1 j) k))
    (hB2 : ∀ (j : Fin 2048) (k : Fin 256), B2 (ix2 j k) = MB (ix2 (Spec.blockIdx 2 j) k))
    (hB3 : ∀ (j : Fin 2048) (k : Fin 256), B3 (ix2 j k) = MB (ix2 (Spec.blockIdx 3 j) k))
    (hW : ∀ k : Fin 256, W (ix2 k o) = MW (ix2 k o)) :
    k2_pay3 (F := Ideal) (k2_pay2 A3 B3 (k2_pay2 A2 B2 (k2_pay2 A1 B1 (k2_pay2 A0 B0 (k2_pay1 (F := Ideal)))))) W (ix2 p o)
      = Spec.mm (Spec.relu (Spec.mm MA MB)) MW (ix2 r o) := by
  rw [pay3_r2_apply]
  rw [show Spec.mm (Spec.relu (Spec.mm MA MB)) MW (ix2 r o)
      = ∑ k : Fin 256, max (Spec.mm MA MB (ix2 r k)) (Ideal.ofBits .f32 0x00000000#32) * MW (ix2 k o) from rfl]
  refine Finset.sum_congr rfl fun k _ => ?_
  rw [hW k, pay2_r2_apply, pay2_r2_apply, pay2_r2_apply, pay2_r2_apply, pay1_r2_apply,
    ← Spec.mm_four_blocks MA MB Spec.blockIdx Spec.blockIdx_val r k]
  simp only [hA0, hA1, hA2, hA3, hB0, hB1, hB2, hB3]

/-- What the region's result is, as one function of the entry arrays. -/
abbrev G_r2 (c : Dev nD) : Spec.Mat 8192 64 :=
  Spec.mm (Spec.relu (Spec.mm (V c main_arg1) (V c main_call0_v2))) (V c main_call0_v3)

/-- What a point that writes back writes is its block of the whole result. -/
theorem flushed_r2_eq (c : Dev nD) (t : Fin cfg2.N) (hf : (cfg2.win 3).flush t = true) :
    (dat2 V c).flushed 3 t = ((cfg2.win 3).blk t).view.read (Elt Ideal) (G_r2 V c) := by
  have h3 : t.val % 4 = 3 := (flush2_3 t).mp hf
  have hN : t.val < 32 := lt_of_lt_of_eq t.isLt (show cfg2.N = 32 from N_2)
  show (cfg2.win 3).cut (grid2.coords t) ((dat2 V c).after 3 t) = _
  rw [after2_3, outs_flush_r2 V c t h3]
  funext j
  obtain ⟨p, o, rfl⟩ : ∃ (p : Fin 1024) (o : Fin 64), j = ix2 p o := ⟨j 0, j 1, eq_ix2 j⟩
  have hp := p.isLt
  show k2_pay3 (F := Ideal) _ _ (ix2 p o) = G_r2 V c (((cfg2.win 3).blk t).view.emb (ix2 p o))
  rw [emb_out_r2 t p o ⟨1024 * (t.val / 4) + p.val, by omega⟩ rfl]
  refine block_r2 (V c main_arg1) (V c main_call0_v2) (V c main_call0_v3) _ _ _ _ _ _ _ _ _ ⟨1024 * (t.val / 4) + p.val, by omega⟩ p o ?_ ?_ ?_ ?_ ?_ ?_ ?_ ?_ ?_
  · intro j; exact A_r2_apply V c _ p j _ _ (by show 1024 * (t.val / 4) + p.val = 1024 * ((t.val - 1 - 1 - 1) / 4) + p.val; omega) (by show 2048 * 0 + j.val = 2048 * ((t.val - 1 - 1 - 1) % 4) + j.val; omega)
  · intro j; exact A_r2_apply V c _ p j _ _ (by show 1024 * (t.val / 4) + p.val = 1024 * ((t.val - 1 - 1) / 4) + p.val; omega) (by show 2048 * 1 + j.val = 2048 * ((t.val - 1 - 1) % 4) + j.val; omega)
  · intro j; exact A_r2_apply V c _ p j _ _ (by show 1024 * (t.val / 4) + p.val = 1024 * ((t.val - 1) / 4) + p.val; omega) (by show 2048 * 2 + j.val = 2048 * ((t.val - 1) % 4) + j.val; omega)
  · intro j; exact A_r2_apply V c _ p j _ _ (by show 1024 * (t.val / 4) + p.val = 1024 * (t.val / 4) + p.val; rfl) (by show 2048 * 3 + j.val = 2048 * (t.val % 4) + j.val; omega)
  · intro j k; exact B_r2_apply V c _ j k _ (by show 2048 * 0 + j.val = 2048 * ((t.val - 1 - 1 - 1) % 4) + j.val; omega)
  · intro j k; exact B_r2_apply V c _ j k _ (by show 2048 * 1 + j.val = 2048 * ((t.val - 1 - 1) % 4) + j.val; omega)
  · intro j k; exact B_r2_apply V c _ j k _ (by show 2048 * 2 + j.val = 2048 * ((t.val - 1) % 4) + j.val; omega)
  · intro j k; exact B_r2_apply V c _ j k _ (by show 2048 * 3 + j.val = 2048 * (t.val % 4) + j.val; omega)
  · intro k; exact W_r2_apply V c _ k o

/-- An index of the output's array is in a point's block iff each coordinate is in the block's range on its axis. -/
theorem mem_blk_r2 (t : Fin cfg2.N) (i : S8192x64.Idx) :
    i ∈ ((cfg2.win 3).blk t).view.set ↔ ∀ a : Fin 2, win2_3.index t a * S1024x64.size a ≤ (i a).val ∧ (i a).val < win2_3.index t a * S1024x64.size a + S1024x64.size a := by
  show i ∈ ((View.whole main_call0_v4).slice (win2_3.rect t)).set ↔ _
  rw [View.set_slice_whole, Rect.mem_set_unit]
  exact Iff.rfl

/-- Every index of the output's array is in the block some point writes back: row `r` is in row block `r / 1024`,
    written back at that block's last reduction step. -/
theorem cover_r2 (i : S8192x64.Idx) : ∃ t : Fin cfg2.N, (cfg2.win 3).flush t = true ∧ i ∈ ((cfg2.win 3).blk t).view.set := by
  have hi0 : (i 0).val < 8192 := idx2_lt0 i
  have hi1 : (i 1).val < 64 := idx2_lt1 i
  have hN : cfg2.N = 32 := N_2
  refine ⟨⟨4 * ((i 0).val / 1024) + 3, by omega⟩, (flush2_3 _).mpr (by show (4 * ((i 0).val / 1024) + 3) % 4 = 3; omega), ?_⟩
  rw [mem_blk_r2]
  obtain ⟨-, -, -, -, -, -, e6, e7, -⟩ := idx_facts_r2 ⟨4 * ((i 0).val / 1024) + 3, by omega⟩
  intro a
  match a with
  | ⟨0, _⟩ =>
    show win2_3.index _ (0 : Fin 2) * 1024 ≤ (i 0).val ∧ (i 0).val < win2_3.index _ (0 : Fin 2) * 1024 + 1024
    simp only [] at e6; omega
  | ⟨1, _⟩ =>
    show win2_3.index _ (1 : Fin 2) * 64 ≤ (i 1).val ∧ (i 1).val < win2_3.index _ (1 : Fin 2) * 64 + 64
    omega

/-- After the region its output's array holds the projection of the rectified product, at every index. -/
theorem final2 (c : Dev nD) :
    (dat2 V c).arrAt 3 cfg2.N = Spec.mm (Spec.relu (Spec.mm (V c main_arg1) (V c main_call0_v2))) (V c main_call0_v3) :=
  (dat2 V c).arrAt_eq_of_cover 3 (G_r2 V c) (fun t hf => flushed_r2_eq V c t hf) cover_r2

end Cert.KernelIdeal.Hand

end
-- ==== Proof.KI.V3.lean ====
/-
  What region 3 leaves in its output's array, on the extended reals: the rows of the product of the square matrix with
  the resident operand, each scaled by its entry of the column.

  At the four points 4r, 4r + 1, 4r + 2, 4r + 3 the body adds, into an accumulator zeroed at the first of them, the
  product of the block (r, s) of the square matrix (rows 1024r ..., columns 2048s ...) with rows 2048s ... of the resident
  operand, s = 0, 1, 2, 3; at the last it multiplies row p of the accumulator by entry p of block r of the column and
  stores the block, which the pipeline writes back over rows 1024r ... of the output. Entry (p, q) of the accumulator is
  then zero plus the four partial sums over the inner positions, which is the whole inner sum; the eight written-back
  blocks tile the 8192 rows, so the array ends holding the scaled product at every index.
-/
import proofs.«173608_j68341519613982_2_alg».proof.Proof.KI.R3
import proofs.«173608_j68341519613982_2_alg».proof.Proof.KI.MatmulAt
import proofs.«173608_j68341519613982_2_alg».proof.Proof.Spec
import proofs.«173608_j68341519613982_2_alg».proof.Proof.SpecExt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open scoped BigOperators

/-! ## What each case leaves, as values -/

section Cases
variable {F : FTy → Type} [FloatOps F]

theorem zero_off3 : (![0, 0] : Fin 2 → Nat) = fun _ => 0 := funext fun a => by fin_cases a <;> rfl

/-- The rows of the resident operand the step at coordinates `i` multiplies by: the 2048 rows from row 2048·(step). -/
abbrev rows3 (i : grid3.Coords) (x1 : Vec F S8192x64 .bf16) : Vec F S2048x64 .bf16 :=
  View.ld x1 (Rect.unit (s := S8192x64) (k3_off1 i) S2048x64.size (k3_off1_inb i))

/-- Case A leaves in the accumulator the zero block plus the first partial product: the zero fill is read back through
    the rectangle it was stored through. -/
theorem sout3_A_0_eq (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : cond3_0 i) (hc1 : ¬cond3_1 i)
    (x0 : Vec F S1024x2048 .f32) (x1 : Vec F S8192x64 .bf16) (x2 : Vec F S1024x1 .f32) :
    sout3_A_0 c i arg2 harg2 arg3 harg3 arg4 harg4 arg5 harg5 arg6 harg6 hc0 hc1 x0 x1 x2 = k3_pay2 x0 (rows3 i x1) (k3_pay1 (F := F)) := by
  unfold sout3_A_0
  rw [View.read_writes_eq_canon _ _ _ (scover3_A_0 c i arg2 harg2 arg3 harg3 arg4 harg4 arg5 harg5 arg6 harg6 hc0 hc1 x0 x1 x2)]
  unfold run3_A
  dsimp only
  try sl_unfold_run_names
  rw [View.canon_cons_unit_zero (S := S1024x64) zero_off3, View.readCov_unit_zero (S := S1024x64) _ zero_off3]
  simp only [View.readAt_eq_ld, harg2.read_unread, harg3.read_unread, harg4.read_unread, harg6.read_unread, View.ld_unit_zero (S := S1024x2048) zero_off3, View.ld_unit_zero (S := S1024x64) zero_off3, View.ld_unit_zero (S := S1024x1) zero_off3]

/-- Case B leaves in the accumulator what it held plus this step's partial product. -/
theorem sout3_B_0_eq (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : ¬cond3_1 i)
    (x0 : Vec F S1024x2048 .f32) (x1 : Vec F S8192x64 .bf16) (x2 : Vec F S1024x1 .f32) (xs0 : Vec F S1024x64 .f32) :
    sout3_B_0 c i arg2 harg2 arg3 harg3 arg4 harg4 arg5 harg5 arg6 harg6 hc0 hc1 x0 x1 x2 xs0 = k3_pay2 x0 (rows3 i x1) xs0 := by
  unfold sout3_B_0
  rw [View.read_writes_eq_canon _ _ _ (scover3_B_0 c i arg2 harg2 arg3 harg3 arg4 harg4 arg5 harg5 arg6 harg6 hc0 hc1 x0 x1 x2 xs0)]
  unfold run3_B
  dsimp only
  try sl_unfold_run_names
  rw [View.canon_unit_zero (S := S1024x64) zero_off3]
  simp only [View.readAt_eq_ld, harg2.read_unread, harg3.read_unread, harg4.read_unread, harg6.read_unread, View.ld_unit_zero (S := S1024x2048) zero_off3, View.ld_unit_zero (S := S1024x64) zero_off3, View.ld_unit_zero (S := S1024x1) zero_off3]

/-- So does case C, -/
theorem sout3_C_0_eq (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) :
    sout3_C_0 c i arg2 harg2 arg3 harg3 arg4 harg4 arg5 harg5 arg6 harg6 hc0 hc1 x0 x1 x2 xs0 = k3_pay2 x0 (rows3 i x1) xs0 := by
  unfold sout3_C_0
  rw [View.read_writes_eq_canon _ _ _ (scover3_C_0 c i arg2 harg2 arg3 harg3 arg4 harg4 arg5 harg5 arg6 harg6 hc0 hc1 x0 x1 x2 xs0)]
  unfold run3_C
  dsimp only
  try sl_unfold_run_names
  rw [View.canon_unit_zero (S := S1024x64) zero_off3]
  simp only [View.readAt_eq_ld, harg2.read_unread, harg3.read_unread, harg4.read_unread, harg6.read_unread, View.ld_unit_zero (S := S1024x2048) zero_off3, View.ld_unit_zero (S := S1024x64) zero_off3, View.ld_unit_zero (S := S1024x1) zero_off3]

/-- and it stores into the output block that accumulator scaled by the column and rounded. -/
theorem out3_C_3_eq (c : Dev nD) (i : grid3.Coords) (arg2 : Memref sig .tc .vmem S1024x2048 .f32) (harg2 : arg2.IsWhole) (arg3 : Memref sig .tc .vmem S8192x64 .bf16) (harg3 : arg3.IsWhole) (arg4 : Memref sig .tc .vmem S1024x1 .f32) (harg4 : arg4.IsWhole) (arg5 : Memref sig .tc .vmem S1024x64 .bf16) (harg5 : arg5.IsWhole) (arg6 : Memref sig .tc .vmem S1024x64 .f32) (harg6 : arg6.IsWhole) (hc0 : ¬cond3_0 i) (hc1 : cond3_1 i)
    (x0 : Vec F S1024x2048 .f32) (x1 : Vec F S8192x64 .bf16) (x2 : Vec F S1024x1 .f32) (xs0 : Vec F S1024x64 .f32) :
    out3_C_3 c i arg2 harg2 arg3 harg3 arg4 harg4 arg5 harg5 arg6 harg6 hc0 hc1 x0 x1 x2 xs0 = k3_pay3 (k3_pay2 x0 (rows3 i x1) xs0) x2 := by
  unfold out3_C_3
  rw [View.read_writes_eq_canon _ _ _ (cover3_C_3 c i arg2 harg2 arg3 harg3 arg4 harg4 arg5 harg5 arg6 harg6 hc0 hc1 x0 x1 x2 xs0)]
  unfold run3_C
  dsimp only
  try sl_unfold_run_names
  rw [View.canon_unit_zero (S := S1024x64) zero_off3, View.readCov_unit_zero (S := S1024x64) _ zero_off3]
  simp only [View.readAt_eq_ld, harg2.read_unread, harg3.read_unread, harg4.read_unread, harg6.read_unread, View.ld_unit_zero (S := S1024x2048) zero_off3, View.ld_unit_zero (S := S1024x64) zero_off3, View.ld_unit_zero (S := S1024x1) zero_off3]

end Cases

/-! ## The payloads at an index, on the extended reals -/

/-- The zero fill is zero everywhere. -/
theorem pay1_3_apply (p : Fin 1024) (q : Fin 64) : k3_pay1 (F := Ideal) (ix2 p q) = 0 := by
  unfold k3_pay1
  rw [shapeCast_self]
  exact Ideal.ofBits_zero_f32

/-- One step of the accumulation at row `p` and column `q`: what the accumulator held plus the sum over the 2048 inner
    positions of the step (the changes of format are the identity on the extended reals). -/
theorem pay2_3_apply (x0 : Vec Ideal S1024x2048 .f32) (xb : Vec Ideal S2048x64 .bf16) (acc : Vec Ideal S1024x64 .f32)
    (p : Fin 1024) (q : Fin 64) :
    k3_pay2 (F := Ideal) x0 xb acc (ix2 p q) = acc (ix2 p q) + ∑ k : Fin 2048, x0 (ix2 p k) * xb (ix2 k q) := by
  unfold k3_pay2
  rw [shapeCast_self, shapeCast_self, addf_apply, matmul_1024_2048_64_apply]
  rfl

/-- The stored block at row `p` and column `q`: the accumulator's entry times the column's entry in row `p`. -/
theorem pay3_3_apply (acc : Vec Ideal S1024x64 .f32) (col : Vec Ideal S1024x1 .f32) (p : Fin 1024) (q : Fin 64) :
    k3_pay3 (F := Ideal) acc col (ix2 p q) = acc (ix2 p q) * col (ix2 p (0 : Fin 1)) := by
  unfold k3_pay3
  rw [shapeCast_self, truncf_apply, mulf_apply]
  refine congrArg (acc (ix2 p q) * ·) ?_
  exact broadcastTo_apply col _ (ix2 p q) (ix2 p (0 : Fin 1)) (fun a => by
    match a with
    | ⟨0, _⟩ => rfl
    | ⟨1, _⟩ => rfl)

/-! ## The accumulator after the four steps of a row block -/

variable (V : TcVal Ideal)

/-- The three operand arrays as the region finds them, read as matrices of extended reals. -/
abbrev matA3 (c : Dev nD) : Spec.Mat 8192 8192 := V c main_arg2
abbrev matB3 (c : Dev nD) : Spec.Mat 8192 64 := V c main_call0_v4
abbrev colF3 (c : Dev nD) : Spec.Mat 8192 1 := V c main_call0_v5

/-- The block of the square matrix the step at position `n` reads, and the rows of the resident operand it multiplies by. -/
abbrev blkA3 (c : Dev nD) (n : ℕ) (h : n < cfg3.N) : Vec Ideal S1024x2048 .f32 := iblk3 V c 0 ⟨n, h⟩
abbrev blkB3 (c : Dev nD) (n : ℕ) (h : n < cfg3.N) : Vec Ideal S2048x64 .bf16 := rows3 (grid3.coords ⟨n, h⟩) (iblk3 V c 1 ⟨n, h⟩)

/-- At the first step of a row block the accumulator ends at the zero block plus the step's product; -/
theorem acc3_reset (c : Dev nD) (n : ℕ) (h : n < cfg3.N) (hn : n % 4 = 0) :
    (outsAt3 V c n h).2 = k3_pay2 (blkA3 V c n h) (blkB3 V c n h) (k3_pay1 (F := Ideal)) :=
  by
  have hA := outsAt3_A V c ⟨n, h⟩ hn (fun h3 => by dsimp only at h3; omega)
  dsimp only at hA
  rw [hA]
  dsimp only
  exact sout3_A_0_eq (F := Ideal) ..

/-- at every other step, at what the step before left plus the step's product. -/
theorem acc3_step (c : Dev nD) (n : ℕ) (h : n + 1 < cfg3.N) (hn : ¬(n + 1) % 4 = 0) :
    (outsAt3 V c (n + 1) h).2 = k3_pay2 (blkA3 V c (n + 1) h) (blkB3 V c (n + 1) h) (outsAt3 V c n (Nat.lt_of_succ_lt h)).2 := by
  by_cases h1 : (n + 1) % 4 = 3
  · have hC := outsAt3_C V c ⟨n + 1, h⟩ hn h1
    dsimp only at hC
    rw [hC]
    dsimp only
    exact sout3_C_0_eq (F := Ideal) ..
  · have hB := outsAt3_B V c ⟨n + 1, h⟩ hn h1
    dsimp only at hB
    rw [hB]
    dsimp only
    exact sout3_B_0_eq (F := Ideal) ..

/-- So after the fourth step it is the zero block with the four products added in order. -/
theorem acc3_four (c : Dev nD) (n : ℕ) (h : n + 3 < cfg3.N) (hn : n % 4 = 0) :
    (outsAt3 V c (n + 3) h).2
      = k3_pay2 (blkA3 V c (n + 3) h) (blkB3 V c (n + 3) h)
          (k3_pay2 (blkA3 V c (n + 2) (by omega)) (blkB3 V c (n + 2) (by omega))
            (k3_pay2 (blkA3 V c (n + 1) (by omega)) (blkB3 V c (n + 1) (by omega))
              (k3_pay2 (blkA3 V c n (by omega)) (blkB3 V c n (by omega)) (k3_pay1 (F := Ideal))))) :=
  (acc3_step V c (n + 2) h (by omega)).trans (congrArg _ ((acc3_step V c (n + 1) (by omega) (by omega)).trans
    (congrArg _ ((acc3_step V c n (by omega) (by omega)).trans (congrArg _ (acc3_reset V c n (by omega) hn))))))

/-- And the block stored at the fourth step is that accumulator scaled by the column's block. -/
theorem out3_last (c : Dev nD) (n : ℕ) (h : n + 3 < cfg3.N) (hn : n % 4 = 0) :
    (outsAt3 V c (n + 3) h).1 = k3_pay3 (outsAt3 V c (n + 3) h).2 (iblk3 V c 2 ⟨n + 3, h⟩) := by
  have hC := outsAt3_C V c ⟨n + 3, h⟩ (fun h0 => by dsimp only at h0; omega) (by dsimp only; omega)
  dsimp only at hC
  rw [hC]
  dsimp only
  rw [out3_C_3_eq, sout3_C_0_eq]

/-! ## Where the blocks sit in their arrays -/

/-- The printed index maps over the 32 points: at point `t` the row-block index of the square matrix's window, of the
    column's and of the output's is t / 4, the square matrix's column-block index is the step t % 4, every other block
    index is zero, and the rows of the resident operand are read from row 2048·(t % 4). -/
theorem idx_facts3 : ∀ t : Fin cfg3.N,
    win3_0.index t (0 : Fin 2) = t.val / 4 ∧ win3_0.index t (1 : Fin 2) = t.val % 4
    ∧ win3_1.index t (0 : Fin 2) = 0 ∧ win3_1.index t (1 : Fin 2) = 0
    ∧ win3_2.index t (0 : Fin 2) = t.val / 4 ∧ win3_2.index t (1 : Fin 2) = 0
    ∧ win3_3.index t (0 : Fin 2) = t.val / 4 ∧ win3_3.index t (1 : Fin 2) = 0
    ∧ k3_off1 (grid3.coords t) (0 : Fin 2) = 2048 * (t.val % 4) ∧ k3_off1 (grid3.coords t) (1 : Fin 2) = 0 :=
  (by decide +kernel : ∀ t : Fin grid3.N, _)

/-- One step's partial sum, read off the arrays: over the inner positions of block `s` = (the step) of the inner range,
    the square matrix's entry in row `r` times the resident operand's entry in column `q`. -/
theorem step_sum3 (c : Dev nD) (m : ℕ) (hm : m < cfg3.N) (p : Fin 1024) (q : Fin 64) (r : Fin 8192) (s : Fin 4)
    (hr : r.val = 1024 * (m / 4) + p.val) (hs : s.val = m % 4) :
    ∑ k : Fin 2048, blkA3 V c m hm (ix2 p k) * blkB3 V c m hm (ix2 k q)
      = ∑ k : Fin 2048, matA3 V c (ix2 r (Spec.blockIdx s k)) * matB3 V c (ix2 (Spec.blockIdx s k) q) := by
  refine Finset.sum_congr rfl fun k _ => ?_
  obtain ⟨e00, e01, e10, e11, e20, e21, e30, e31, o0, o1⟩ := idx_facts3 ⟨m, hm⟩
  simp only [] at e00 e01 e10 e11 o0 o1
  have hx : ((cfg3.win 0).blk ⟨m, hm⟩).view.emb (ix2 p k) = ix2 r (Spec.blockIdx s k) := by
    funext a; apply Fin.ext
    match a with
    | ⟨0, _⟩ => show win3_0.index ⟨m, hm⟩ (0 : Fin 2) * 1024 + 1 * p.val = r.val; omega
    | ⟨1, _⟩ => show win3_0.index ⟨m, hm⟩ (1 : Fin 2) * 2048 + 1 * k.val = 2048 * s.val + k.val; omega
  have hw : ((cfg3.win 1).blk ⟨m, hm⟩).view.emb ((Rect.unit (s := S8192x64) (k3_off1 (grid3.coords ⟨m, hm⟩)) S2048x64.size (k3_off1_inb _)).idx (ix2 k q)) = ix2 (Spec.blockIdx s k) q := by
    funext a; apply Fin.ext
    match a with
    | ⟨0, _⟩ => show win3_1.index ⟨m, hm⟩ (0 : Fin 2) * 8192 + 1 * (k3_off1 (grid3.coords ⟨m, hm⟩) (0 : Fin 2) + 1 * k.val) = 2048 * s.val + k.val; omega
    | ⟨1, _⟩ => show win3_1.index ⟨m, hm⟩ (1 : Fin 2) * 64 + 1 * (k3_off1 (grid3.coords ⟨m, hm⟩) (1 : Fin 2) + 1 * q.val) = q.val; omega
  show matA3 V c (((cfg3.win 0).blk ⟨m, hm⟩).view.emb (ix2 p k)) * matB3 V c (((cfg3.win 1).blk ⟨m, hm⟩).view.emb ((Rect.unit (s := S8192x64) (k3_off1 (grid3.coords ⟨m, hm⟩)) S2048x64.size (k3_off1_inb _)).idx (ix2 k q))) = _
  rw [hx, hw]

/-! ## From the blocks to the array -/

/-- What a point that writes back writes is its block of the scaled product: entry (p, q) of the stored block is the
    accumulator's entry, zero plus the four partial sums, which is the whole inner sum at row 1024·(t / 4) + p, times
    the column's entry in that row. -/
theorem flushed3_eq (c : Dev nD) (t : Fin cfg3.N) (hf : (cfg3.win 3).flush t = true) :
    (dat3 V c).flushed 3 t = ((cfg3.win 3).blk t).view.read (Elt Ideal)
      (Spec.scaleRowsR (Spec.colOf (V c main_call0_v5)) (Spec.mm (V c main_arg2) (V c main_call0_v4))) := by
  have h3 : t.val % 4 = 3 := (flush3_3 t).mp hf
  have hN : cfg3.N = 32 := N_3
  obtain ⟨tv, ht⟩ := t
  obtain ⟨n, rfl⟩ : ∃ n, tv = n + 3 := ⟨tv - 3, by dsimp only at h3; omega⟩
  have hn : n % 4 = 0 := by dsimp only at h3; omega
  show (cfg3.win 3).cut (grid3.coords ⟨n + 3, ht⟩) ((dat3 V c).after 3 ⟨n + 3, ht⟩) = _
  rw [after3_3]
  funext j
  obtain ⟨p, q, rfl⟩ : ∃ (p : Fin 1024) (q : Fin 64), j = ix2 p q := ⟨j 0, j 1, eq_ix2 j⟩
  have hp : p.val < 1024 := p.isLt
  obtain ⟨r, hr⟩ : ∃ r : Fin 8192, r.val = 1024 * (n / 4) + p.val := ⟨⟨1024 * (n / 4) + p.val, by omega⟩, rfl⟩
  obtain ⟨e00, e01, e10, e11, e20, e21, e30, e31, o0, o1⟩ := idx_facts3 ⟨n + 3, ht⟩
  simp only [] at e20 e21 e30 e31
  have he3 : ((cfg3.win 3).blk ⟨n + 3, ht⟩).view.emb (ix2 p q) = ix2 r q := by
    funext a; apply Fin.ext
    match a with
    | ⟨0, _⟩ => show win3_3.index ⟨n + 3, ht⟩ (0 : Fin 2) * 1024 + 1 * p.val = r.val; omega
    | ⟨1, _⟩ => show win3_3.index ⟨n + 3, ht⟩ (1 : Fin 2) * 64 + 1 * q.val = q.val; omega
  have he2 : ((cfg3.win 2).blk ⟨n + 3, ht⟩).view.emb (ix2 p (0 : Fin 1)) = ix2 r (0 : Fin 1) := by
    funext a; apply Fin.ext
    match a with
    | ⟨0, _⟩ => show win3_2.index ⟨n + 3, ht⟩ (0 : Fin 2) * 1024 + 1 * p.val = r.val; omega
    | ⟨1, _⟩ => show win3_2.index ⟨n + 3, ht⟩ (1 : Fin 2) * 1 + 1 * 0 = 0; omega
  show (outsAt3 V c (n + 3) ht).1 (ix2 p q) = Spec.scaleRowsR (Spec.colOf (colF3 V c)) (Spec.mm (matA3 V c) (matB3 V c)) (((cfg3.win 3).blk ⟨n + 3, ht⟩).view.emb (ix2 p q))
  rw [he3, out3_last V c n ht hn, acc3_four V c n ht hn, pay3_3_apply, pay2_3_apply, pay2_3_apply, pay2_3_apply, pay2_3_apply, pay1_3_apply]
  rw [step_sum3 V c n (by omega) p q r 0 (by omega) (by show (0 : ℕ) = _; omega),
    step_sum3 V c (n + 1) (by omega) p q r 1 (by omega) (by show (1 : ℕ) = _; omega),
    step_sum3 V c (n + 2) (by omega) p q r 2 (by omega) (by show (2 : ℕ) = _; omega),
    step_sum3 V c (n + 3) ht p q r 3 (by omega) (by show (3 : ℕ) = _; omega)]
  rw [Spec.mm_four_blocks (matA3 V c) (matB3 V c) Spec.blockIdx Spec.blockIdx_val r q]
  show _ * _ = Spec.mm (matA3 V c) (matB3 V c) (ix2 r q) * Spec.colOf (colF3 V c) (ix1 r)
  refine congrArg (_ * ·) ?_
  show colF3 V c (((cfg3.win 2).blk ⟨n + 3, ht⟩).view.emb (ix2 p (0 : Fin 1))) = colF3 V c (ix2 r (0 : Fin 1))
  rw [he2]

/-- An index of the output's array is in point `t`'s block iff each coordinate is in the block's range on its axis. -/
theorem mem_blk3 (t : Fin cfg3.N) (i : S8192x64.Idx) :
    i ∈ ((cfg3.win 3).blk t).view.set ↔ ∀ a : Fin 2, win3_3.index t a * S1024x64.size a ≤ (i a).val ∧ (i a).val < win3_3.index t a * S1024x64.size a + S1024x64.size a := by
  show i ∈ ((View.whole main_call0_v6).slice (win3_3.rect t)).set ↔ _
  rw [View.set_slice_whole, Rect.mem_set_unit]
  exact Iff.rfl

/-- Every index of the output's array is in the block of a point that writes back: row `r` is in the block written at
    the last step of row block `r / 1024`. -/
theorem cover3 (i : S8192x64.Idx) : ∃ t : Fin cfg3.N, (cfg3.win 3).flush t = true ∧ i ∈ ((cfg3.win 3).blk t).view.set := by
  have hi0 : (i 0).val < 8192 := idx2_lt0 i
  have hi1 : (i 1).val < 64 := idx2_lt1 i
  have hN : cfg3.N = 32 := N_3
  refine ⟨⟨4 * ((i 0).val / 1024) + 3, by omega⟩, (flush3_3 _).mpr (by show (4 * ((i 0).val / 1024) + 3) % 4 = 3; omega), ?_⟩
  rw [mem_blk3]
  obtain ⟨e00, e01, e10, e11, e20, e21, e30, e31, o0, o1⟩ := idx_facts3 ⟨4 * ((i 0).val / 1024) + 3, by omega⟩
  simp only [] at e30 e31
  intro a
  match a with
  | ⟨0, _⟩ => show win3_3.index _ (0 : Fin 2) * 1024 ≤ (i 0).val ∧ (i 0).val < win3_3.index _ (0 : Fin 2) * 1024 + 1024; omega
  | ⟨1, _⟩ => show win3_3.index _ (1 : Fin 2) * 64 ≤ (i 1).val ∧ (i 1).val < win3_3.index _ (1 : Fin 2) * 64 + 64; omega

/-- After region 3 its output's array holds the product of the square matrix with the resident operand, each row scaled
    by its entry of the column. -/
theorem final3 (c : Dev nD) : (dat3 V c).arrAt 3 cfg3.N
    = Spec.scaleRowsR (Spec.colOf (V c main_call0_v5)) (Spec.mm (V c main_arg2) (V c main_call0_v4)) :=
  (dat3 V c).arrAt_eq_of_cover 3 _ (fun t hf => flushed3_eq V c t hf) cover3

end Cert.KernelIdeal.Hand

end
-- ==== Proof.KI.V4.lean ====
/-
  What the last region leaves in its output's array, on the extended reals: the row-wise log-softmax of the product of
  the square matrix with the resident operand.

  At the four points 4r, 4r + 1, 4r + 2, 4r + 3 the body adds, into an accumulator zeroed at the first of them, the
  product of the block (r, s) of the square matrix (rows 1024r ..., columns 2048s ...) with rows 2048s ... of the resident
  operand, s = 0, 1, 2, 3; at the last it takes the log-softmax of each row of the accumulator and stores the block,
  which the pipeline writes back over rows 1024r ... of the output. Entry (p, q) of the accumulator is then zero plus the
  four partial sums over the inner positions, which is the whole inner sum; a row's log-softmax depends on that row
  only, and the rows of the accumulator are rows of the product; the eight written-back blocks tile the 8192 rows, so
  the array ends holding the log-softmax of the product at every index.
-/
import proofs.«173608_j68341519613982_2_alg».proof.Proof.KI.R4
import proofs.«173608_j68341519613982_2_alg».proof.Proof.KI.MatmulAt
import proofs.«173608_j68341519613982_2_alg».proof.Proof.Spec
import proofs.«173608_j68341519613982_2_alg».proof.Proof.SpecExt
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem
open Idealize.ShloMosaic.Pipeline (Dat Cfg Window)
open scoped BigOperators

/-! ## What each case leaves, as values -/

section Cases
variable {F : FTy → Type} [FloatOps F] (V : TcVal F)

theorem zero_off4 : (![0, 0] : Fin 2 → Nat) = fun _ => 0 := funext fun a => by fin_cases a <;> rfl

/-- The rows of the resident operand the step at coordinates `i` multiplies by: the 2048 rows from row 2048·(step). -/
abbrev rows4 (i : grid4.Coords) (x1 : Vec F S8192x64 .bf16) : Vec F S2048x64 .bf16 :=
  View.ld x1 (Rect.unit (s := S8192x64) (k4_off1 i) S2048x64.size (k4_off1_inb i))

/-- The first step of a row block leaves in the accumulator the zero block plus the first partial product: the zero
    fill is read back through the rectangle it was stored through. -/
theorem accA4_eq (c : Dev nD) (t : Fin cfg4.N) (h0 : t.val % 4 = 0) :
    accA4 V c t h0 = k4_pay2 (iblk4 V c 0 t) (rows4 (grid4.coords t) (iblk4 V c 1 t)) (k4_pay1 (F := F)) := by
  unfold accA4
  rw [View.read_writes_eq_canon _ _ _ (scover4_A V c t h0)]
  unfold runA4 kernelRun4_A
  dsimp only
  try sl_unfold_run_names
  rw [View.canon_cons_unit_zero (S := S1024x64) zero_off4, View.readCov_unit_zero (S := S1024x64) _ zero_off4]
  simp only [View.readAt_eq_ld, (hs4_0 t).read_unread, (hs4_1 t).read_unread, (hs4_2 t).read_unread,
    View.ld_unit_zero (S := S1024x2048) zero_off4, View.ld_unit_zero (S := S1024x64) zero_off4]

/-- A middle step leaves in the accumulator what it held plus the step's partial product. -/
theorem accB4_eq (c : Dev nD) (t : Fin cfg4.N) (h0 : ¬ t.val % 4 = 0) (h1 : ¬ t.val % 4 = 3) (xs : Vec F S1024x64 .f32) :
    accB4 V c t h0 h1 xs = k4_pay2 (iblk4 V c 0 t) (rows4 (grid4.coords t) (iblk4 V c 1 t)) xs := by
  unfold accB4
  rw [View.read_writes_eq_canon _ _ _ (scover4_B V c t h0 h1 xs)]
  unfold runB4 kernelRun4_B
  dsimp only
  try sl_unfold_run_names
  rw [View.canon_unit_zero (S := S1024x64) zero_off4]
  simp only [View.readAt_eq_ld, (hs4_0 t).read_unread, (hs4_1 t).read_unread, (hs4_2 t).read_unread,
    (Memref.isWhole_whole cc4_scratch0).read_unread,
    View.ld_unit_zero (S := S1024x2048) zero_off4, View.ld_unit_zero (S := S1024x64) zero_off4]

/-- So does the last step, -/
theorem accC4_eq (c : Dev nD) (t : Fin cfg4.N) (h0 : ¬ t.val % 4 = 0) (h1 : t.val % 4 = 3) (xs : Vec F S1024x64 .f32) :
    accC4 V c t h0 h1 xs = k4_pay2 (iblk4 V c 0 t) (rows4 (grid4.coords t) (iblk4 V c 1 t)) xs := by
  unfold accC4
  rw [View.read_writes_eq_canon _ _ _ (scover4_C V c t h0 h1 xs)]
  unfold runC4 kernelRun4_C
  dsimp only
  try sl_unfold_run_names
  rw [View.canon_unit_zero (S := S1024x64) zero_off4]
  simp only [View.readAt_eq_ld, (hs4_0 t).read_unread, (hs4_1 t).read_unread, (hs4_2 t).read_unread,
    (Memref.isWhole_whole cc4_scratch0).read_unread,
    View.ld_unit_zero (S := S1024x2048) zero_off4, View.ld_unit_zero (S := S1024x64) zero_off4]

/-- and it stores into the output block the finished accumulator's rows, each normalised. -/
theorem outC4_eq (c : Dev nD) (t : Fin cfg4.N) (h0 : ¬ t.val % 4 = 0) (h1 : t.val % 4 = 3) (xs : Vec F S1024x64 .f32) :
    outC4 V c t h0 h1 xs = k4_pay3 (k4_pay2 (iblk4 V c 0 t) (rows4 (grid4.coords t) (iblk4 V c 1 t)) xs) := by
  unfold outC4
  rw [View.read_writes_eq_canon _ _ _ (cover4_C V c t h0 h1 xs)]
  unfold runC4 kernelRun4_C
  dsimp only
  try sl_unfold_run_names
  rw [View.canon_unit_zero (S := S1024x64) zero_off4, View.readCov_unit_zero (S := S1024x64) _ zero_off4]
  simp only [View.readAt_eq_ld, (hs4_0 t).read_unread, (hs4_1 t).read_unread, (hs4_2 t).read_unread,
    (Memref.isWhole_whole cc4_scratch0).read_unread,
    View.ld_unit_zero (S := S1024x2048) zero_off4, View.ld_unit_zero (S := S1024x64) zero_off4]

end Cases

/-! ## The payloads at an index, on the extended reals -/

/-- The zero fill is zero everywhere. -/
theorem pay1_4_apply (p : Fin 1024) (q : Fin 64) : k4_pay1 (F := Ideal) (ix2 p q) = 0 := by
  unfold k4_pay1
  rw [shapeCast_self]
  exact Ideal.ofBits_zero_f32

/-- One step of the accumulation at row `p` and column `q`: what the accumulator held plus the sum over the 2048 inner
    positions of the step (the changes of format are the identity on the extended reals). -/
theorem pay2_4_apply (x0 : Vec Ideal S1024x2048 .f32) (xb : Vec Ideal S2048x64 .bf16) (acc : Vec Ideal S1024x64 .f32)
    (p : Fin 1024) (q : Fin 64) :
    k4_pay2 (F := Ideal) x0 xb acc (ix2 p q) = acc (ix2 p q) + ∑ k : Fin 2048, x0 (ix2 p k) * xb (ix2 k q) := by
  unfold k4_pay2
  rw [shapeCast_self, shapeCast_self, addf_apply, matmul_1024_2048_64_apply]
  rfl

/-- A vector of `a` entries cast to a matrix of one column reads, at `(i, u)`, the vector at `i`. -/
theorem shapeCast_col4 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector made a column and broadcast along the rows reads, at `(p, q)`, the vector at `p`. -/
theorem colBcast4 (v : FVec Ideal S1024 .f32) (h1 : S1024.ShapeCasts S1024x1) (h2 : S1024x1.Broadcasts S1024x64)
    (p : Fin 1024) (q : Fin 64) : broadcastTo S1024x64 (shapeCast S1024x1 v h1) h2 (ix2 p q) = v (ix1 p) :=
  (broadcastTo_apply _ h2 (ix2 p q) (ix2 p (0 : Fin 1)) (fun a => by
    match a with
    | ⟨0, _⟩ => rfl
    | ⟨1, _⟩ => rfl)).trans (shapeCast_col4 v h1 p 0)

/-- Row `p` with column `k` put back is `(p, k)`. -/
theorem lift_row4 (h : S1024x64.Reduces [1] S1024) (p : Fin 1024) (k : Fin (S1024x64.size 1)) :
    h.lift (ix1 p) k = ix2 p (⟨k.val, k.isLt⟩ : Fin 64) := by
  funext c; apply Fin.ext
  fin_cases c <;> rfl

/-- The reduction with a maximum body over the columns from `−∞`, and the maximum of that with `−∞`, at row `p`: the
    row's maximum. -/
theorem rowMax4_apply (acc : FVec Ideal S1024x64 .f32) (h : S1024x64.Reduces [1] S1024) (hφ : FKind.Formats .f32)
    (hacc : (0xFF800000#32 : BitVec 32) = FKind.maximumf.neutral .f32 hφ) (p : Fin 1024) :
    maximumf (broadcast S1024 (Scalar.ofBits (F := Ideal) .f32 0xFF800000#32))
        (multiReduction .maximumf [1] S1024 acc 0xFF800000#32 h hφ hacc) (ix1 p)
      = Spec.rowMax acc p := by
  show max (Ideal.ofBits .f32 0xFF800000#32) (multiReduction .maximumf [1] S1024 acc 0xFF800000#32 h hφ hacc (ix1 p)) = _
  unfold Spec.rowMax
  refine congrArg (max _) ?_
  refine (Ideal.multiReduction_maximumf_single acc 0xFF800000#32 h hφ hacc (ix1 p)).trans ?_
  have hf : (acc ∘ h.lift (ix1 p)) = fun k : Fin 64 => acc (ix2 p k) :=
    funext fun k => congrArg acc (lift_row4 h p k)
  exact congrArg (fun f => Finset.fold max (Ideal.ofBits .f32 0xFF800000#32) f (Finset.univ : Finset (Fin 64))) hf

/-- The reduction with an add body over the columns from zero, at row `p`: the row's sum. -/
theorem rowSum4_apply (src : FVec Ideal S1024x64 .f32) (h : S1024x64.Reduces [1] S1024) (hφ : FKind.Formats .f32)
    (hacc : (0x00000000#32 : BitVec 32) = FKind.add.neutral .f32 hφ) (p : Fin 1024) :
    multiReduction .add [1] S1024 src 0x00000000#32 h hφ hacc (ix1 p) = ∑ k : Fin 64, src (ix2 p k) := by
  refine (Ideal.multiReduction_add_single src 0x00000000#32 h hφ hacc (ix1 p)).trans ?_
  exact Finset.sum_congr rfl fun k _ => congrArg src (lift_row4 h p k)

/-- The stored block at row `p` and column `q`: the log-softmax of row `p` of the accumulator, at column `q`. -/
theorem pay3_4_apply (acc : Vec Ideal S1024x64 .f32) (p : Fin 1024) (q : Fin 64) :
    k4_pay3 (F := Ideal) acc (ix2 p q) = Spec.logSoftmaxRows acc (ix2 p q) := by
  unfold k4_pay3
  rw [subf_apply, subf_apply]
  have hm : ∀ q' : Fin 64, broadcastTo S1024x64 (shapeCast S1024x1 (maximumf (broadcast S1024 (Scalar.ofBits (F := Ideal) .f32 0xFF800000#32))
      (multiReduction .maximumf [1] S1024 acc 0xFF800000#32 reduces_S1024x64_S1024 (.inl rfl) rfl)) shapeCasts_S1024_S1024x1)
      broadcasts_S1024x1_S1024x64 (ix2 p q') = Spec.rowMax acc p := fun q' =>
    (colBcast4 _ _ _ p q').trans (rowMax4_apply acc _ _ _ p)
  rw [hm q]
  show (acc (ix2 p q) - Spec.rowMax acc p) - _ = (acc (ix2 p q) - Spec.rowMax acc p) - Spec.rowLogSumExp acc p
  refine congrArg ((acc (ix2 p q) - Spec.rowMax acc p) - ·) ?_
  refine (broadcastTo_apply _ broadcasts_S1024x1_S1024x64 (ix2 p q) (ix2 p (0 : Fin 1)) (fun a => by
    match a with
    | ⟨0, _⟩ => rfl
    | ⟨1, _⟩ => rfl)).trans ?_
  show Ideal.log (shapeCast S1024x1 _ shapeCasts_S1024_S1024x1 (ix2 p (0 : Fin 1))) = _
  unfold Spec.rowLogSumExp
  refine congrArg Ideal.log ?_
  refine (shapeCast_col4 _ _ p 0).trans ?_
  refine (rowSum4_apply _ _ _ _ p).trans ?_
  refine Finset.sum_congr rfl fun k _ => ?_
  show Ideal.exp (acc (ix2 p k) - _) = Ideal.exp (acc (ix2 p k) - Spec.rowMax acc p)
  rw [hm k]

/-- The log-softmax of a row depends on that row only. -/
theorem logSoftmaxRows_row4 {n n' d : ℕ} (Y : Spec.Mat n d) (Y' : Spec.Mat n' d) (p : Fin n) (r : Fin n')
    (h : ∀ q, Y (ix2 p q) = Y' (ix2 r q)) (q : Fin d) :
    Spec.logSoftmaxRows Y (ix2 p q) = Spec.logSoftmaxRows Y' (ix2 r q) := by
  have hm : Spec.rowMax Y p = Spec.rowMax Y' r := by
    unfold Spec.rowMax
    exact congrArg (fun f => max (Ideal.ofBits .f32 0xFF800000#32) (Finset.fold max (Ideal.ofBits .f32 0xFF800000#32) f Finset.univ))
      (funext h)
  have hs : ∀ q, Spec.shifted Y (ix2 p q) = Spec.shifted Y' (ix2 r q) := fun q => by
    show Y (ix2 p q) - Spec.rowMax Y p = Y' (ix2 r q) - Spec.rowMax Y' r
    rw [h, hm]
  have hl : Spec.rowLogSumExp Y p = Spec.rowLogSumExp Y' r := by
    unfold Spec.rowLogSumExp
    exact congrArg Ideal.log (Finset.sum_congr rfl fun k _ => congrArg Ideal.exp (hs k))
  show Spec.shifted Y (ix2 p q) - Spec.rowLogSumExp Y p = Spec.shifted Y' (ix2 r q) - Spec.rowLogSumExp Y' r
  rw [hs, hl]

/-! ## The accumulator after the four steps of a row block -/

variable (V : TcVal Ideal)

/-- The two operand arrays as the region finds them, read as matrices of extended reals. -/
abbrev matA4 (c : Dev nD) : Spec.Mat 8192 8192 := V c main_arg1
abbrev matB4 (c : Dev nD) : Spec.Mat 8192 64 := V c main_call0_v6

/-- The block of the square matrix the step at position `n` reads, and the rows of the resident operand it multiplies by. -/
abbrev blkA4 (c : Dev nD) (n : ℕ) (h : n < cfg4.N) : Vec Ideal S1024x2048 .f32 := iblk4 V c 0 ⟨n, h⟩
abbrev blkB4 (c : Dev nD) (n : ℕ) (h : n < cfg4.N) : Vec Ideal S2048x64 .bf16 := rows4 (grid4.coords ⟨n, h⟩) (iblk4 V c 1 ⟨n, h⟩)

/-- At the first step of a row block the accumulator ends at the zero block plus the step's product; -/
theorem acc4_reset (c : Dev nD) (n : ℕ) (h : n < cfg4.N) (hn : n % 4 = 0) :
    (outsAt4 V c n h).2 = k4_pay2 (blkA4 V c n h) (blkB4 V c n h) (k4_pay1 (F := Ideal)) :=
  by
  have hA := outsAt4_A V c ⟨n, h⟩ hn
  dsimp only at hA
  rw [hA]
  dsimp only
  exact accA4_eq V c ⟨n, h⟩ hn

/-- at every other step, at what the step before left plus the step's product. -/
theorem acc4_step (c : Dev nD) (n : ℕ) (h : n + 1 < cfg4.N) (hn : ¬(n + 1) % 4 = 0) :
    (outsAt4 V c (n + 1) h).2 = k4_pay2 (blkA4 V c (n + 1) h) (blkB4 V c (n + 1) h) (outsAt4 V c n (Nat.lt_of_succ_lt h)).2 := by
  by_cases h1 : (n + 1) % 4 = 3
  · have hC := outsAt4_C V c ⟨n + 1, h⟩ hn h1
    dsimp only at hC
    rw [hC]
    dsimp only
    exact accC4_eq V c ⟨n + 1, h⟩ hn h1 _
  · have hB := outsAt4_B V c ⟨n + 1, h⟩ hn h1
    dsimp only at hB
    rw [hB]
    dsimp only
    exact accB4_eq V c ⟨n + 1, h⟩ hn h1 _

/-- So after the fourth step it is the zero block with the four products added in order. -/
theorem acc4_four (c : Dev nD) (n : ℕ) (h : n + 3 < cfg4.N) (hn : n % 4 = 0) :
    (outsAt4 V c (n + 3) h).2
      = k4_pay2 (blkA4 V c (n + 3) h) (blkB4 V c (n + 3) h)
          (k4_pay2 (blkA4 V c (n + 2) (by omega)) (blkB4 V c (n + 2) (by omega))
            (k4_pay2 (blkA4 V c (n + 1) (by omega)) (blkB4 V c (n + 1) (by omega))
              (k4_pay2 (blkA4 V c n (by omega)) (blkB4 V c n (by omega)) (k4_pay1 (F := Ideal))))) :=
  (acc4_step V c (n + 2) h (by omega)).trans (congrArg _ ((acc4_step V c (n + 1) (by omega) (by omega)).trans
    (congrArg _ ((acc4_step V c n (by omega) (by omega)).trans (congrArg _ (acc4_reset V c n (by omega) hn))))))

/-- And the block stored at the fourth step is that accumulator with each row normalised. -/
theorem out4_last (c : Dev nD) (n : ℕ) (h : n + 3 < cfg4.N) (hn : n % 4 = 0) :
    (outsAt4 V c (n + 3) h).1 = k4_pay3 (outsAt4 V c (n + 3) h).2 := by
  have h0 : ¬ (n + 3) % 4 = 0 := by omega
  have h1 : (n + 3) % 4 = 3 := by omega
  have hC := outsAt4_C V c ⟨n + 3, h⟩ h0 h1
  dsimp only at hC
  rw [hC]
  dsimp only
  rw [outC4_eq, accC4_eq]

/-! ## Where the blocks sit in their arrays -/

/-- The printed index maps over the 32 points: at point `t` the row-block index of the square matrix's window and of the
    output's is t / 4, the square matrix's column-block index is the step t % 4, every other block index is zero, and the
    rows of the resident operand are read from row 2048·(t % 4). -/
theorem idx_facts4 : ∀ t : Fin cfg4.N,
    win4_0.index t (0 : Fin 2) = t.val / 4 ∧ win4_0.index t (1 : Fin 2) = t.val % 4
    ∧ win4_1.index t (0 : Fin 2) = 0 ∧ win4_1.index t (1 : Fin 2) = 0
    ∧ win4_2.index t (0 : Fin 2) = t.val / 4 ∧ win4_2.index t (1 : Fin 2) = 0
    ∧ k4_off1 (grid4.coords t) (0 : Fin 2) = 2048 * (t.val % 4) ∧ k4_off1 (grid4.coords t) (1 : Fin 2) = 0 :=
  (by decide +kernel : ∀ t : Fin grid4.N, _)

/-- One step's partial sum, read off the arrays: over the inner positions of block `s` = (the step) of the inner range,
    the square matrix's entry in row `r` times the resident operand's entry in column `q`. -/
theorem step_sum4 (c : Dev nD) (m : ℕ) (hm : m < cfg4.N) (p : Fin 1024) (q : Fin 64) (r : Fin 8192) (s : Fin 4)
    (hr : r.val = 1024 * (m / 4) + p.val) (hs : s.val = m % 4) :
    ∑ k : Fin 2048, blkA4 V c m hm (ix2 p k) * blkB4 V c m hm (ix2 k q)
      = ∑ k : Fin 2048, matA4 V c (ix2 r (Spec.blockIdx s k)) * matB4 V c (ix2 (Spec.blockIdx s k) q) := by
  refine Finset.sum_congr rfl fun k _ => ?_
  obtain ⟨e00, e01, e10, e11, e20, e21, o0, o1⟩ := idx_facts4 ⟨m, hm⟩
  simp only [] at e00 e01 e10 e11 o0 o1
  have hx : ((cfg4.win 0).blk ⟨m, hm⟩).view.emb (ix2 p k) = ix2 r (Spec.blockIdx s k) := by
    funext a; apply Fin.ext
    match a with
    | ⟨0, _⟩ => show win4_0.index ⟨m, hm⟩ (0 : Fin 2) * 1024 + 1 * p.val = r.val; omega
    | ⟨1, _⟩ => show win4_0.index ⟨m, hm⟩ (1 : Fin 2) * 2048 + 1 * k.val = 2048 * s.val + k.val; omega
  have hw : ((cfg4.win 1).blk ⟨m, hm⟩).view.emb ((Rect.unit (s := S8192x64) (k4_off1 (grid4.coords ⟨m, hm⟩)) S2048x64.size (k4_off1_inb _)).idx (ix2 k q)) = ix2 (Spec.blockIdx s k) q := by
    funext a; apply Fin.ext
    match a with
    | ⟨0, _⟩ => show win4_1.index ⟨m, hm⟩ (0 : Fin 2) * 8192 + 1 * (k4_off1 (grid4.coords ⟨m, hm⟩) (0 : Fin 2) + 1 * k.val) = 2048 * s.val + k.val; omega
    | ⟨1, _⟩ => show win4_1.index ⟨m, hm⟩ (1 : Fin 2) * 64 + 1 * (k4_off1 (grid4.coords ⟨m, hm⟩) (1 : Fin 2) + 1 * q.val) = q.val; omega
  show matA4 V c (((cfg4.win 0).blk ⟨m, hm⟩).view.emb (ix2 p k)) * matB4 V c (((cfg4.win 1).blk ⟨m, hm⟩).view.emb ((Rect.unit (s := S8192x64) (k4_off1 (grid4.coords ⟨m, hm⟩)) S2048x64.size (k4_off1_inb _)).idx (ix2 k q))) = _
  rw [hx, hw]

/-- Row `p` of the accumulator after the fourth step of a row block is row 1024·(the row block) + p of the product:
    zero plus the four partial sums is the whole inner sum. -/
theorem acc4_row (c : Dev nD) (n : ℕ) (h : n + 3 < cfg4.N) (hn : n % 4 = 0) (p : Fin 1024) (r : Fin 8192)
    (hr : r.val = 1024 * (n / 4) + p.val) (q : Fin 64) :
    (outsAt4 V c (n + 3) h).2 (ix2 p q) = Spec.mm (matA4 V c) (matB4 V c) (ix2 r q) := by
  rw [acc4_four V c n h hn, pay2_4_apply, pay2_4_apply, pay2_4_apply, pay2_4_apply, pay1_4_apply]
  rw [step_sum4 V c n (by omega) p q r 0 (by omega) (by show (0 : ℕ) = _; omega),
    step_sum4 V c (n + 1) (by omega) p q r 1 (by omega) (by show (1 : ℕ) = _; omega),
    step_sum4 V c (n + 2) (by omega) p q r 2 (by omega) (by show (2 : ℕ) = _; omega),
    step_sum4 V c (n + 3) h p q r 3 (by omega) (by show (3 : ℕ) = _; omega)]
  exact Spec.mm_four_blocks (matA4 V c) (matB4 V c) Spec.blockIdx Spec.blockIdx_val r q

/-! ## From the blocks to the array -/

/-- What a point that writes back writes is its block of the log-softmax of the product: entry (p, q) of the stored
    block is the log-softmax of row p of the accumulator at column q, and that row is row 1024·(t / 4) + p of the
    product. -/
theorem flushed4_eq (c : Dev nD) (t : Fin cfg4.N) (hf : (cfg4.win 2).flush t = true) :
    (dat4 V c).flushed 2 t = ((cfg4.win 2).blk t).view.read (Elt Ideal)
      (Spec.logSoftmaxRows (Spec.mm (V c main_arg1) (V c main_call0_v6))) := by
  have h3 : t.val % 4 = 3 := (flush4_2 t).mp hf
  have hN : cfg4.N = 32 := N_4
  obtain ⟨tv, ht⟩ := t
  obtain ⟨n, rfl⟩ : ∃ n, tv = n + 3 := ⟨tv - 3, by dsimp only at h3; omega⟩
  have hn : n % 4 = 0 := by dsimp only at h3; omega
  show (cfg4.win 2).cut (grid4.coords ⟨n + 3, ht⟩) ((dat4 V c).after 2 ⟨n + 3, ht⟩) = _
  rw [after4_2]
  funext j
  obtain ⟨p, q, rfl⟩ : ∃ (p : Fin 1024) (q : Fin 64), j = ix2 p q := ⟨j 0, j 1, eq_ix2 j⟩
  have hp : p.val < 1024 := p.isLt
  obtain ⟨r, hr⟩ : ∃ r : Fin 8192, r.val = 1024 * (n / 4) + p.val := ⟨⟨1024 * (n / 4) + p.val, by omega⟩, rfl⟩
  obtain ⟨e00, e01, e10, e11, e20, e21, o0, o1⟩ := idx_facts4 ⟨n + 3, ht⟩
  simp only [] at e20 e21
  have he2 : ((cfg4.win 2).blk ⟨n + 3, ht⟩).view.emb (ix2 p q) = ix2 r q := by
    funext a; apply Fin.ext
    match a with
    | ⟨0, _⟩ => show win4_2.index ⟨n + 3, ht⟩ (0 : Fin 2) * 1024 + 1 * p.val = r.val; omega
    | ⟨1, _⟩ => show win4_2.index ⟨n + 3, ht⟩ (1 : Fin 2) * 64 + 1 * q.val = q.val; omega
  show (outsAt4 V c (n + 3) ht).1 (ix2 p q) = Spec.logSoftmaxRows (Spec.mm (matA4 V c) (matB4 V c)) (((cfg4.win 2).blk ⟨n + 3, ht⟩).view.emb (ix2 p q))
  rw [he2, out4_last V c n ht hn, pay3_4_apply]
  exact logSoftmaxRows_row4 _ _ p r (fun q' => acc4_row V c n ht hn p r hr q') q

/-- An index of the output's array is in point `t`'s block iff each coordinate is in the block's range on its axis. -/
theorem mem_blk4 (t : Fin cfg4.N) (i : S8192x64.Idx) :
    i ∈ ((cfg4.win 2).blk t).view.set ↔ ∀ a : Fin 2, win4_2.index t a * S1024x64.size a ≤ (i a).val ∧ (i a).val < win4_2.index t a * S1024x64.size a + S1024x64.size a := by
  show i ∈ ((View.whole main_v0).slice (win4_2.rect t)).set ↔ _
  rw [View.set_slice_whole, Rect.mem_set_unit]
  exact Iff.rfl

/-- Every index of the output's array is in the block of a point that writes back: row `r` is in the block written at
    the last step of row block `r / 1024`. -/
theorem cover4 (i : S8192x64.Idx) : ∃ t : Fin cfg4.N, (cfg4.win 2).flush t = true ∧ i ∈ ((cfg4.win 2).blk t).view.set := by
  have hi0 : (i 0).val < 8192 := idx2_lt0 i
  have hi1 : (i 1).val < 64 := idx2_lt1 i
  have hN : cfg4.N = 32 := N_4
  refine ⟨⟨4 * ((i 0).val / 1024) + 3, by omega⟩, (flush4_2 _).mpr (by show (4 * ((i 0).val / 1024) + 3) % 4 = 3; omega), ?_⟩
  rw [mem_blk4]
  obtain ⟨e00, e01, e10, e11, e20, e21, o0, o1⟩ := idx_facts4 ⟨4 * ((i 0).val / 1024) + 3, by omega⟩
  simp only [] at e20 e21
  intro a
  match a with
  | ⟨0, _⟩ => show win4_2.index _ (0 : Fin 2) * 1024 ≤ (i 0).val ∧ (i 0).val < win4_2.index _ (0 : Fin 2) * 1024 + 1024; omega
  | ⟨1, _⟩ => show win4_2.index _ (1 : Fin 2) * 64 ≤ (i 1).val ∧ (i 1).val < win4_2.index _ (1 : Fin 2) * 64 + 64; omega

/-- After the last region its output's array holds the row-wise log-softmax of the product of the square matrix with
    the resident operand. -/
theorem final4 (c : Dev nD) : (dat4 V c).arrAt 2 cfg4.N
    = Spec.logSoftmaxRows (Spec.mm (V c main_arg1) (V c main_call0_v6)) :=
  (dat4 V c).arrAt_eq_of_cover 2 _ (fun t hf => flushed4_eq V c t hf) cover4

end Cert.KernelIdeal.Hand

end
-- ==== Proof.KI.Chain.lean ====
/-
  The idealized kernel's result as one function of its seven arguments. Each region's output array is a named
  function of the arrays it reads (the five region modules); a host stretch between two regions only reshapes a
  filter vector into a column or changes the format of the projection matrix, which on the extended reals changes
  nothing; and no region or stretch touches an argument. Reading the fold of the buffer contents backwards from the
  last region's output therefore gives: log-softmax over rows of W·(f2 ∘ (Winv·(relu(W·(f1 ∘ (Winv·(x·w1))))·w2))),
  the scaling written on the right in the kernel and on the left in the specification — the same product.
-/
import proofs.«173608_j68341519613982_2_alg».proof.Proof.KI.Run
import proofs.«173608_j68341519613982_2_alg».proof.Proof.KI.V0
import proofs.«173608_j68341519613982_2_alg».proof.Proof.KI.V1
import proofs.«173608_j68341519613982_2_alg».proof.Proof.KI.V2
import proofs.«173608_j68341519613982_2_alg».proof.Proof.KI.V3
import proofs.«173608_j68341519613982_2_alg».proof.Proof.KI.V4
import proofs.«173608_j68341519613982_2_alg».proof.Proof.SpecExt
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

/-! ## The seven arguments, as the specification's matrices and vectors -/

abbrev aX (c : Dev nD) : Spec.Mat 8192 512 := m ((c : Thread nD τ).loc main_arg0)
abbrev aW (c : Dev nD) : Spec.Mat 8192 8192 := m ((c : Thread nD τ).loc main_arg1)
abbrev aWinv (c : Dev nD) : Spec.Mat 8192 8192 := m ((c : Thread nD τ).loc main_arg2)
abbrev aW1 (c : Dev nD) : Spec.Mat 512 256 := m ((c : Thread nD τ).loc main_arg3)
abbrev aF1 (c : Dev nD) : Spec.Col 8192 := m ((c : Thread nD τ).loc main_arg4)
abbrev aW2 (c : Dev nD) : Spec.Mat 256 64 := m ((c : Thread nD τ).loc main_arg5)
abbrev aF2 (c : Dev nD) : Spec.Col 8192 := m ((c : Thread nD τ).loc main_arg6)

/-! ## The arguments as each region finds them -/

theorem V2_arg2 (c : Dev nD) : V2 m c main_arg2 = aWinv m c :=
  (W2_keep m c main_arg2 (by decide)).trans <| (W1_keep m c main_arg2 (by decide)).trans rfl
theorem V4_arg1 (c : Dev nD) : V4 m c main_arg1 = aW m c :=
  (W4_keep m c main_arg1 (by decide)).trans <| (W3_keep m c main_arg1 (by decide)).trans <|
  (W2_keep m c main_arg1 (by decide)).trans <| (W1_keep m c main_arg1 (by decide)).trans rfl
theorem V6_arg2 (c : Dev nD) : V6 m c main_arg2 = aWinv m c :=
  (W6_keep m c main_arg2 (by decide)).trans <| (W5_keep m c main_arg2 (by decide)).trans <|
  (W4_keep m c main_arg2 (by decide)).trans <| (W3_keep m c main_arg2 (by decide)).trans <|
  (W2_keep m c main_arg2 (by decide)).trans <| (W1_keep m c main_arg2 (by decide)).trans rfl
theorem V7_arg1 (c : Dev nD) : V7 m c main_arg1 = aW m c :=
  (W7_keep m c main_arg1 (by decide)).trans <| (W6_keep m c main_arg1 (by decide)).trans <|
  (W5_keep m c main_arg1 (by decide)).trans <| (W4_keep m c main_arg1 (by decide)).trans <|
  (W3_keep m c main_arg1 (by decide)).trans <| (W2_keep m c main_arg1 (by decide)).trans <|
  (W1_keep m c main_arg1 (by decide)).trans rfl
theorem W1_arg4 (c : Dev nD) : W1 m c (Proc.devRef .tc main_arg4) = aF1 m c := (W1_keep m c main_arg4 (by decide)).trans rfl
theorem W3_arg5 (c : Dev nD) : W3 m c (Proc.devRef .tc main_arg5) = aW2 m c :=
  (W3_keep m c main_arg5 (by decide)).trans <| (W2_keep m c main_arg5 (by decide)).trans <| (W1_keep m c main_arg5 (by decide)).trans rfl
theorem W5_arg6 (c : Dev nD) : W5 m c (Proc.devRef .tc main_arg6) = aF2 m c :=
  (W5_keep m c main_arg6 (by decide)).trans <| (W4_keep m c main_arg6 (by decide)).trans <|
  (W3_keep m c main_arg6 (by decide)).trans <| (W2_keep m c main_arg6 (by decide)).trans <| (W1_keep m c main_arg6 (by decide)).trans rfl

/-! ## What the three host stretches leave -/

/-- The first filter vector, reshaped into a column, read back as a vector. -/
theorem col_v1 (c : Dev nD) : Spec.colOf (V2 m c main_call0_v1) = aF1 m c := by
  funext i
  obtain ⟨r, rfl⟩ : ∃ r : Fin 8192, i = ix1 r := ⟨i 0, eq_ix1 i⟩
  rw [Spec.colOf_apply, ← W1_arg4]
  show StableHlo.after hostOps1 (W1 m c) (Proc.devRef .tc main_call0_v1) (ix2 r (0 : Fin 1)) = _
  after_results
  exact shapeCast_apply _ _ _ (ix1 r) (by
    show (S8192.rowMajor (ix1 r)).val = (S8192x1.rowMajor (ix2 r (0 : Fin 1))).val
    rw [Shape.rowMajor_val_one, Shape.rowMajor_val_two]
    show r.val = r.val * 1 + 0
    omega)

/-- The second filter vector, likewise. -/
theorem col_v5 (c : Dev nD) : Spec.colOf (V6 m c main_call0_v5) = aF2 m c := by
  funext i
  obtain ⟨r, rfl⟩ : ∃ r : Fin 8192, i = ix1 r := ⟨i 0, eq_ix1 i⟩
  rw [Spec.colOf_apply, ← W5_arg6]
  show StableHlo.after hostOps3 (W5 m c) (Proc.devRef .tc main_call0_v5) (ix2 r (0 : Fin 1)) = _
  after_results
  exact shapeCast_apply _ _ _ (ix1 r) (by
    show (S8192.rowMajor (ix1 r)).val = (S8192x1.rowMajor (ix2 r (0 : Fin 1))).val
    rw [Shape.rowMajor_val_one, Shape.rowMajor_val_two]
    show r.val = r.val * 1 + 0
    omega)

/-- The projection matrix after its change of format: on the extended reals, itself. -/
theorem V4_v3 (c : Dev nD) : V4 m c main_call0_v3 = aW2 m c := by
  rw [← W3_arg5]
  show StableHlo.after hostOps2 (W3 m c) (Proc.devRef .tc main_call0_v3) = _
  after_results
  rfl

/-! ## The five regions' results, one after the other -/

/-- After the first region: x times w1. -/
theorem val0 (c : Dev nD) : W1 m c (Proc.devRef .tc main_call0_v0) = Spec.mm (aX m c) (aW1 m c) :=
  (W1_arr m c 2).trans (final0 (V0 m) c)

theorem V2_v0 (c : Dev nD) : V2 m c main_call0_v0 = Spec.mm (aX m c) (aW1 m c) :=
  (W2_keep m c main_call0_v0 (by decide)).trans (val0 m c)

/-- After the second: the inverse transform of that, its rows scaled by the first filter. -/
theorem val1 (c : Dev nD) : W3 m c (Proc.devRef .tc main_call0_v2)
    = Spec.scaleRowsR (aF1 m c) (Spec.mm (aWinv m c) (Spec.mm (aX m c) (aW1 m c))) := by
  refine (W3_arr m c 3).trans ((final1 (V2 m) c).trans ?_)
  rw [col_v1, V2_arg2, V2_v0]

theorem V4_v2 (c : Dev nD) : V4 m c main_call0_v2
    = Spec.scaleRowsR (aF1 m c) (Spec.mm (aWinv m c) (Spec.mm (aX m c) (aW1 m c))) :=
  (W4_keep m c main_call0_v2 (by decide)).trans (val1 m c)

/-- After the third: the transform of that, its negative part cut off, times w2. -/
theorem val2 (c : Dev nD) : W5 m c (Proc.devRef .tc main_call0_v4)
    = Spec.mm (Spec.relu (Spec.mm (aW m c) (Spec.scaleRowsR (aF1 m c) (Spec.mm (aWinv m c) (Spec.mm (aX m c) (aW1 m c)))))) (aW2 m c) := by
  refine (W5_arr m c 3).trans ((final2 (V4 m) c).trans ?_)
  rw [V4_arg1, V4_v2, V4_v3]

theorem V6_v4 (c : Dev nD) : V6 m c main_call0_v4
    = Spec.mm (Spec.relu (Spec.mm (aW m c) (Spec.scaleRowsR (aF1 m c) (Spec.mm (aWinv m c) (Spec.mm (aX m c) (aW1 m c)))))) (aW2 m c) :=
  (W6_keep m c main_call0_v4 (by decide)).trans (val2 m c)

/-- After the fourth: the inverse transform again, rows scaled by the second filter. -/
theorem val3 (c : Dev nD) : W7 m c (Proc.devRef .tc main_call0_v6)
    = Spec.scaleRowsR (aF2 m c) (Spec.mm (aWinv m c)
        (Spec.mm (Spec.relu (Spec.mm (aW m c) (Spec.scaleRowsR (aF1 m c) (Spec.mm (aWinv m c) (Spec.mm (aX m c) (aW1 m c)))))) (aW2 m c))) := by
  refine (W7_arr m c 3).trans ((final3 (V6 m) c).trans ?_)
  rw [col_v5, V6_arg2, V6_v4]

/-- After the fifth: the row-wise log-softmax of the transform of that — the specification's function of the seven
    arguments (scaling a row on the right or on the left is the same product). -/
theorem result_eq (c : Dev nD) : (dat4 (V7 m) c).arrAt 2 cfg4.N
    = Spec.G (aX m c) (aW m c) (aWinv m c) (aW1 m c) (aF1 m c) (aW2 m c) (aF2 m c) := by
  refine (final4 (V7 m) c).trans ?_
  rw [V7_arg1, show V7 m c main_call0_v6 = _ from val3 m c]
  unfold Spec.G
  rw [Spec.scaleRowsR_eq, Spec.scaleRowsR_eq]

end Cert.KernelIdeal.Hand

end
-- ==== Proof.RefG.lean ====
/-
  The reference program computes the specification. Its generated run ends with the result array at the composed term of
  its thirty host operations; read one element at a time, stage after stage, that term is `Spec.G` of the seven
  arguments: each `dot_general` is the sum over its one contracted axis, the two broadcasts of a column followed by a
  product scale the rows, the maximum with a broadcast zero is the `relu`, and the row maximum, subtraction, exponential,
  row sum, logarithm and subtraction are the row-wise log-softmax. The only arithmetic used is `0 + s = s` for the row
  sum's initial value.
-/
import proofs.«173608_j68341519613982_2_alg».proof.Proof.Spec
import proofs.«173608_j68341519613982_2_alg».proof.Proof.RefReadP

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

/-! ## The stages that are products, scalings and the `relu` -/

/-- A stage that is, at every index, the sum over `k` of the left operand at `(row, k)` times the right at `(k, column)`
    is the matrix product. -/
theorem dot_stage {a b c : Nat} (A : Spec.Mat a b) (B : Spec.Mat b c) (V : Spec.Mat a c)
    (li : (⟨2, ![a, c]⟩ : Shape).Idx → Fin b → (⟨2, ![a, b]⟩ : Shape).Idx)
    (ri : (⟨2, ![a, c]⟩ : Shape).Idx → Fin b → (⟨2, ![b, c]⟩ : Shape).Idx)
    (hV : ∀ i, V i = ∑ k : Fin b, A (li i k) * B (ri i k))
    (hl : ∀ i k, li i k = ix2 (n0 := a) (n1 := b) (i 0) k) (hr : ∀ i k, ri i k = ix2 (n0 := b) (n1 := c) k (i 1)) :
    V = Spec.mm A B := by
  funext i
  rw [hV i]
  exact Finset.sum_congr rfl fun k _ => by rw [hl, hr]

variable (x0 : (⟨S8192x512, .f32⟩ : BufTy).Contents (Elt Ideal)) (x1 x2 : (⟨S8192x8192, .f32⟩ : BufTy).Contents (Elt Ideal))
  (x3 : (⟨S512x256, .f32⟩ : BufTy).Contents (Elt Ideal)) (x4 : (⟨S8192, .f32⟩ : BufTy).Contents (Elt Ideal))
  (x5 : (⟨S256x64, .f32⟩ : BufTy).Contents (Elt Ideal)) (x6 : (⟨S8192, .f32⟩ : BufTy).Contents (Elt Ideal))

/-- `x · w1`. -/
theorem stage_v0 : val_main_v0 (F := Ideal) x0 x3 = Spec.mm x0 x3 :=
  dot_stage x0 x3 _ lidx_main_v0 ridx_main_v0 (val_main_v0_apply x0 x3)
    (fun i k => funext fun d => by match d with | ⟨0, _⟩ => rfl | ⟨1, _⟩ => rfl)
    (fun i k => funext fun d => by match d with | ⟨0, _⟩ => rfl | ⟨1, _⟩ => rfl)

/-- `W⁻ · (x · w1)`. -/
theorem stage_v1 : val_main_v1 (F := Ideal) x0 x2 x3 = Spec.mm x2 (Spec.mm x0 x3) := by
  rw [← stage_v0]
  exact dot_stage x2 (val_main_v0 (F := Ideal) x0 x3) _ lidx_main_v1 ridx_main_v1 (val_main_v1_apply x0 x2 x3)
    (fun i k => funext fun d => by match d with | ⟨0, _⟩ => rfl | ⟨1, _⟩ => rfl)
    (fun i k => funext fun d => by match d with | ⟨0, _⟩ => rfl | ⟨1, _⟩ => rfl)

/-- The rows scaled by `f1`. -/
theorem stage_v4 : val_main_v4 (F := Ideal) x0 x2 x3 x4 = Spec.scaleRows x4 (Spec.mm x2 (Spec.mm x0 x3)) := by
  funext i
  rw [val_main_v4_apply, val_main_v3_apply, val_main_v2_apply, stage_v1]
  have e : idx_main_v2 (idx_main_v3 i) = ix1 (i 0) := funext fun d => by match d with | ⟨0, _⟩ => rfl
  rw [e]
  rfl

/-- `W · (diag f1 · (W⁻ · (x · w1)))`: the first layer. -/
theorem stage_v5 : val_main_v5 (F := Ideal) x0 x1 x2 x3 x4
    = Spec.mm x1 (Spec.scaleRows x4 (Spec.mm x2 (Spec.mm x0 x3))) := by
  rw [← stage_v4]
  exact dot_stage x1 (val_main_v4 (F := Ideal) x0 x2 x3 x4) _ lidx_main_v5 ridx_main_v5 (val_main_v5_apply x0 x1 x2 x3 x4)
    (fun i k => funext fun d => by match d with | ⟨0, _⟩ => rfl | ⟨1, _⟩ => rfl)
    (fun i k => funext fun d => by match d with | ⟨0, _⟩ => rfl | ⟨1, _⟩ => rfl)

/-- Its `relu`. -/
theorem stage_v6 : val_main_v6 (F := Ideal) x0 x1 x2 x3 x4
    = Spec.relu (Spec.mm x1 (Spec.scaleRows x4 (Spec.mm x2 (Spec.mm x0 x3)))) := by
  funext i
  rw [val_main_v6_apply, val_main_call0_v0_apply, val_main_call0_cst_apply, stage_v5]
  rfl

/-- `h · w2`. -/
theorem stage_v7 : val_main_v7 (F := Ideal) x0 x1 x2 x3 x4 x5
    = Spec.mm (Spec.relu (Spec.mm x1 (Spec.scaleRows x4 (Spec.mm x2 (Spec.mm x0 x3))))) x5 := by
  rw [← stage_v6]
  exact dot_stage (val_main_v6 (F := Ideal) x0 x1 x2 x3 x4) x5 _ lidx_main_v7 ridx_main_v7 (val_main_v7_apply x0 x1 x2 x3 x4 x5)
    (fun i k => funext fun d => by match d with | ⟨0, _⟩ => rfl | ⟨1, _⟩ => rfl)
    (fun i k => funext fun d => by match d with | ⟨0, _⟩ => rfl | ⟨1, _⟩ => rfl)

/-- `W⁻ · (h · w2)`. -/
theorem stage_v8 : val_main_v8 (F := Ideal) x0 x1 x2 x3 x4 x5
    = Spec.mm x2 (Spec.mm (Spec.relu (Spec.mm x1 (Spec.scaleRows x4 (Spec.mm x2 (Spec.mm x0 x3))))) x5) := by
  rw [← stage_v7]
  exact dot_stage x2 (val_main_v7 (F := Ideal) x0 x1 x2 x3 x4 x5) _ lidx_main_v8 ridx_main_v8 (val_main_v8_apply x0 x1 x2 x3 x4 x5)
    (fun i k => funext fun d => by match d with | ⟨0, _⟩ => rfl | ⟨1, _⟩ => rfl)
    (fun i k => funext fun d => by match d with | ⟨0, _⟩ => rfl | ⟨1, _⟩ => rfl)

/-- The rows scaled by `f2`. -/
theorem stage_v11 : val_main_v11 (F := Ideal) x0 x1 x2 x3 x4 x5 x6
    = Spec.scaleRows x6 (Spec.mm x2 (Spec.mm (Spec.relu (Spec.mm x1 (Spec.scaleRows x4 (Spec.mm x2 (Spec.mm x0 x3))))) x5)) := by
  funext i
  rw [val_main_v11_apply, val_main_v10_apply, val_main_v9_apply, stage_v8]
  have e : idx_main_v9 (idx_main_v10 i) = ix1 (i 0) := funext fun d => by match d with | ⟨0, _⟩ => rfl
  rw [e]
  rfl

/-- The second layer: the array whose rows the log-softmax normalises. -/
abbrev logits : Spec.Mat 8192 64 :=
  Spec.mm x1 (Spec.scaleRows x6 (Spec.mm x2 (Spec.mm (Spec.relu (Spec.mm x1 (Spec.scaleRows x4 (Spec.mm x2 (Spec.mm x0 x3))))) x5)))

theorem stage_v12 : val_main_v12 (F := Ideal) x0 x1 x2 x3 x4 x5 x6 = logits x0 x1 x2 x3 x4 x5 x6 := by
  unfold logits
  rw [← stage_v11]
  exact dot_stage x1 (val_main_v11 (F := Ideal) x0 x1 x2 x3 x4 x5 x6) _ lidx_main_v12 ridx_main_v12
    (val_main_v12_apply x0 x1 x2 x3 x4 x5 x6)
    (fun i k => funext fun d => by match d with | ⟨0, _⟩ => rfl | ⟨1, _⟩ => rfl)
    (fun i k => funext fun d => by match d with | ⟨0, _⟩ => rfl | ⟨1, _⟩ => rfl)

/-! ## The log-softmax -/

/-- Row `r` with column `k` put back is `(r, k)`. -/
theorem lift_row (h : S8192x64.Reduces [1] S8192) (j : S8192.Idx) (k : Fin (S8192x64.size 1)) :
    h.lift j k = ix2 (j 0) (⟨k.val, k.isLt⟩ : Fin 64) := by
  funext c; apply Fin.ext
  fin_cases c <;> rfl

/-- The host's reduction with a maximum body over the columns, from `−∞`, is the fold of `max` over the row. -/
theorem stage_call1_v0 (j : S8192.Idx) : val_main_call1_v0 (F := Ideal) x0 x1 x2 x3 x4 x5 x6 j
    = (Finset.univ : Finset (Fin 64)).fold max (Ideal.ofBits .f32 0xFF800000#32)
        fun k => logits x0 x1 x2 x3 x4 x5 x6 (ix2 (j 0) k) := by
  unfold val_main_call1_v0
  rw [stage_v12]
  have h : S8192x64.Reduces [1] S8192 := by decide
  rw [Host.reduce_eq_fold_single FloatOps.maximumf _ _ reducesTo_S8192x64_S8192_d1 h h_S_]
  have hf : (logits x0 x1 x2 x3 x4 x5 x6 ∘ h.lift j) = fun k : Fin 64 => logits x0 x1 x2 x3 x4 x5 x6 (ix2 (j 0) k) :=
    funext fun k => congrArg (logits x0 x1 x2 x3 x4 x5 x6) (lift_row h j k)
  exact congrArg (fun f => Finset.fold max (Ideal.ofBits .f32 0xFF800000#32) f (Finset.univ : Finset (Fin 64))) hf

/-- The row maximum. -/
theorem stage_call1_v2 (j : S8192.Idx) : val_main_call1_v2 (F := Ideal) x0 x1 x2 x3 x4 x5 x6 j
    = Spec.rowMax (logits x0 x1 x2 x3 x4 x5 x6) (j 0) := by
  rw [val_main_call1_v2_apply, val_main_call1_v1_apply, val_main_call1_cst_0_apply, stage_call1_v0]
  rfl

/-- Each entry less its row's maximum. -/
theorem stage_call1_v5 : val_main_call1_v5 (F := Ideal) x0 x1 x2 x3 x4 x5 x6
    = Spec.shifted (logits x0 x1 x2 x3 x4 x5 x6) := by
  funext i
  rw [val_main_call1_v5_apply, val_main_call1_v4_apply, val_main_call1_v3_apply, stage_call1_v2, stage_v12]
  rfl

/-- The logarithm of the row's sum of exponentials; the sum's initial value is the zero. -/
theorem stage_call1_v9 (i : S8192x1.Idx) : val_main_call1_v9 (F := Ideal) x0 x1 x2 x3 x4 x5 x6 i
    = Spec.rowLogSumExp (logits x0 x1 x2 x3 x4 x5 x6) (i 0) := by
  rw [val_main_call1_v9_apply, val_main_call1_v8_apply, val_main_call1_v7_apply, val_main_call1_cst_1_apply]
  show Ideal.log (Ideal.ofBits .f32 0x00000000#32 + _) = _
  rw [Ideal.ofBits_zero_f32, zero_add]
  unfold Spec.rowLogSumExp
  refine congrArg Ideal.log (Finset.sum_congr rfl fun k _ => ?_)
  have e : idx_main_call1_v7 (idx_main_call1_v8 i) k = ix2 (i 0) k :=
    funext fun d => by match d with | ⟨0, _⟩ => rfl | ⟨1, _⟩ => rfl
  rw [val_main_call1_v6_apply, stage_call1_v5, e]
  rfl

/-- THE REFERENCE'S RESULT TERM IS THE SPECIFICATION. -/
theorem val_eq_G : val_main_v13 (F := Ideal) x0 x1 x2 x3 x4 x5 x6 = Spec.G x0 x1 x2 x3 x4 x5 x6 := by
  funext i
  rw [val_main_v13_apply, val_main_call1_v10_apply, stage_call1_v9, stage_call1_v5]
  rfl

/-! ## The run -/

/-- Every weakly fair execution of the reference terminates with its result array at `Spec.G` of the seven argument
    arrays as it found them, and those arrays unchanged. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      fun r => ∀ c : Dev nD,
        r.2.mem ((c.tc : Thread nD τ).loc main_v13)
          = Spec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run (Cert.ReferenceIdeal.defs (F := Ideal)) _ _).mono
    (fun _ h c => ⟨(h c).1.trans ((val_main_v13_eq m c).trans (val_eq_G _ _ _ _ _ _ _)), (h c).2⟩)
    (Cert.ReferenceIdeal.ValueP.run (F := Ideal) m ρ)

end Cert.ReferenceIdeal.RefValue

end
-- ==== Proof.lean ====
/-
  The certificate of a two-layer graph-wavelet network: for filters f1, f2, transforms W and Winv and weights w1, w2,
      out = log-softmax over rows of  W · (f2 ∘ (Winv · (relu(W · (f1 ∘ (Winv · (x · w1)))) · w2))),
  where f ∘ Y scales row r of Y by f r. The kernel computes it in five launches — x·w1; then two pairs of a
  K-blocked product with Winv scaled by a filter column and a K-blocked product with W followed by relu and w2, or
  by the log-softmax — each big product accumulated over four blocks of 2048 inner positions from a zero accumulator.
  The reference computes the same chain with whole products. On the extended reals a sum split into consecutive
  blocks and started from zero is the whole sum, the scaling of a row commutes with the product it scales, and a
  change of float format is the identity; none of this needs the inputs finite, so the precondition is never opened.

  The three frames: the word-level kernel's and the idealized kernel's are one run of the five regions
  and the three host stretches between them, stated for any float instance and read at the two; the reference's is
  its run with the result dropped. The idealization rewrote no operation, so `preserves` is trivial. `algebraic`:
  the idealized kernel's run ends with its result at the specification's function of its arguments, the reference's
  run at the same function of its own, and the two memories agree on the arguments.
-/
import proofs.«173608_j68341519613982_2_alg».proof.Defs
import proofs.«173608_j68341519613982_2_alg».proof.Proof.Gen.Kernel
import proofs.«173608_j68341519613982_2_alg».proof.Proof.Gen.KernelIdeal
import proofs.«173608_j68341519613982_2_alg».proof.Proof.Gen.ReferenceIdeal
import proofs.«173608_j68341519613982_2_alg».proof.Proof.Gen.Pre_finite_inputs
import proofs.«173608_j68341519613982_2_alg».proof.Proof.K.Run
import proofs.«173608_j68341519613982_2_alg».proof.Proof.KI.Run
import proofs.«173608_j68341519613982_2_alg».proof.Proof.KI.Chain
import proofs.«173608_j68341519613982_2_alg».proof.Proof.RefG

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run, the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote nothing. -/
theorem preserves : Cert.preserves_Kernel_KernelIdeal := trivial

/-- From memories agreeing on the seven arguments both idealized programs end with the specification's function of
    those arguments in their result. -/
theorem algebraic : Cert.algebraic_KernelIdeal_ReferenceIdeal := by
  intro m ρ m' ρ' _ hagree
  refine ⟨fun c => Cert.Spec.G (Cert.KernelIdeal.Hand.aX m c) (Cert.KernelIdeal.Hand.aW m c) (Cert.KernelIdeal.Hand.aWinv m c)
      (Cert.KernelIdeal.Hand.aW1 m c) (Cert.KernelIdeal.Hand.aF1 m c) (Cert.KernelIdeal.Hand.aW2 m c) (Cert.KernelIdeal.Hand.aF2 m c), ?_, ?_⟩
  · exact (θ_run Cert.KernelIdeal.defs _ _).mono
      (fun _ h c => ⟨(h c).1.trans (Cert.KernelIdeal.Hand.result_eq m c), (h c).2⟩)
      (Cert.KernelIdeal.Hand.run_valued (F := Ideal) m ρ)
  · refine (θ_run Cert.ReferenceIdeal.defs _ _).mono (fun _ h c => ⟨(h c).1.trans ?_, (h c).2⟩)
      (Cert.ReferenceIdeal.RefValue.ref_run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
